-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x6400000 : Shape := ⟨2, ![2, 6400000]⟩
abbrev S1x16 : Shape := ⟨2, ![1, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1x16 : S_.BroadcastsInDim S1x16 (![] : Fin 0 → Fin S1x16.rank)
  reducesTo_S1x16_S_d0_1 : S1x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S16x2 1) : IVec S_ 1 :=
  let main_c_5 : IVec S_ 1 := constantI S_ 1 1#1
  let main_v17 : IVec S_ 1 := (fun x v => Host.reduce IntOp.andi x v reducesTo_S16x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x1 .f32) (main_arg1 : IVec S2x6400000 32) (main_arg2 : FVec F S1x16 .f32) (main_arg3 : FVec F S16 .f32) (main_arg4 : FVec F S16x2 .f32) (main_arg5 : FVec F S2 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1x16 .f32 := Host.absf main_arg2
  let main_cst_0 : FVec F S_ .f32 := constant S_ .f32 0x7F800000#32
  let main_v5 : FVec F S1x16 .f32 := broadcastInDim S1x16 ![] bcast_S_S1x16 main_cst_0
  let main_v6 : IVec S1x16 1 := cmpf .olt main_v4 main_v5
  let main_c_1 : IVec S_ 1 := constantI S_ 1 1#1
  let main_v7 : IVec S_ 1 := (fun x v => Host.reduce IntOp.andi x v reducesTo_S1x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x2 .f32 := Host.absf main_arg4
  let main_cst_4 : FVec F S_ .f32 := constant S_ .f32 0x7F800000#32
  let main_v15 : FVec F S16x2 .f32 := broadcastInDim S16x2 ![] bcast_S_S16x2 main_cst_4
  let main_v16 : IVec S16x2 1 := cmpf .olt main_v14 main_v15
  fn_part1 (F := F) main_arg5 main_v13 main_v16
-- ==== Kernel.lean ====
abbrev S100000x1 : Shape := ⟨2, ![100000, 1]⟩
abbrev S2x6400000 : Shape := ⟨2, ![2, 6400000]⟩
abbrev S1x16 : Shape := ⟨2, ![1, 16]⟩
abbrev S16 : Shape := ⟨1, ![16]⟩
abbrev S16x2 : Shape := ⟨2, ![16, 2]⟩
abbrev S2 : Shape := ⟨1, ![2]⟩
abbrev S1x6400000 : Shape := ⟨2, ![1, 6400000]⟩
abbrev S6400000 : Shape := ⟨1, ![6400000]⟩
abbrev S_ : Shape := ⟨0, ![]⟩
abbrev S100000 : Shape := ⟨1, ![100000]⟩
abbrev S6400000x1 : Shape := ⟨2, ![6400000, 1]⟩
abbrev S100000x16 : Shape := ⟨2, ![100000, 16]⟩
abbrev S6400000x16 : Shape := ⟨2, ![6400000, 16]⟩
abbrev S6400x16 : Shape := ⟨2, ![6400, 16]⟩
abbrev S6400x1 : Shape := ⟨2, ![6400, 1]⟩
abbrev S1000x16 : Shape := ⟨2, ![1000, 16]⟩
abbrev S1000x1 : Shape := ⟨2, ![1000, 1]⟩
abbrev S100000x2 : Shape := ⟨2, ![100000, 2]⟩
abbrev S6400000x2 : Shape := ⟨2, ![6400000, 2]⟩
abbrev S6400x2 : Shape := ⟨2, ![6400, 2]⟩
abbrev S1x2 : Shape := ⟨2, ![1, 2]⟩
abbrev S1000x2 : Shape := ⟨2, ![1000, 2]⟩
abbrev S1000 : Shape := ⟨1, ![1000]⟩

abbrev nBuf : Space → Nat
  | .hbm => 79
  | .vmem => 34
  | .smem => 0
  | _ => 0

abbrev bufTy : (tb : Table) → Fin (tcTables nBuf tb) → BufTy
  | .hbm, ⟨0, _⟩ => ⟨S100000x1, .f32⟩
  | .hbm, ⟨1, _⟩ => ⟨S2x6400000, .i32⟩
  | .hbm, ⟨2, _⟩ => ⟨S1x16, .f32⟩
  | .hbm, ⟨3, _⟩ => ⟨S16, .f32⟩
  | .hbm, ⟨4, _⟩ => ⟨S16x2, .f32⟩
  | .hbm, ⟨5, _⟩ => ⟨S2, .f32⟩
  | .hbm, ⟨6, _⟩ => ⟨S1x6400000, .i32⟩
  | .hbm, ⟨7, _⟩ => ⟨S6400000, .i32⟩
  | .hbm, ⟨8, _⟩ => ⟨S1x6400000, .i32⟩
  | .hbm, ⟨9, _⟩ => ⟨S6400000, .i32⟩
  | .hbm, ⟨10, _⟩ => ⟨S_, .f32⟩
  | .hbm, ⟨11, _⟩ => ⟨S6400000, .f32⟩
  | .hbm, ⟨12, _⟩ => ⟨S_, .f32⟩
  | .hbm, ⟨13, _⟩ => ⟨S100000, .f32⟩
  | .hbm, ⟨14, _⟩ => ⟨S6400000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S6400000, .i32⟩
  | .hbm, ⟨22, _⟩ => ⟨S6400000, .i1⟩
  | .hbm, ⟨23, _⟩ => ⟨S_, .i32⟩
  | .hbm, ⟨24, _⟩ => ⟨S6400000, .i32⟩
  | .hbm, ⟨25, _⟩ => ⟨S6400000, .i32⟩
  | .hbm, ⟨26, _⟩ => ⟨S6400000, .i32⟩
  | .hbm, ⟨27, _⟩ => ⟨S6400000x1, .i32⟩
  | .hbm, ⟨28, _⟩ => ⟨S6400000, .f32⟩
  | .hbm, ⟨29, _⟩ => ⟨S6400000x1, .f32⟩
  | .hbm, ⟨30, _⟩ => ⟨S_, .i32⟩
  | .hbm, ⟨31, _⟩ => ⟨S6400000, .i32⟩
  | .hbm, ⟨32, _⟩ => ⟨S6400000, .i1⟩
  | .hbm, ⟨33, _⟩ => ⟨S_, .i32⟩
  | .hbm, ⟨34, _⟩ => ⟨S6400000, .i32⟩
  | .hbm, ⟨35, _⟩ => ⟨S6400000, .i32⟩
  | .hbm, ⟨36, _⟩ => ⟨S6400000, .i32⟩
  | .hbm, ⟨37, _⟩ => ⟨S6400000x1, .i32⟩
  | .hbm, ⟨38, _⟩ => ⟨S6400000, .f32⟩
  | .hbm, ⟨39, _⟩ => ⟨S6400000x1, .f32⟩
  | .hbm, ⟨40, _⟩ => ⟨S100000x1, .f32⟩
  | .hbm, ⟨41, _⟩ => ⟨S16, .f32⟩
  | .hbm, ⟨42, _⟩ => ⟨S1x16, .f32⟩
  | .hbm, ⟨43, _⟩ => ⟨S100000x16, .f32⟩
  | .hbm, ⟨44, _⟩ => ⟨S100000x16, .f32⟩
  | .hbm, ⟨45, _⟩ => ⟨S100000x16, .f32⟩
  | .hbm, ⟨46, _⟩ => ⟨S_, .i32⟩
  | .hbm, ⟨47, _⟩ => ⟨S6400000, .i32⟩
  | .hbm, ⟨48, _⟩ => ⟨S6400000, .i1⟩
  | .hbm, ⟨49, _⟩ => ⟨S_, .i32⟩
  | .hbm, ⟨50, _⟩ => ⟨S6400000, .i32⟩
  | .hbm, ⟨51, _⟩ => ⟨S6400000, .i32⟩
  | .hbm, ⟨52, _⟩ => ⟨S6400000, .i32⟩
  | .hbm, ⟨53, _⟩ => ⟨S6400000x1, .i32⟩
  | .hbm, ⟨54, _⟩ => ⟨S6400000x16, .f32⟩
  | .hbm, ⟨55, _⟩ => ⟨S6400000x16, .f32⟩
  | .hbm, ⟨56, _⟩ => ⟨S_, .f32⟩
  | .hbm, ⟨57, _⟩ => ⟨S100000x16, .f32⟩
  | .hbm, ⟨58, _⟩ => ⟨S6400000x1, .i32⟩
  | .hbm, ⟨59, _⟩ => ⟨S100000x16, .f32⟩
  | .hbm, ⟨60, _⟩ => ⟨S1x16, .f32⟩
  | .hbm, ⟨61, _⟩ => ⟨S100000x16, .f32⟩
  | .hbm, ⟨62, _⟩ => ⟨S100000x2, .f32⟩
  | .hbm, ⟨63, _⟩ => ⟨S_, .i32⟩
  | .hbm, ⟨64, _⟩ => ⟨S6400000, .i32⟩
  | .hbm, ⟨65, _⟩ => ⟨S6400000, .i1⟩
  | .hbm, ⟨66, _⟩ => ⟨S_, .i32⟩
  | .hbm, ⟨67, _⟩ => ⟨S6400000, .i32⟩
  | .hbm, ⟨68, _⟩ => ⟨S6400000, .i32⟩
  | .hbm, ⟨69, _⟩ => ⟨S6400000, .i32⟩
  | .hbm, ⟨70, _⟩ => ⟨S6400000x1, .i32⟩
  | .hbm, ⟨71, _⟩ => ⟨S6400000x2, .f32⟩
  | .hbm, ⟨72, _⟩ => ⟨S6400000x2, .f32⟩
  | .hbm, ⟨73, _⟩ => ⟨S_, .f32⟩
  | .hbm, ⟨74, _⟩ => ⟨S100000x2, .f32⟩
  | .hbm, ⟨75, _⟩ => ⟨S6400000x1, .i32⟩
  | .hbm, ⟨76, _⟩ => ⟨S100000x2, .f32⟩
  | .hbm, ⟨77, _⟩ => ⟨S1x2, .f32⟩
  | .hbm, ⟨78, _⟩ => ⟨S100000x2, .f32⟩
  | .local _ .vmem, ⟨0, _⟩ => ⟨S6400x16, .f32⟩
  | .local _ .vmem, ⟨1, _⟩ => ⟨S6400x16, .f32⟩
  | .local _ .vmem, ⟨2, _⟩ => ⟨S6400x1, .f32⟩
  | .local _ .vmem, ⟨3, _⟩ => ⟨S6400x1, .f32⟩
  | .local _ .vmem, ⟨4, _⟩ => ⟨S6400x1, .f32⟩
  | .local _ .vmem, ⟨5, _⟩ => ⟨S6400x1, .f32⟩
  | .local _ .vmem, ⟨6, _⟩ => ⟨S6400x16, .f32⟩
  | .local _ .vmem, ⟨7, _⟩ => ⟨S6400x16, .f32⟩
  | .local _ .vmem, ⟨8, _⟩ => ⟨S1000x16, .f32⟩
  | .local _ .vmem, ⟨9, _⟩ => ⟨S1000x16, .f32⟩
  | .local _ .vmem, ⟨10, _⟩ => ⟨S1000x16, .f32⟩
  | .local _ .vmem, ⟨11, _⟩ => ⟨S1000x16, .f32⟩
  | .local _ .vmem, ⟨12, _⟩ => ⟨S1000x1, .f32⟩
  | .local _ .vmem, ⟨13, _⟩ => ⟨S1000x1, .f32⟩
  | .local _ .vmem, ⟨14, _⟩ => ⟨S1x16, .f32⟩
  | .local _ .vmem, ⟨15, _⟩ => ⟨S1000x16, .f32⟩
  | .local _ .vmem, ⟨16, _⟩ => ⟨S1000x16, .f32⟩
  | .local _ .vmem, ⟨17, _⟩ => ⟨S6400x2, .f32⟩
  | .local _ .vmem, ⟨18, _⟩ => ⟨S6400x2, .f32⟩
  | .local _ .vmem, ⟨19, _⟩ => ⟨S6400x1, .f32⟩
  | .local _ .vmem, ⟨20, _⟩ => ⟨S6400x1, .f32⟩
  | .local _ .vmem, ⟨21, _⟩ => ⟨S6400x1, .f32⟩
  | .local _ .vmem, ⟨22, _⟩ => ⟨S6400x1, .f32⟩
  | .local _ .vmem, ⟨23, _⟩ => ⟨S6400x2, .f32⟩
  | .local _ .vmem, ⟨24, _⟩ => ⟨S6400x2, .f32⟩
  | .local _ .vmem, ⟨25, _⟩ => ⟨S1000x2, .f32⟩
  | .local _ .vmem, ⟨26, _⟩ => ⟨S1000x2, .f32⟩
  | .local _ .vmem, ⟨27, _⟩ => ⟨S1000x2, .f32⟩
  | .local _ .vmem, ⟨28, _⟩ => ⟨S1000x2, .f32⟩
  | .local _ .vmem, ⟨29, _⟩ => ⟨S1000x1, .f32⟩
  | .local _ .vmem, ⟨30, _⟩ => ⟨S1000x1, .f32⟩
  | .local _ .vmem, ⟨31, _⟩ => ⟨S1x2, .f32⟩
  | .local _ .vmem, ⟨32, _⟩ => ⟨S1000x2, .f32⟩
  | .local _ .vmem, ⟨33, _⟩ => ⟨S1000x2, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_5 : Ref sig .tc := ⟨.hbm, 46, rfl⟩
abbrev main_v33 : Ref sig .tc := ⟨.hbm, 47, rfl⟩
abbrev main_v34 : Ref sig .tc := ⟨.hbm, 48, rfl⟩
abbrev main_c_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_8 : Ref sig .tc := ⟨.hbm, 63, rfl⟩
abbrev main_v47 : Ref sig .tc := ⟨.hbm, 64, rfl⟩
abbrev main_v48 : Ref sig .tc := ⟨.hbm, 65, rfl⟩
abbrev main_c_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg4_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem4_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem4_0 : DmaSem sig := 32
abbrev cc3_sem4_1 : DmaSem sig := 33

abbrev nD : Nat := 1
abbrev τ : Topo := Topo.v7x

variable {F : FTy → Type} [FloatOps F]

abbrev grid0 : Pipeline.Grid := ⟨1, ![1000], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S6400x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1000x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![1000], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6400x2 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6400x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S6400x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S6400x2 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x2 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1000x2 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S_S100000 : S_.BroadcastsInDim S100000 (![] : Fin 0 → Fin S100000.rank)
  bcast_S6400000_S6400000x1_0 : S6400000.BroadcastsInDim S6400000x1 (![0] : Fin 1 → Fin S6400000x1.rank)
  shapeCasts_S6400000_S6400000x1 : S6400000.ShapeCasts S6400000x1
  shapeCasts_S100000_S100000x1 : S100000.ShapeCasts S100000x1
  shapeCasts_S1x16_S16 : S1x16.ShapeCasts S16
  bcast_S16_S1x16_1 : S16.BroadcastsInDim S1x16 (![1] : Fin 1 → Fin S1x16.rank)
  bcast_S100000x1_S100000x16_0_1 : S100000x1.BroadcastsInDim S100000x16 (![0, 1] : Fin 2 → Fin S100000x16.rank)
  bcast_S1x16_S100000x16_0_1 : S1x16.BroadcastsInDim S100000x16 (![0, 1] : Fin 2 → Fin S100000x16.rank)
  inb_S6400x1_S6400x1_0_0 : ∀ a, (![0, 0] : Fin 2 → Nat) a + S6400x1.size a ≤ S6400x1.size a
  h_S6400x1 : 0 < S6400x1.numel
  shapeCasts_S6400x1_S6400x1 : S6400x1.ShapeCasts S6400x1
  inb_S6400x16_S6400x16_0_0 : ∀ a, (![0, 0] : Fin 2 → Nat) a + S6400x16.size a ≤ S6400x16.size a
  h_S6400x16 : 0 < S6400x16.numel
  shapeCasts_S6400x16_S6400x16 : S6400x16.ShapeCasts S6400x16
  broadcasts_S6400x1_S6400x16 : S6400x1.Broadcasts S6400x16
  bcast_S_S100000x16 : S_.BroadcastsInDim S100000x16 (![] : Fin 0 → Fin S100000x16.rank)
  shapeCasts_S16_S1x16 : S16.ShapeCasts S1x16
  inb_S1000x16_S1000x16_0_0 : ∀ a, (![0, 0] : Fin 2 → Nat) a + S1000x16.size a ≤ S1000x16.size a
  h_S1000x16 : 0 < S1000x16.numel
  shapeCasts_S1000x16_S1000x16 : S1000x16.ShapeCasts S1000x16
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x16 : S1000x1.Broadcasts S1000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S1000x16 : S1x16.Broadcasts S1000x16
  inb_S6400x2_S6400x2_0_0 : ∀ a, (![0, 0] : Fin 2 → Nat) a + S6400x2.size a ≤ S6400x2.size a
  h_S6400x2 : 0 < S6400x2.numel
  shapeCasts_S6400x2_S6400x2 : S6400x2.ShapeCasts S6400x2
  broadcasts_S6400x1_S6400x2 : S6400x1.Broadcasts S6400x2
  bcast_S_S100000x2 : S_.BroadcastsInDim S100000x2 (![] : Fin 0 → Fin S100000x2.rank)
  shapeCasts_S2_S1x2 : S2.ShapeCasts S1x2
  inb_S1000x2_S1000x2_0_0 : ∀ a, (![0, 0] : Fin 2 → Nat) a + S1000x2.size a ≤ S1000x2.size a
  h_S1000x2 : 0 < S1000x2.numel
  shapeCasts_S1000x2_S1000x2 : S1000x2.ShapeCasts S1000x2
  broadcasts_S1000x1_S1000x2 : S1000x1.Broadcasts S1000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1000x2 : S1x2.Broadcasts S1000x2
  reduces_S1000x2_S1000 : S1000x2.Reduces [1] S1000
  shapeCasts_S1000_S1000x1 : S1000.ShapeCasts S1000x1
  scatter_S100000_S6400000x1_S6400000_n_0_0_1_wf : ScatterDims.WF S100000 S6400000x1 S6400000 [] [0] [0] 1
  gather_S100000_S6400000x1_S6400000_n_0_n_n_0_1_1_wf : GatherDims.WF S100000 S6400000x1 S6400000 [] [0] [] [0] [] 1 ![1]
  gather_S100000x16_S6400000x1_S6400000x16_1_0_n_n_0_1_116_wf : GatherDims.WF S100000x16 S6400000x1 S6400000x16 [1] [0] [] [0] [] 1 ![1, 16]
  scatter_S100000x16_S6400000x1_S6400000x16_1_0_0_1_wf : ScatterDims.WF S100000x16 S6400000x1 S6400000x16 [1] [0] [0] 1
  dot_S100000x16_S16x2_S100000x2_1_0_0_1_n_n_wf : DotDims.WF S100000x16 S16x2 S100000x2 [1] [0] [0] [1] [] []
  gather_S100000x2_S6400000x1_S6400000x2_1_0_n_n_0_1_12_wf : GatherDims.WF S100000x2 S6400000x1 S6400000x2 [1] [0] [] [0] [] 1 ![1, 2]
  scatter_S100000x2_S6400000x1_S6400000x2_1_0_0_1_wf : ScatterDims.WF S100000x2 S6400000x1 S6400000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x16.size a ≤ S6400000x16.size a
  hwx0_0 : ∀ i : grid0.Coords, EltTy.bits .f32 = 32 ∨ (Rect.block (s := S6400000x16) S6400x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x1.size a ≤ S6400000x1.size a
  hwx0_1 : ∀ i : grid0.Coords, EltTy.bits .f32 = 32 ∨ (Rect.block (s := S6400000x1) S6400x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x1.size a ≤ S6400000x1.size a
  hwx0_2 : ∀ i : grid0.Coords, EltTy.bits .f32 = 32 ∨ (Rect.block (s := S6400000x1) S6400x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6400x16.size a ≤ S6400000x16.size a
  hwx0_3 : ∀ i : grid0.Coords, EltTy.bits .f32 = 32 ∨ (Rect.block (s := S6400000x16) S6400x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x16.size a ≤ S100000x16.size a
  hwx1_0 : ∀ i : grid1.Coords, EltTy.bits .f32 = 32 ∨ (Rect.block (s := S100000x16) S1000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x16.size a ≤ S100000x16.size a
  hwx1_1 : ∀ i : grid1.Coords, EltTy.bits .f32 = 32 ∨ (Rect.block (s := S100000x16) S1000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x1.size a ≤ S100000x1.size a
  hwx1_2 : ∀ i : grid1.Coords, EltTy.bits .f32 = 32 ∨ (Rect.block (s := S100000x1) S1000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x16.size a ≤ S100000x16.size a
  hwx1_4 : ∀ i : grid1.Coords, EltTy.bits .f32 = 32 ∨ (Rect.block (s := S100000x16) S1000x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6400x2.size a ≤ S6400000x2.size a
  hwx2_0 : ∀ i : grid2.Coords, EltTy.bits .f32 = 32 ∨ (Rect.block (s := S6400000x2) S6400x2.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6400x1.size a ≤ S6400000x1.size a
  hwx2_1 : ∀ i : grid2.Coords, EltTy.bits .f32 = 32 ∨ (Rect.block (s := S6400000x1) S6400x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S6400x1.size a ≤ S6400000x1.size a
  hwx2_2 : ∀ i : grid2.Coords, EltTy.bits .f32 = 32 ∨ (Rect.block (s := S6400000x1) S6400x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S6400x2.size a ≤ S6400000x2.size a
  hwx2_3 : ∀ i : grid2.Coords, EltTy.bits .f32 = 32 ∨ (Rect.block (s := S6400000x2) S6400x2.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x2.size a ≤ S100000x2.size a
  hwx3_0 : ∀ i : grid3.Coords, EltTy.bits .f32 = 32 ∨ (Rect.block (s := S100000x2) S1000x2.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x2.size a ≤ S100000x2.size a
  hwx3_1 : ∀ i : grid3.Coords, EltTy.bits .f32 = 32 ∨ (Rect.block (s := S100000x2) S1000x2.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x1.size a ≤ S100000x1.size a
  hwx3_2 : ∀ i : grid3.Coords, EltTy.bits .f32 = 32 ∨ (Rect.block (s := S100000x1) S1000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x2.size a ≤ S1x2.size a
  hwx3_3 : ∀ i : grid3.Coords, EltTy.bits .f32 = 32 ∨ (Rect.block (s := S1x2) S1x2.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1000x2.size a ≤ S100000x2.size a
  hwx3_4 : ∀ i : grid3.Coords, EltTy.bits .f32 = 32 ∨ (Rect.block (s := S100000x2) S1000x2.size (cc3_transform_4 i) (hinb3_4 i)).WholeWords (EltTy.packing .f32)

variable [Facts₀]

def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf
def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf
def gather_S100000x16_S6400000x1_S6400000x16_1_0_n_n_0_1_116 : GatherDims S100000x16 S6400000x1 S6400000x16 where
  offsetDims := [1]
  collapsedSliceDims := [0]
  operandBatchingDims := []
  startIndicesBatchingDims := []
  startIndexMap := [0]
  indexVectorDim := 1
  sliceSizes := ![1, 16]
  wf := gather_S100000x16_S6400000x1_S6400000x16_1_0_n_n_0_1_116_wf
def scatter_S100000x16_S6400000x1_S6400000x16_1_0_0_1 : ScatterDims S100000x16 S6400000x1 S6400000x16 where
  updateWindowDims := [1]
  insertedWindowDims := [0]
  scatterDimsToOperandDims := [0]
  indexVectorDim := 1
  wf := scatter_S100000x16_S6400000x1_S6400000x16_1_0_0_1_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf
def gather_S100000x2_S6400000x1_S6400000x2_1_0_n_n_0_1_12 : GatherDims S100000x2 S6400000x1 S6400000x2 where
  offsetDims := [1]
  collapsedSliceDims := [0]
  operandBatchingDims := []
  startIndicesBatchingDims := []
  startIndexMap := [0]
  indexVectorDim := 1
  sliceSizes := ![1, 2]
  wf := gather_S100000x2_S6400000x1_S6400000x2_1_0_n_n_0_1_12_wf
def scatter_S100000x2_S6400000x1_S6400000x2_1_0_0_1 : ScatterDims S100000x2 S6400000x1 S6400000x2 where
  updateWindowDims := [1]
  insertedWindowDims := [0]
  scatterDimsToOperandDims := [0]
  indexVectorDim := 1
  wf := scatter_S100000x2_S6400000x1_S6400000x2_1_0_0_1_wf

abbrev win0_0 : Pipeline.Window sig grid0 :=
  Pipeline.Window.ofSpec (Memref.whole main_v39) S6400x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S6400x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S6400x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v40) S6400x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v43) S1000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S1000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S1000x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v53) S6400x2.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S6400x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v26) S6400x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v54) S6400x2.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v57) S1000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v46) S1000x2.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S1000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x2.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S1000x2.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x1 : Shape := ⟨2, ![100000, 1]⟩
abbrev S2x6400000 : Shape := ⟨2, ![2, 6400000]⟩
abbrev S1x16 : Shape := ⟨2, ![1, 16]⟩
abbrev S16 : Shape := ⟨1, ![16]⟩
abbrev S16x2 : Shape := ⟨2, ![16, 2]⟩
abbrev S2 : Shape := ⟨1, ![2]⟩
abbrev S1x6400000 : Shape := ⟨2, ![1, 6400000]⟩
abbrev S6400000 : Shape := ⟨1, ![6400000]⟩
abbrev S100000x16 : Shape := ⟨2, ![100000, 16]⟩
abbrev S_ : Shape := ⟨0, ![]⟩
abbrev S100000 : Shape := ⟨1, ![100000]⟩
abbrev S6400000x1 : Shape := ⟨2, ![6400000, 1]⟩
abbrev S6400000x16 : Shape := ⟨2, ![6400000, 16]⟩
abbrev S100000x2 : Shape := ⟨2, ![100000, 2]⟩
abbrev S6400000x2 : Shape := ⟨2, ![6400000, 2]⟩
abbrev S1x2 : Shape := ⟨2, ![1, 2]⟩

abbrev nBuf : Space → Nat
  | .hbm => 134
  | .vmem => 0
  | .smem => 0
  | _ => 0

abbrev hbmTy0_0 (i : Nat) : BufTy := match i % 128 with
  | 0 => ⟨S100000x1, .f32⟩
  | 1 => ⟨S2x6400000, .i32⟩
  | 2 => ⟨S1x16, .f32⟩
  | 3 => ⟨S16, .f32⟩
  | 4 => ⟨S16x2, .f32⟩
  | 5 => ⟨S2, .f32⟩
  | 6 => ⟨S1x6400000, .i32⟩
  | 7 => ⟨S6400000, .i32⟩
  | 8 => ⟨S1x6400000, .i32⟩
  | 9 => ⟨S6400000, .i32⟩
  | 10 => ⟨S100000x16, .f32⟩
  | 11 => ⟨S_, .f32⟩
  | 12 => ⟨S6400000, .f32⟩
  | 13 => ⟨S_, .f32⟩
  | 14 => ⟨S100000, .f32⟩
  | 15 => ⟨S6400000x1, .i32⟩
  | 16 => ⟨S100000, .f32⟩
  | 17 => ⟨S_, .f32⟩
  | 18 => ⟨S100000, .f32⟩
  | 19 => ⟨S100000, .f32⟩
  | 20 => ⟨S100000, .f32⟩
  | 21 => ⟨S_, .i32⟩
  | 22 => ⟨S6400000, .i32⟩
  | 23 => ⟨S6400000, .i1⟩
  | 24 => ⟨S_, .i32⟩
  | 25 => ⟨S6400000, .i32⟩
  | 26 => ⟨S6400000, .i32⟩
  | 27 => ⟨S6400000, .i32⟩
  | 28 => ⟨S6400000x1, .i32⟩
  | 29 => ⟨S6400000, .f32⟩
  | 30 => ⟨S_, .i32⟩
  | 31 => ⟨S6400000, .i32⟩
  | 32 => ⟨S6400000, .i1⟩
  | 33 => ⟨S_, .i32⟩
  | 34 => ⟨S6400000, .i32⟩
  | 35 => ⟨S6400000, .i32⟩
  | 36 => ⟨S6400000, .i32⟩
  | 37 => ⟨S6400000x1, .i32⟩
  | 38 => ⟨S6400000, .f32⟩
  | 39 => ⟨S6400000, .f32⟩
  | 40 => ⟨S_, .i32⟩
  | 41 => ⟨S6400000, .i32⟩
  | 42 => ⟨S6400000, .i1⟩
  | 43 => ⟨S_, .i32⟩
  | 44 => ⟨S6400000, .i32⟩
  | 45 => ⟨S6400000, .i32⟩
  | 46 => ⟨S6400000, .i32⟩
  | 47 => ⟨S6400000x1, .i32⟩
  | 48 => ⟨S6400000x16, .f32⟩
  | 49 => ⟨S6400000x1, .f32⟩
  | 50 => ⟨S6400000x16, .f32⟩
  | 51 => ⟨S6400000x16, .f32⟩
  | 52 => ⟨S_, .f32⟩
  | 53 => ⟨S100000x16, .f32⟩
  | 54 => ⟨S6400000x1, .i32⟩
  | 55 => ⟨S100000x16, .f32⟩
  | 56 => ⟨S100000x1, .f32⟩
  | 57 => ⟨S100000x16, .f32⟩
  | 58 => ⟨S100000x16, .f32⟩
  | 59 => ⟨S100000x16, .f32⟩
  | 60 => ⟨S1x16, .f32⟩
  | 61 => ⟨S100000x16, .f32⟩
  | 62 => ⟨S100000x16, .f32⟩
  | 63 => ⟨S_, .f32⟩
  | 64 => ⟨S100000x16, .f32⟩
  | 65 => ⟨S100000x16, .f32⟩
  | 66 => ⟨S100000x2, .f32⟩
  | 67 => ⟨S_, .f32⟩
  | 68 => ⟨S6400000, .f32⟩
  | 69 => ⟨S_, .f32⟩
  | 70 => ⟨S100000, .f32⟩
  | 71 => ⟨S6400000x1, .i32⟩
  | 72 => ⟨S100000, .f32⟩
  | 73 => ⟨S_, .f32⟩
  | 74 => ⟨S100000, .f32⟩
  | 75 => ⟨S100000, .f32⟩
  | 76 => ⟨S100000, .f32⟩
  | 77 => ⟨S_, .i32⟩
  | 78 => ⟨S6400000, .i32⟩
  | 79 => ⟨S6400000, .i1⟩
  | 80 => ⟨S_, .i32⟩
  | 81 => ⟨S6400000, .i32⟩
  | 82 => ⟨S6400000, .i32⟩
  | 83 => ⟨S6400000, .i32⟩
  | 84 => ⟨S6400000x1, .i32⟩
  | 85 => ⟨S6400000, .f32⟩
  | 86 => ⟨S_, .i32⟩
  | 87 => ⟨S6400000, .i32⟩
  | 88 => ⟨S6400000, .i1⟩
  | 89 => ⟨S_, .i32⟩
  | 90 => ⟨S6400000, .i32⟩
  | 91 => ⟨S6400000, .i32⟩
  | 92 => ⟨S6400000, .i32⟩
  | 93 => ⟨S6400000x1, .i32⟩
  | 94 => ⟨S6400000, .f32⟩
  | 95 => ⟨S6400000, .f32⟩
  | 96 => ⟨S_, .i32⟩
  | 97 => ⟨S6400000, .i32⟩
  | 98 => ⟨S6400000, .i1⟩
  | 99 => ⟨S_, .i32⟩
  | 100 => ⟨S6400000, .i32⟩
  | 101 => ⟨S6400000, .i32⟩
  | 102 => ⟨S6400000, .i32⟩
  | 103 => ⟨S6400000x1, .i32⟩
  | 104 => ⟨S6400000x2, .f32⟩
  | 105 => ⟨S6400000x1, .f32⟩
  | 106 => ⟨S6400000x2, .f32⟩
  | 107 => ⟨S6400000x2, .f32⟩
  | 108 => ⟨S_, .f32⟩
  | 109 => ⟨S100000x2, .f32⟩
  | 110 => ⟨S6400000x1, .i32⟩
  | 111 => ⟨S100000x2, .f32⟩
  | 112 => ⟨S100000x1, .f32⟩
  | 113 => ⟨S100000x2, .f32⟩
  | 114 => ⟨S100000x2, .f32⟩
  | 115 => ⟨S100000x2, .f32⟩
  | 116 => ⟨S1x2, .f32⟩
  | 117 => ⟨S100000x2, .f32⟩
  | 118 => ⟨S100000x2, .f32⟩
  | 119 => ⟨S_, .f32⟩
  | 120 => ⟨S100000, .f32⟩
  | 121 => ⟨S_, .f32⟩
  | 122 => ⟨S100000, .f32⟩
  | 123 => ⟨S100000, .f32⟩
  | 124 => ⟨S100000x1, .f32⟩
  | 125 => ⟨S100000x2, .f32⟩
  | 126 => ⟨S100000x2, .f32⟩
  | 127 => ⟨S100000x2, .f32⟩
  | _ => ⟨S100000x1, .f32⟩

abbrev hbmTy0_1 (i : Nat) : BufTy := match i % 128 with
  | 0 => ⟨S_, .f32⟩
  | 1 => ⟨S100000, .f32⟩
  | 2 => ⟨S100000x1, .f32⟩
  | 3 => ⟨S100000x1, .f32⟩
  | 4 => ⟨S100000x2, .f32⟩
  | 5 => ⟨S100000x2, .f32⟩
  | _ => ⟨S100000x1, .f32⟩

abbrev hbmTy (i : Nat) : BufTy := match i / 128 with
  | 0 => hbmTy0_0 i
  | 1 => hbmTy0_1 i
  | _ => ⟨S100000x1, .f32⟩

abbrev bufTy : (tb : Table) → Fin (tcTables nBuf tb) → BufTy
  | .hbm, ⟨i, _⟩ => hbmTy i
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_call0_cst : Ref sig .tc := ⟨.hbm, 63, rfl⟩
abbrev main_call0_v0 : Ref sig .tc := ⟨.hbm, 64, rfl⟩
abbrev main_v47 : Ref sig .tc := ⟨.hbm, 65, rfl⟩
abbrev main_v48 : Ref sig .tc := ⟨.hbm, 66, rfl⟩
abbrev main_cst_8 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c_11 : Ref sig .tc := ⟨.hbm, 77, rfl⟩
abbrev main_v56 : Ref sig .tc := ⟨.hbm, 78, rfl⟩
abbrev main_v57 : Ref sig .tc := ⟨.hbm, 79, rfl⟩
abbrev main_c_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_c_13 : Ref sig .tc := ⟨.hbm, 86, rfl⟩
abbrev main_v63 : Ref sig .tc := ⟨.hbm, 87, rfl⟩
abbrev main_v64 : Ref sig .tc := ⟨.hbm, 88, rfl⟩
abbrev main_c_14 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_c_15 : Ref sig .tc := ⟨.hbm, 96, rfl⟩
abbrev main_v71 : Ref sig .tc := ⟨.hbm, 97, rfl⟩
abbrev main_v72 : Ref sig .tc := ⟨.hbm, 98, rfl⟩
abbrev main_c_16 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_17 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_call1_cst : Ref sig .tc := ⟨.hbm, 119, rfl⟩
abbrev main_call1_v0 : Ref sig .tc := ⟨.hbm, 120, rfl⟩
abbrev main_call1_cst_0 : Ref sig .tc := ⟨.hbm, 121, rfl⟩
abbrev main_call1_v1 : Ref sig .tc := ⟨.hbm, 122, rfl⟩
abbrev main_call1_v2 : Ref sig .tc := ⟨.hbm, 123, rfl⟩
abbrev main_call1_v3 : Ref sig .tc := ⟨.hbm, 124, rfl⟩
abbrev main_call1_v4 : Ref sig .tc := ⟨.hbm, 125, rfl⟩
abbrev main_call1_v5 : Ref sig .tc := ⟨.hbm, 126, rfl⟩
abbrev main_call1_v6 : Ref sig .tc := ⟨.hbm, 127, rfl⟩
abbrev main_call1_cst_1 : Ref sig .tc := ⟨.hbm, 128, rfl⟩
abbrev main_call1_v7 : Ref sig .tc := ⟨.hbm, 129, rfl⟩
abbrev main_call1_v8 : Ref sig .tc := ⟨.hbm, 130, rfl⟩
abbrev main_call1_v9 : Ref sig .tc := ⟨.hbm, 131, rfl⟩
abbrev main_call1_v10 : Ref sig .tc := ⟨.hbm, 132, rfl⟩
abbrev main_v91 : Ref sig .tc := ⟨.hbm, 133, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S_S100000 : S_.BroadcastsInDim S100000 (![] : Fin 0 → Fin S100000.rank)
  bcast_S6400000_S6400000x1_0 : S6400000.BroadcastsInDim S6400000x1 (![0] : Fin 1 → Fin S6400000x1.rank)
  bcast_S6400000x1_S6400000x16_0_1 : S6400000x1.BroadcastsInDim S6400000x16 (![0, 1] : Fin 2 → Fin S6400000x16.rank)
  bcast_S_S100000x16 : S_.BroadcastsInDim S100000x16 (![] : Fin 0 → Fin S100000x16.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S6400000x1_S6400000x2_0_1 : S6400000x1.BroadcastsInDim S6400000x2 (![0, 1] : Fin 2 → Fin S6400000x2.rank)
  bcast_S_S100000x2 : S_.BroadcastsInDim S100000x2 (![] : Fin 0 → Fin S100000x2.rank)
  bcast_S100000x1_S100000x2_0_1 : S100000x1.BroadcastsInDim S100000x2 (![0, 1] : Fin 2 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  dot_S100000x1_S1x16_S100000x16_1_0_0_1_n_n_wf : DotDims.WF S100000x1 S1x16 S100000x16 [1] [0] [0] [1] [] []
  scatter_S100000_S6400000x1_S6400000_n_0_0_1_wf : ScatterDims.WF S100000 S6400000x1 S6400000 [] [0] [0] 1
  gather_S100000_S6400000x1_S6400000_n_0_n_n_0_1_1_wf : GatherDims.WF S100000 S6400000x1 S6400000 [] [0] [] [0] [] 1 ![1]
  gather_S100000x16_S6400000x1_S6400000x16_1_0_n_n_0_1_116_wf : GatherDims.WF S100000x16 S6400000x1 S6400000x16 [1] [0] [] [0] [] 1 ![1, 16]
  scatter_S100000x16_S6400000x1_S6400000x16_1_0_0_1_wf : ScatterDims.WF S100000x16 S6400000x1 S6400000x16 [1] [0] [0] 1
  dot_S100000x16_S16x2_S100000x2_1_0_0_1_n_n_wf : DotDims.WF S100000x16 S16x2 S100000x2 [1] [0] [0] [1] [] []
  gather_S100000x2_S6400000x1_S6400000x2_1_0_n_n_0_1_12_wf : GatherDims.WF S100000x2 S6400000x1 S6400000x2 [1] [0] [] [0] [] 1 ![1, 2]
  scatter_S100000x2_S6400000x1_S6400000x2_1_0_0_1_wf : ScatterDims.WF S100000x2 S6400000x1 S6400000x2 [1] [0] [0] 1

variable [Facts₀]

def dot_S100000x1_S1x16_S100000x16_1_0_0_1_n_n : DotDims S100000x1 S1x16 S100000x16 where
  lhsContracting := [1]
  rhsContracting := [0]
  lhsNonContracting := [0]
  rhsNonContracting := [1]
  lhsBatch := []
  rhsBatch := []
  wf := dot_S100000x1_S1x16_S100000x16_1_0_0_1_n_n_wf
def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf
def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf
def gather_S100000x16_S6400000x1_S6400000x16_1_0_n_n_0_1_116 : GatherDims S100000x16 S6400000x1 S6400000x16 where
  offsetDims := [1]
  collapsedSliceDims := [0]
  operandBatchingDims := []
  startIndicesBatchingDims := []
  startIndexMap := [0]
  indexVectorDim := 1
  sliceSizes := ![1, 16]
  wf := gather_S100000x16_S6400000x1_S6400000x16_1_0_n_n_0_1_116_wf
def scatter_S100000x16_S6400000x1_S6400000x16_1_0_0_1 : ScatterDims S100000x16 S6400000x1 S6400000x16 where
  updateWindowDims := [1]
  insertedWindowDims := [0]
  scatterDimsToOperandDims := [0]
  indexVectorDim := 1
  wf := scatter_S100000x16_S6400000x1_S6400000x16_1_0_0_1_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf
def gather_S100000x2_S6400000x1_S6400000x2_1_0_n_n_0_1_12 : GatherDims S100000x2 S6400000x1 S6400000x2 where
  offsetDims := [1]
  collapsedSliceDims := [0]
  operandBatchingDims := []
  startIndicesBatchingDims := []
  startIndexMap := [0]
  indexVectorDim := 1
  sliceSizes := ![1, 2]
  wf := gather_S100000x2_S6400000x1_S6400000x2_1_0_n_n_0_1_12_wf
def scatter_S100000x2_S6400000x1_S6400000x2_1_0_0_1 : ScatterDims S100000x2 S6400000x1 S6400000x2 where
  updateWindowDims := [1]
  insertedWindowDims := [0]
  scatterDimsToOperandDims := [0]
  indexVectorDim := 1
  wf := scatter_S100000x2_S6400000x1_S6400000x2_1_0_0_1_wf

class Facts : Prop extends Facts₀ where

variable [Facts]
-- ==== Proof.KernelRun.lean ====
/-
  The idealized kernel's run with its result NAMED. The program is four kernel regions among four stretches of host
  operations; the buffer contents at the eight segment boundaries are the fold `W0 … W8` of the generated frame
  module. Every weakly fair execution terminates, and in every final state the result buffer holds what the last
  boundary's contents `W8` say it holds, the six argument arrays what they held at launch: the final state is read
  against the last thread state, which holds every unscoped buffer at `W8`, at the result's reference as at each
  argument's; an argument's contents walk back through the fold to the launch memory, the result's are read forward
  by the value modules.
-/
import proofs.«112933_j85907935854681_2_alg».proof.Proof.Gen.KernelIdeal.Frame

set_option maxRecDepth 16384

noncomputable section

namespace Cert.KernelIdeal.GcnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_named : θ_run defs (onTc (τ := τ) (main (F := F))) ⟨m, fun _ => 0, ρ⟩ (fun r => ∀ c : Dev nD,
      r.2.mem ((c.tc : Thread nD τ).loc main_v59) = W8 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v59 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.GcnRun

end
-- ==== Proof.GcnIdx.lean ====
/-
  Index helpers and the row-wise log-softmax shared by the value modules. An array of shape [n, k] is read at an index
  `i`; the column array of shape [n, 1] that scales or divides its rows is read at `rowCol i`, the entry (row of `i`, 0);
  a row array of shape [1, k] added to every row is read at `colRow i`, the entry (0, column of `i`); the flat array of
  shape [n] behind a column is read at `rowFlat i`, the row of `i`, and the flat array of shape [k] behind a row at
  `colFlat i`; `sameRow i q` is the entry of `i`'s row in column `q`. A flat array reshaped to a column or to a row
  reads the flat array at the row, respectively the column. The log-softmax of a row subtracts from each entry the
  row's maximum (folded from −∞) and then the logarithm of the sum of the exponentials of the shifted row.
-/
import Idealize.ShloMosaic.Lib.ValueIdx
import Idealize.ShloMosaic.Lib.Pipeline.Value

noncomputable section

open scoped BigOperators

namespace Cert.GcnIdx

open Idealize.ShloMosaic

/-- Entry (row of `i`, 0) of an [n, 1] column, from an index of an [n, k] array. -/
abbrev rowCol {n k : Nat} (i : (⟨2, ![n, k]⟩ : Shape).Idx) : (⟨2, ![n, 1]⟩ : Shape).Idx := fun a => match a with
  | ⟨0, _⟩ => ⟨(i 0).val, (i 0).isLt⟩
  | ⟨1, _⟩ => ⟨0, Nat.one_pos⟩

/-- Entry (0, column of `i`) of a [1, k] row, from an index of an [n, k] array. -/
abbrev colRow {n k : Nat} (i : (⟨2, ![n, k]⟩ : Shape).Idx) : (⟨2, ![1, k]⟩ : Shape).Idx := fun a => match a with
  | ⟨0, _⟩ => ⟨0, Nat.one_pos⟩
  | ⟨1, _⟩ => ⟨(i 1).val, (i 1).isLt⟩

/-- The row of `i` as an index of a flat [n] array. -/
abbrev rowFlat {n k : Nat} (i : (⟨2, ![n, k]⟩ : Shape).Idx) : (⟨1, ![n]⟩ : Shape).Idx := fun a => match a with
  | ⟨0, _⟩ => ⟨(i 0).val, (i 0).isLt⟩

/-- The column of `i` as an index of a flat [k] array. -/
abbrev colFlat {n k : Nat} (i : (⟨2, ![n, k]⟩ : Shape).Idx) : (⟨1, ![k]⟩ : Shape).Idx := fun a => match a with
  | ⟨0, _⟩ => ⟨(i 1).val, (i 1).isLt⟩

/-- The entry of `i`'s row in column `q`. -/
abbrev sameRow {n k : Nat} (i : (⟨2, ![n, k]⟩ : Shape).Idx) (q : Fin k) : (⟨2, ![n, k]⟩ : Shape).Idx := fun a => match a with
  | ⟨0, _⟩ => ⟨(i 0).val, (i 0).isLt⟩
  | ⟨1, _⟩ => ⟨q.val, q.isLt⟩

theorem zero2 : (![0, 0] : Fin 2 → Nat) = fun _ => 0 := funext fun a => by fin_cases a <;> rfl

/-- A flat [n] array reshaped to a column [n, 1], read at an entry, is the flat array at the entry's row. -/
theorem reshape_col_apply {n : Nat} {α : Type} (x : (⟨1, ![n]⟩ : Shape).Idx → α)
    (h : (⟨1, ![n]⟩ : Shape).ShapeCasts ⟨2, ![n, 1]⟩) (j : (⟨2, ![n, 1]⟩ : Shape).Idx) :
    shapeCast ⟨2, ![n, 1]⟩ x h j = x (rowFlat j) :=
  shapeCast_apply x h j (rowFlat j) (by
    rw [Shape.rowMajor_val_one, Shape.rowMajor_val_two]
    show (j 0).val = (j 0).val * 1 + (j 1).val
    have h1 : (j 1).val < 1 := (j 1).isLt
    omega)

/-- A flat [k] array reshaped to a row [1, k], read at an entry, is the flat array at the entry's column. -/
theorem reshape_row_apply {k : Nat} {α : Type} (x : (⟨1, ![k]⟩ : Shape).Idx → α)
    (h : (⟨1, ![k]⟩ : Shape).ShapeCasts ⟨2, ![1, k]⟩) (j : (⟨2, ![1, k]⟩ : Shape).Idx) :
    shapeCast ⟨2, ![1, k]⟩ x h j = x (colFlat j) :=
  shapeCast_apply x h j (colFlat j) (by
    rw [Shape.rowMajor_val_one, Shape.rowMajor_val_two]
    show (j 1).val = (j 0).val * k + (j 1).val
    have h0 : (j 0).val < 1 := (j 0).isLt
    have : (j 0).val = 0 := by omega
    rw [this]; omega)

/-- The maximum of `i`'s row, folded from −∞ over the row's entries. -/
def rowMax {n k : Nat} (Y : (⟨2, ![n, k]⟩ : Shape).Idx → EReal) (i : (⟨2, ![n, k]⟩ : Shape).Idx) : EReal :=
  (Finset.univ : Finset (Fin k)).fold max (Ideal.ofBits .f32 0xFF800000#32) (fun q => Y (sameRow i q))

/-- The log-softmax along the rows: the entry less its row's maximum, less the logarithm of the sum over the row of
    the exponentials of the entries less that maximum. -/
def logSoftmax {n k : Nat} (Y : (⟨2, ![n, k]⟩ : Shape).Idx → EReal) : (⟨2, ![n, k]⟩ : Shape).Idx → EReal :=
  fun i => (Y i - rowMax Y i) - Ideal.log (∑ q : Fin k, Ideal.exp (Y (sameRow i q) - rowMax Y i))

end Cert.GcnIdx

end
-- ==== Proof.KHost0.lean ====
/-
  The idealized kernel's first stretch of host operations, read back. From the launch memory it computes: the two rows
  of the edge list (sources, destinations); the degree of every node, one plus the number of edges into it, and its
  reciprocal square root; that normalisation gathered at the sources and at the destinations, each kept as a column; the
  degree as a column; the first layer's transformed features, every node's one input feature times the weight row; and
  those features gathered at the sources. Each buffer the later segments read is stated here as a term over the
  reference program's own stage functions, which spell the same operations. One operation differs: the kernel's
  product of the input column with the weight row, both broadcast to [N, 16], against the reference's contraction over
  the one input feature — a sum with a single term.
-/
import proofs.«112933_j85907935854681_2_alg».proof.Proof.Gen.KernelIdeal.Frame
import proofs.«112933_j85907935854681_2_alg».proof.Proof.RefRead
import proofs.«112933_j85907935854681_2_alg».proof.Proof.GcnIdx

set_option maxRecDepth 16384

noncomputable section

open scoped BigOperators

namespace Cert.KernelIdeal.Host0

open Cert.KernelIdeal Cert.KernelIdeal.Gen Cert.GcnIdx Idealize.ShloMosaic Idealize.ShloMosaic.TcCoe Idealize.SL.Sem Idealize.ShloMosaic.StableHlo

/-- The input column times the weight row, both broadcast over [N, 16], is the contraction of the [N, 1] input with
    the [1, 16] weight: the sum over the one contracted coordinate has a single term. -/
theorem xw1_eq (a0 : (⟨S100000x1, .f32⟩ : BufTy).Contents (Elt Ideal)) (a2 : (⟨S1x16, .f32⟩ : BufTy).Contents (Elt Ideal)) :
    @Eq (FVec Ideal S100000x16 .f32)
      (mulf (broadcastInDim S100000x16 ![0, 1] bcast_S100000x1_S100000x16_0_1 a0)
        (broadcastInDim S100000x16 ![0, 1] bcast_S1x16_S100000x16_0_1
          (broadcastInDim S1x16 ![1] bcast_S16_S1x16_1 (shapeCast S16 a2 shapeCasts_S1x16_S16))))
      (Cert.ReferenceIdeal.ReadP.val_main_v4 (F := Ideal) a0 a2) := by
  funext i
  rw [Cert.ReferenceIdeal.ReadP.val_main_v4_apply, Fin.sum_univ_one]
  have el : broadcastInDim S100000x16 ![0, 1] bcast_S100000x1_S100000x16_0_1 a0 i = a0 (rowCol i) :=
    broadcastInDim_apply _ bcast_S100000x1_S100000x16_0_1 a0 i (rowCol i) (fun a => match a with
      | ⟨0, _⟩ => by show (i 0).val = if (100000 : Nat) = 1 then 0 else (i 0).val; rw [if_neg (by decide)]
      | ⟨1, _⟩ => by show 0 = if (1 : Nat) = 1 then 0 else (i 1).val; rw [if_pos rfl])
  have er1 : broadcastInDim S100000x16 ![0, 1] bcast_S1x16_S100000x16_0_1
        (broadcastInDim S1x16 ![1] bcast_S16_S1x16_1 (shapeCast S16 a2 shapeCasts_S1x16_S16)) i
      = broadcastInDim S1x16 ![1] bcast_S16_S1x16_1 (shapeCast S16 a2 shapeCasts_S1x16_S16) (colRow i) :=
    broadcastInDim_apply _ bcast_S1x16_S100000x16_0_1 _ i (colRow i) (fun a => match a with
      | ⟨0, _⟩ => by show 0 = if (1 : Nat) = 1 then 0 else (i 0).val; rw [if_pos rfl]
      | ⟨1, _⟩ => by show (i 1).val = if (16 : Nat) = 1 then 0 else (i 1).val; rw [if_neg (by decide)])
  have er2 : broadcastInDim S1x16 ![1] bcast_S16_S1x16_1 (shapeCast S16 a2 shapeCasts_S1x16_S16) (colRow i)
      = shapeCast S16 a2 shapeCasts_S1x16_S16 (colFlat i) :=
    broadcastInDim_apply _ bcast_S16_S1x16_1 _ (colRow i) (colFlat i) (fun a => match a with
      | ⟨0, _⟩ => by show (i 1).val = if (16 : Nat) = 1 then 0 else (i 1).val; rw [if_neg (by decide)])
  have er3 : shapeCast S16 a2 shapeCasts_S1x16_S16 (colFlat i) = a2 (colRow i) :=
    shapeCast_apply a2 shapeCasts_S1x16_S16 (colFlat i) (colRow i) (by
      rw [Shape.rowMajor_val_one, Shape.rowMajor_val_two]
      show 0 * 16 + (i 1).val = (i 1).val
      omega)
  show broadcastInDim S100000x16 ![0, 1] bcast_S100000x1_S100000x16_0_1 a0 i
      * broadcastInDim S100000x16 ![0, 1] bcast_S1x16_S100000x16_0_1
          (broadcastInDim S1x16 ![1] bcast_S16_S1x16_1 (shapeCast S16 a2 shapeCasts_S1x16_S16)) i = _
  rw [el, er1, er2, er3]
  refine congrArg₂ (· * ·) (congrArg a0 (funext fun a => ?_)) (congrArg a2 (funext fun a => ?_))
  · match a with
    | ⟨0, _⟩ => rfl
    | ⟨1, _⟩ => rfl
  · match a with
    | ⟨0, _⟩ => rfl
    | ⟨1, _⟩ => rfl

variable (m : (ℓ : Loc nD τ sig) → Buf (Elt Ideal) ℓ) (ρ : Dev nD → PrngReg) (c : Dev nD)

/-- The sources: row 0 of the edge list. -/
theorem v1 : W1 m ρ c (Proc.devRef .tc main_v1) = Cert.ReferenceIdeal.ReadP.val_main_v1 (F := Ideal) (m ((c.tc : Thread nD τ).loc main_arg1)) := by
  show StableHlo.after hostOps0 (W0 m ρ c) (Proc.devRef .tc main_v1) = _
  after_results_simp; rfl

/-- The destinations: row 1 of the edge list. -/
theorem v3 : W1 m ρ c (Proc.devRef .tc main_v3) = Cert.ReferenceIdeal.ReadP.val_main_v3 (F := Ideal) (m ((c.tc : Thread nD τ).loc main_arg1)) := by
  show StableHlo.after hostOps0 (W0 m ρ c) (Proc.devRef .tc main_v3) = _
  after_results_simp; rfl

/-- The normalisation gathered at the sources, as a column. -/
theorem v18 : W1 m ρ c (Proc.devRef .tc main_v18)
    = shapeCast S6400000x1 (Cert.ReferenceIdeal.ReadP.val_main_v18 (F := Ideal) (m ((c.tc : Thread nD τ).loc main_arg1))) shapeCasts_S6400000_S6400000x1 := by
  show StableHlo.after hostOps0 (W0 m ρ c) (Proc.devRef .tc main_v18) = _
  after_results_simp; rfl

/-- The normalisation gathered at the destinations, as a column. -/
theorem v26 : W1 m ρ c (Proc.devRef .tc main_v26)
    = shapeCast S6400000x1 (Cert.ReferenceIdeal.ReadP.val_main_v25 (F := Ideal) (m ((c.tc : Thread nD τ).loc main_arg1))) shapeCasts_S6400000_S6400000x1 := by
  show StableHlo.after hostOps0 (W0 m ρ c) (Proc.devRef .tc main_v26) = _
  after_results_simp; rfl

/-- The degree, as a column. -/
theorem v27 : W1 m ρ c (Proc.devRef .tc main_v27)
    = shapeCast S100000x1 (Cert.ReferenceIdeal.ReadP.val_main_v10 (F := Ideal) (m ((c.tc : Thread nD τ).loc main_arg1))) shapeCasts_S100000_S100000x1 := by
  show StableHlo.after hostOps0 (W0 m ρ c) (Proc.devRef .tc main_v27) = _
  after_results_simp; rfl

/-- The first layer's transformed features. -/
theorem v32 : W1 m ρ c (Proc.devRef .tc main_v32) = Cert.ReferenceIdeal.ReadP.val_main_v4 (F := Ideal) (m ((c.tc : Thread nD τ).loc main_arg0)) (m ((c.tc : Thread nD τ).loc main_arg2)) := by
  show StableHlo.after hostOps0 (W0 m ρ c) (Proc.devRef .tc main_v32) = _
  after_results_simp
  exact xw1_eq _ _

/-- The first layer's transformed features gathered at the sources. -/
theorem v39 : W1 m ρ c (Proc.devRef .tc main_v39) = Cert.ReferenceIdeal.ReadP.val_main_v33 (F := Ideal) (m ((c.tc : Thread nD τ).loc main_arg0)) (m ((c.tc : Thread nD τ).loc main_arg1)) (m ((c.tc : Thread nD τ).loc main_arg2)) := by
  show StableHlo.after hostOps0 (W0 m ρ c) (Proc.devRef .tc main_v39) = _
  after_results_simp
  refine (congrArg (fun z => Host.gather gather_S100000x16_S6400000x1_S6400000x16_1_0_n_n_0_1_116 z _) (xw1_eq _ _)).trans ?_
  rfl

/-- The first stretch writes no argument. -/
theorem arg3 : W1 m ρ c (Proc.devRef .tc main_arg3) = m ((c.tc : Thread nD τ).loc main_arg3) := by
  show StableHlo.after hostOps0 (W0 m ρ c) (Proc.devRef .tc main_arg3) = _
  after_results_simp
theorem arg4 : W1 m ρ c (Proc.devRef .tc main_arg4) = m ((c.tc : Thread nD τ).loc main_arg4) := by
  show StableHlo.after hostOps0 (W0 m ρ c) (Proc.devRef .tc main_arg4) = _
  after_results_simp
theorem arg5 : W1 m ρ c (Proc.devRef .tc main_arg5) = m ((c.tc : Thread nD τ).loc main_arg5) := by
  show StableHlo.after hostOps0 (W0 m ρ c) (Proc.devRef .tc main_arg5) = _
  after_results_simp

end Cert.KernelIdeal.Host0

end
-- ==== Proof.KHost123.lean ====
/-
  The idealized kernel's three short stretches of host operations between and after its regions, read back from ANY
  buffer contents `V` at the stretch's entry. The second stretch scatter-adds the first layer's messages into a zero
  array at the destinations and makes the bias a row; the third multiplies the first layer's output with the second
  weight matrix and gathers the product at the sources; the fourth scatter-adds the second layer's messages and makes
  the second bias a row. Every other buffer a later segment reads passes through unchanged.
-/
import proofs.«112933_j85907935854681_2_alg».proof.Proof.Gen.KernelIdeal.Frame

set_option maxRecDepth 16384

noncomputable section

namespace Cert.KernelIdeal.Host123

open Cert.KernelIdeal Cert.KernelIdeal.Gen Idealize.ShloMosaic Idealize.ShloMosaic.TcCoe Idealize.SL.Sem Idealize.ShloMosaic.StableHlo

variable {F : FTy → Type} [FloatOps F] (V : Valuation τ sig (Elt F))

/-! ## The second stretch -/

/-- The first layer's aggregate: the messages scatter-added at the destinations into zeros. -/
theorem s1_v43 : StableHlo.after hostOps1 V (Proc.devRef .tc main_v43)
    = Host.scatterAdd scatter_S100000x16_S6400000x1_S6400000x16_1_0_0_1
        (broadcastInDim S100000x16 ![] bcast_S_S100000x16 (constant (F := F) S_ .f32 0x00000000#32))
        (broadcastInDim S6400000x1 ![0] bcast_S6400000_S6400000x1_0 (V (Proc.devRef .tc main_v3)))
        (V (Proc.devRef .tc main_v40)) := by
  after_results <;> rfl

/-- The first bias as a row. -/
theorem s1_v44 : StableHlo.after hostOps1 V (Proc.devRef .tc main_v44)
    = shapeCast S1x16 (V (Proc.devRef .tc main_arg3)) shapeCasts_S16_S1x16 := by
  after_results <;> rfl

theorem s1_v32 : StableHlo.after hostOps1 V (Proc.devRef .tc main_v32) = V (Proc.devRef .tc main_v32) := by
  after_results

theorem s1_v27 : StableHlo.after hostOps1 V (Proc.devRef .tc main_v27) = V (Proc.devRef .tc main_v27) := by
  after_results

theorem s1_v1 : StableHlo.after hostOps1 V (Proc.devRef .tc main_v1) = V (Proc.devRef .tc main_v1) := by
  after_results

theorem s1_v3 : StableHlo.after hostOps1 V (Proc.devRef .tc main_v3) = V (Proc.devRef .tc main_v3) := by
  after_results

theorem s1_v18 : StableHlo.after hostOps1 V (Proc.devRef .tc main_v18) = V (Proc.devRef .tc main_v18) := by
  after_results

theorem s1_v26 : StableHlo.after hostOps1 V (Proc.devRef .tc main_v26) = V (Proc.devRef .tc main_v26) := by
  after_results

theorem s1_arg4 : StableHlo.after hostOps1 V (Proc.devRef .tc main_arg4) = V (Proc.devRef .tc main_arg4) := by
  after_results

theorem s1_arg5 : StableHlo.after hostOps1 V (Proc.devRef .tc main_arg5) = V (Proc.devRef .tc main_arg5) := by
  after_results

/-! ## The third stretch -/

/-- The second layer's transformed features: the first layer's output times the second weight matrix. -/
theorem s2_v46 : StableHlo.after hostOps2 V (Proc.devRef .tc main_v46)
    = Host.dotGeneral dot_S100000x16_S16x2_S100000x2_1_0_0_1_n_n none (V (Proc.devRef .tc main_v45)) (V (Proc.devRef .tc main_arg4)) := by
  after_results <;> rfl

/-- Those features gathered at the sources (a negative source index wraps by the number of nodes). -/
theorem s2_v53 : StableHlo.after hostOps2 V (Proc.devRef .tc main_v53)
    = Host.gather gather_S100000x2_S6400000x1_S6400000x2_1_0_n_n_0_1_12
        (Host.dotGeneral dot_S100000x16_S16x2_S100000x2_1_0_0_1_n_n none (V (Proc.devRef .tc main_v45)) (V (Proc.devRef .tc main_arg4)))
        (broadcastInDim S6400000x1 ![0] bcast_S6400000_S6400000x1_0
          (select (cmpi .slt (V (Proc.devRef .tc main_v1)) (broadcastInDim S6400000 ![] bcast_S_S6400000 (constantI S_ 32 0#32)))
            (addi (V (Proc.devRef .tc main_v1)) (broadcastInDim S6400000 ![] bcast_S_S6400000 (constantI S_ 32 100000#32)))
            (V (Proc.devRef .tc main_v1)))) := by
  after_results <;> rfl

theorem s2_v18 : StableHlo.after hostOps2 V (Proc.devRef .tc main_v18) = V (Proc.devRef .tc main_v18) := by
  after_results

theorem s2_v26 : StableHlo.after hostOps2 V (Proc.devRef .tc main_v26) = V (Proc.devRef .tc main_v26) := by
  after_results

theorem s2_v3 : StableHlo.after hostOps2 V (Proc.devRef .tc main_v3) = V (Proc.devRef .tc main_v3) := by
  after_results

theorem s2_v27 : StableHlo.after hostOps2 V (Proc.devRef .tc main_v27) = V (Proc.devRef .tc main_v27) := by
  after_results

theorem s2_arg5 : StableHlo.after hostOps2 V (Proc.devRef .tc main_arg5) = V (Proc.devRef .tc main_arg5) := by
  after_results

/-! ## The fourth stretch -/

/-- The second layer's aggregate: the messages scatter-added at the destinations into zeros. -/
theorem s3_v57 : StableHlo.after hostOps3 V (Proc.devRef .tc main_v57)
    = Host.scatterAdd scatter_S100000x2_S6400000x1_S6400000x2_1_0_0_1
        (broadcastInDim S100000x2 ![] bcast_S_S100000x2 (constant (F := F) S_ .f32 0x00000000#32))
        (broadcastInDim S6400000x1 ![0] bcast_S6400000_S6400000x1_0 (V (Proc.devRef .tc main_v3)))
        (V (Proc.devRef .tc main_v54)) := by
  after_results <;> rfl

/-- The second bias as a row. -/
theorem s3_v58 : StableHlo.after hostOps3 V (Proc.devRef .tc main_v58)
    = shapeCast S1x2 (V (Proc.devRef .tc main_arg5)) shapeCasts_S2_S1x2 := by
  after_results <;> rfl

theorem s3_v46 : StableHlo.after hostOps3 V (Proc.devRef .tc main_v46) = V (Proc.devRef .tc main_v46) := by
  after_results

theorem s3_v27 : StableHlo.after hostOps3 V (Proc.devRef .tc main_v27) = V (Proc.devRef .tc main_v27) := by
  after_results

end Cert.KernelIdeal.Host123

end
-- ==== Proof.Msg1.lean ====
/-
  The first message region. Its grid has 1000 points; point `t` stages rows 6400·t … 6400·t + 6399 of the gathered
  feature array [E, 16] and of the two gathered normalisation columns [E, 1], and writes back the same rows of the
  message array: each feature entry times the product of the two column entries of its row. The blocks tile the
  array, so after the region the whole message array is that one function of the three operand arrays as the region
  found them — for ANY contents `V` at the region's entry.
-/
import proofs.«112933_j85907935854681_2_alg».proof.Proof.Gen.KernelIdeal.Frame
import proofs.«112933_j85907935854681_2_alg».proof.Proof.GcnIdx
import Idealize.ShloMosaic.Lib.Pipeline.Value
import Idealize.ShloMosaic.Lib.ValueIdx

set_option maxRecDepth 16384

noncomputable section

namespace Cert.KernelIdeal.Msg1

open Cert.KernelIdeal Cert.KernelIdeal.Gen Cert.GcnIdx Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The message array as one function of the gathered features `X` and the two gathered columns `A`, `B`. -/
def msgArr (X : S6400000x16.Idx → Elt F .f32) (A B : S6400000x1.Idx → Elt F .f32) : S6400000x16.Idx → Elt F .f32 :=
  fun i => FloatOps.mulf (X i) (FloatOps.mulf (A (rowCol i)) (B (rowCol i)))

/-- The body's stored value at an entry of its block: the feature entry times the product of its row's two column
    entries (the casts are identities, the broadcast of the column product reads the row's entry). -/
theorem pay_apply (x1 x2 : Vec F S6400x1 .f32) (x0 : Vec F S6400x16 .f32) (j : S6400x16.Idx) :
    k0_pay1 x1 x2 x0 j = FloatOps.mulf (x0 j) (FloatOps.mulf (x1 (rowCol j)) (x2 (rowCol j))) := by
  unfold k0_pay1
  simp only [shapeCast_self]
  show FloatOps.mulf (x0 j) (broadcastTo S6400x16 (mulf x1 x2) broadcasts_S6400x1_S6400x16 j) = _
  refine congrArg (FloatOps.mulf (x0 j)) ?_
  exact broadcastTo_apply (mulf x1 x2) broadcasts_S6400x1_S6400x16 j (rowCol j) (fun a => match a with
    | ⟨0, _⟩ => by show (j 0).val = if (6400 : Nat) = 1 then 0 else (j 0).val; rw [if_neg (by decide)]
    | ⟨1, _⟩ => by show 0 = if (1 : Nat) = 1 then 0 else (j 1).val; rw [if_pos rfl])

/-- The index maps over the grid: every window's block row is the point's own number, its block column 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the message array. -/
theorem flushed_eq (c : Dev nD) (t : Fin cfg0.N) :
    (dat0 V c).flushed 3 t = ((cfg0.win 3).blk t).view.read (Elt F) (msgArr (V c main_v39) (V c main_v18) (V c main_v26)) := by
  show (cfg0.win 3).cut (grid0.coords t) ((dat0 V c).after 3 t) = _
  rw [after0_3]
  unfold out0_3
  rw [View.canon_unit_zero zero2]
  simp only [View.ld_unit_zero (S := S6400x1) zero2, View.ld_unit_zero (S := S6400x16) zero2]
  obtain ⟨e0, e1, e2, e3, e4, e5, e6, e7⟩ := idx_facts t
  funext j
  refine (pay_apply _ _ _ j).trans ?_
  show FloatOps.mulf (V c main_v39 (((cfg0.win 0).blk t).view.emb j))
      (FloatOps.mulf (V c main_v18 (((cfg0.win 1).blk t).view.emb (rowCol j))) (V c main_v26 (((cfg0.win 2).blk t).view.emb (rowCol j))))
    = FloatOps.mulf (V c main_v39 (((cfg0.win 3).blk t).view.emb j))
      (FloatOps.mulf (V c main_v18 (rowCol (((cfg0.win 3).blk t).view.emb j))) (V c main_v26 (rowCol (((cfg0.win 3).blk t).view.emb j))))
  have h0 : ((cfg0.win 0).blk t).view.emb j = ((cfg0.win 3).blk t).view.emb j := by
    funext a; apply Fin.ext
    match a with
    | ⟨0, _⟩ => show win0_0.index t (0 : Fin 2) * 6400 + 1 * (j 0).val = win0_3.index t (0 : Fin 2) * 6400 + 1 * (j 0).val; omega
    | ⟨1, _⟩ => show win0_0.index t (1 : Fin 2) * 16 + 1 * (j 1).val = win0_3.index t (1 : Fin 2) * 16 + 1 * (j 1).val; omega
  have h1 : ((cfg0.win 1).blk t).view.emb (rowCol j) = rowCol (((cfg0.win 3).blk t).view.emb j) := by
    funext a; apply Fin.ext
    match a with
    | ⟨0, _⟩ => show win0_1.index t (0 : Fin 2) * 6400 + 1 * (j 0).val = win0_3.index t (0 : Fin 2) * 6400 + 1 * (j 0).val; omega
    | ⟨1, _⟩ => show win0_1.index t (1 : Fin 2) * 1 + 1 * 0 = 0; omega
  have h2 : ((cfg0.win 2).blk t).view.emb (rowCol j) = rowCol (((cfg0.win 3).blk t).view.emb j) := by
    funext a; apply Fin.ext
    match a with
    | ⟨0, _⟩ => show win0_2.index t (0 : Fin 2) * 6400 + 1 * (j 0).val = win0_3.index t (0 : Fin 2) * 6400 + 1 * (j 0).val; omega
    | ⟨1, _⟩ => show win0_2.index t (1 : Fin 2) * 1 + 1 * 0 = 0; omega
  rw [h0, h1, h2]

/-- An index of the message array is in point `t`'s block iff each coordinate is in the block's range. -/
theorem mem_blk (t : Fin cfg0.N) (i : S6400000x16.Idx) :
    i ∈ ((cfg0.win 3).blk t).view.set ↔ ∀ a : Fin 2, win0_3.index t a * S6400x16.size a ≤ (i a).val ∧ (i a).val < win0_3.index t a * S6400x16.size a + S6400x16.size a := by
  show i ∈ ((View.whole main_v40).slice (win0_3.rect t)).set ↔ _
  rw [View.set_slice_whole, Rect.mem_set_unit]
  exact Iff.rfl

/-- Row `r` lies in the block of point `r / 6400`: the blocks cover the array. -/
theorem cover (i : S6400000x16.Idx) : ∃ t : Fin cfg0.N, (cfg0.win 3).flush t = true ∧ i ∈ ((cfg0.win 3).blk t).view.set := by
  have hi0 : (i 0).val < 6400000 := (i 0).isLt
  have hi1 : (i 1).val < 16 := (i 1).isLt
  have hN : grid0.N = 1000 := N_0
  have ht : (i 0).val / 6400 < cfg0.N := by show _ < grid0.N; omega
  obtain ⟨-, -, -, -, -, -, e6, e7⟩ := idx_facts ⟨(i 0).val / 6400, ht⟩
  have e6' : win0_3.index ⟨(i 0).val / 6400, ht⟩ (0 : Fin 2) = (i 0).val / 6400 := e6
  refine ⟨⟨(i 0).val / 6400, ht⟩, flush0_3 _, ?_⟩
  rw [mem_blk]
  intro a
  match a with
  | ⟨0, _⟩ =>
    show win0_3.index ⟨(i 0).val / 6400, ht⟩ (0 : Fin 2) * 6400 ≤ (i 0).val ∧ (i 0).val < win0_3.index ⟨(i 0).val / 6400, ht⟩ (0 : Fin 2) * 6400 + 6400
    omega
  | ⟨1, _⟩ =>
    show win0_3.index ⟨(i 0).val / 6400, ht⟩ (1 : Fin 2) * 16 ≤ (i 1).val ∧ (i 1).val < win0_3.index ⟨(i 0).val / 6400, ht⟩ (1 : Fin 2) * 16 + 16
    omega

/-- After the region the message array is `msgArr` of the three operand arrays as the region found them. -/
theorem final (c : Dev nD) : (dat0 V c).arrAt 3 cfg0.N = msgArr (V c main_v39) (V c main_v18) (V c main_v26) :=
  (dat0 V c).arrAt_eq_of_cover 3 _ (fun t _ => flushed_eq V c t) cover

end Cert.KernelIdeal.Msg1

end
-- ==== Proof.Msg2.lean ====
/-
  The second message region: the first one's arithmetic on the second layer's two feature columns. Point `t` of its
  1000 stages rows 6400·t … 6400·t + 6399 of the gathered feature array [E, 2] and of the two gathered normalisation
  columns [E, 1], and writes back the same rows of the message array: each feature entry times the product of its
  row's two column entries. The blocks tile the array, so after the region the whole message array is that one
  function of the three operand arrays as the region found them, for any contents `V` at the region's entry.
-/
import proofs.«112933_j85907935854681_2_alg».proof.Proof.Gen.KernelIdeal.Frame
import proofs.«112933_j85907935854681_2_alg».proof.Proof.GcnIdx
import Idealize.ShloMosaic.Lib.Pipeline.Value
import Idealize.ShloMosaic.Lib.ValueIdx

set_option maxRecDepth 16384

noncomputable section

namespace Cert.KernelIdeal.Msg2

open Cert.KernelIdeal Cert.KernelIdeal.Gen Cert.GcnIdx Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The message array as one function of the gathered features `X` and the two gathered columns `A`, `B`. -/
def msgArr (X : S6400000x2.Idx → Elt F .f32) (A B : S6400000x1.Idx → Elt F .f32) : S6400000x2.Idx → Elt F .f32 :=
  fun i => FloatOps.mulf (X i) (FloatOps.mulf (A (rowCol i)) (B (rowCol i)))

/-- The body's stored value at an entry of its block: the feature entry times the product of its row's two column
    entries (the casts are identities, the broadcast of the column product reads the row's entry). -/
theorem pay_apply (x1 x2 : Vec F S6400x1 .f32) (x0 : Vec F S6400x2 .f32) (j : S6400x2.Idx) :
    k2_pay1 x1 x2 x0 j = FloatOps.mulf (x0 j) (FloatOps.mulf (x1 (rowCol j)) (x2 (rowCol j))) := by
  unfold k2_pay1
  simp only [shapeCast_self]
  show FloatOps.mulf (x0 j) (broadcastTo S6400x2 (mulf x1 x2) broadcasts_S6400x1_S6400x2 j) = _
  refine congrArg (FloatOps.mulf (x0 j)) ?_
  exact broadcastTo_apply (mulf x1 x2) broadcasts_S6400x1_S6400x2 j (rowCol j) (fun a => match a with
    | ⟨0, _⟩ => by show (j 0).val = if (6400 : Nat) = 1 then 0 else (j 0).val; rw [if_neg (by decide)]
    | ⟨1, _⟩ => by show 0 = if (1 : Nat) = 1 then 0 else (j 1).val; rw [if_pos rfl])

/-- The index maps over the grid: every window's block row is the point's own number, its block column 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- What point `t` writes back is block `t` of the message array. -/
theorem flushed_eq (c : Dev nD) (t : Fin cfg2.N) :
    (dat2 V c).flushed 3 t = ((cfg2.win 3).blk t).view.read (Elt F) (msgArr (V c main_v53) (V c main_v18) (V c main_v26)) := by
  show (cfg2.win 3).cut (grid2.coords t) ((dat2 V c).after 3 t) = _
  rw [after2_3]
  unfold out2_3
  rw [View.canon_unit_zero zero2]
  simp only [View.ld_unit_zero (S := S6400x1) zero2, View.ld_unit_zero (S := S6400x2) zero2]
  obtain ⟨e0, e1, e2, e3, e4, e5, e6, e7⟩ := idx_facts t
  funext j
  refine (pay_apply _ _ _ j).trans ?_
  show FloatOps.mulf (V c main_v53 (((cfg2.win 0).blk t).view.emb j))
      (FloatOps.mulf (V c main_v18 (((cfg2.win 1).blk t).view.emb (rowCol j))) (V c main_v26 (((cfg2.win 2).blk t).view.emb (rowCol j))))
    = FloatOps.mulf (V c main_v53 (((cfg2.win 3).blk t).view.emb j))
      (FloatOps.mulf (V c main_v18 (rowCol (((cfg2.win 3).blk t).view.emb j))) (V c main_v26 (rowCol (((cfg2.win 3).blk t).view.emb j))))
  have h0 : ((cfg2.win 0).blk t).view.emb j = ((cfg2.win 3).blk t).view.emb j := by
    funext a; apply Fin.ext
    match a with
    | ⟨0, _⟩ => show win2_0.index t (0 : Fin 2) * 6400 + 1 * (j 0).val = win2_3.index t (0 : Fin 2) * 6400 + 1 * (j 0).val; omega
    | ⟨1, _⟩ => show win2_0.index t (1 : Fin 2) * 2 + 1 * (j 1).val = win2_3.index t (1 : Fin 2) * 2 + 1 * (j 1).val; omega
  have h1 : ((cfg2.win 1).blk t).view.emb (rowCol j) = rowCol (((cfg2.win 3).blk t).view.emb j) := by
    funext a; apply Fin.ext
    match a with
    | ⟨0, _⟩ => show win2_1.index t (0 : Fin 2) * 6400 + 1 * (j 0).val = win2_3.index t (0 : Fin 2) * 6400 + 1 * (j 0).val; omega
    | ⟨1, _⟩ => show win2_1.index t (1 : Fin 2) * 1 + 1 * 0 = 0; omega
  have h2 : ((cfg2.win 2).blk t).view.emb (rowCol j) = rowCol (((cfg2.win 3).blk t).view.emb j) := by
    funext a; apply Fin.ext
    match a with
    | ⟨0, _⟩ => show win2_2.index t (0 : Fin 2) * 6400 + 1 * (j 0).val = win2_3.index t (0 : Fin 2) * 6400 + 1 * (j 0).val; omega
    | ⟨1, _⟩ => show win2_2.index t (1 : Fin 2) * 1 + 1 * 0 = 0; omega
  rw [h0, h1, h2]

/-- An index of the message array is in point `t`'s block iff each coordinate is in the block's range. -/
theorem mem_blk (t : Fin cfg2.N) (i : S6400000x2.Idx) :
    i ∈ ((cfg2.win 3).blk t).view.set ↔ ∀ a : Fin 2, win2_3.index t a * S6400x2.size a ≤ (i a).val ∧ (i a).val < win2_3.index t a * S6400x2.size a + S6400x2.size a := by
  show i ∈ ((View.whole main_v54).slice (win2_3.rect t)).set ↔ _
  rw [View.set_slice_whole, Rect.mem_set_unit]
  exact Iff.rfl

/-- Row `r` lies in the block of point `r / 6400`: the blocks cover the array. -/
theorem cover (i : S6400000x2.Idx) : ∃ t : Fin cfg2.N, (cfg2.win 3).flush t = true ∧ i ∈ ((cfg2.win 3).blk t).view.set := by
  have hi0 : (i 0).val < 6400000 := (i 0).isLt
  have hi1 : (i 1).val < 2 := (i 1).isLt
  have hN : grid2.N = 1000 := N_2
  have ht : (i 0).val / 6400 < cfg2.N := by show _ < grid2.N; omega
  obtain ⟨-, -, -, -, -, -, e6, e7⟩ := idx_facts ⟨(i 0).val / 6400, ht⟩
  have e6' : win2_3.index ⟨(i 0).val / 6400, ht⟩ (0 : Fin 2) = (i 0).val / 6400 := e6
  refine ⟨⟨(i 0).val / 6400, ht⟩, flush2_3 _, ?_⟩
  rw [mem_blk]
  intro a
  match a with
  | ⟨0, _⟩ =>
    show win2_3.index ⟨(i 0).val / 6400, ht⟩ (0 : Fin 2) * 6400 ≤ (i 0).val ∧ (i 0).val < win2_3.index ⟨(i 0).val / 6400, ht⟩ (0 : Fin 2) * 6400 + 6400
    omega
  | ⟨1, _⟩ =>
    show win2_3.index ⟨(i 0).val / 6400, ht⟩ (1 : Fin 2) * 2 ≤ (i 1).val ∧ (i 1).val < win2_3.index ⟨(i 0).val / 6400, ht⟩ (1 : Fin 2) * 2 + 2
    omega

/-- After the region the message array is `msgArr` of the three operand arrays as the region found them. -/
theorem final (c : Dev nD) : (dat2 V c).arrAt 3 cfg2.N = msgArr (V c main_v53) (V c main_v18) (V c main_v26) :=
  (dat2 V c).arrAt_eq_of_cover 3 _ (fun t _ => flushed_eq V c t) cover

end Cert.KernelIdeal.Msg2

end
-- ==== Proof.Fin1.lean ====
/-
  The first finalize region. Its grid has 100 points; point `t` stages rows 1000·t … 1000·t + 999 of the aggregate
  [N, 16], of the transformed features [N, 16] and of the degree column [N, 1], and the one bias row [1, 16]; it writes
  back the same rows of the layer's output: (aggregate + feature / degree of the row) + bias of the column, then the
  maximum with zero. The blocks tile the array, so after the region the whole output array is that one function of the
  four operand arrays as the region found them, for any contents `V` at the region's entry.
-/
import proofs.«112933_j85907935854681_2_alg».proof.Proof.Gen.KernelIdeal.Frame
import proofs.«112933_j85907935854681_2_alg».proof.Proof.GcnIdx
import Idealize.ShloMosaic.Lib.Pipeline.Value
import Idealize.ShloMosaic.Lib.ValueIdx

set_option maxRecDepth 16384

noncomputable section

namespace Cert.KernelIdeal.Fin1

open Cert.KernelIdeal Cert.KernelIdeal.Gen Cert.GcnIdx Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The layer's output as one function of the aggregate, the features, the degree column and the bias row. -/
def outArr (AGG XW : S100000x16.Idx → Elt F .f32) (DEG : S100000x1.Idx → Elt F .f32) (Bv : S1x16.Idx → Elt F .f32) :
    S100000x16.Idx → Elt F .f32 :=
  fun i => FloatOps.maximumf (FloatOps.addf (FloatOps.addf (AGG i) (FloatOps.divf (XW i) (DEG (rowCol i)))) (Bv (colRow i)))
    (Scalar.ofBits .f32 0x00000000#32)

/-- The body's stored value at an entry of its block (the casts are identities; the broadcast degree column reads
    the row's entry, the broadcast bias row the column's, the broadcast zero is zero). -/
theorem pay_apply (v0 v2 : Vec F S1000x16 .f32) (v4 : Vec F S1000x1 .f32) (v9 : Vec F S1x16 .f32) (j : S1000x16.Idx) :
    k1_pay1 v0 v2 v4 v9 j = FloatOps.maximumf (FloatOps.addf (FloatOps.addf (v0 j) (FloatOps.divf (v2 j) (v4 (rowCol j)))) (v9 (colRow j)))
      (Scalar.ofBits .f32 0x00000000#32) := by
  have e1 : broadcastTo S1000x16 v4 broadcasts_S1000x1_S1000x16 j = v4 (rowCol j) :=
    broadcastTo_apply v4 broadcasts_S1000x1_S1000x16 j (rowCol j) (fun a => match a with
      | ⟨0, _⟩ => by show (j 0).val = if (1000 : Nat) = 1 then 0 else (j 0).val; rw [if_neg (by decide)]
      | ⟨1, _⟩ => by show 0 = if (1 : Nat) = 1 then 0 else (j 1).val; rw [if_pos rfl])
  have e2 : broadcastTo S1000x16 v9 broadcasts_S1x16_S1000x16 j = v9 (colRow j) :=
    broadcastTo_apply v9 broadcasts_S1x16_S1000x16 j (colRow j) (fun a => match a with
      | ⟨0, _⟩ => by show 0 = if (1 : Nat) = 1 then 0 else (j 0).val; rw [if_pos rfl]
      | ⟨1, _⟩ => by show (j 1).val = if (16 : Nat) = 1 then 0 else (j 1).val; rw [if_neg (by decide)])
  unfold k1_pay1
  simp only [shapeCast_self]
  show FloatOps.maximumf (FloatOps.addf (FloatOps.addf (v0 j) (FloatOps.divf (v2 j) (broadcastTo S1000x16 v4 broadcasts_S1000x1_S1000x16 j)))
      (broadcastTo S1000x16 v9 broadcasts_S1x16_S1000x16 j)) (Scalar.ofBits .f32 0x00000000#32) = _
  rw [e1, e2]

/-- The index maps over the grid: the row-blocked windows' block row is the point's own number, every block column
    0, and the bias row's block is always the first. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of the output array. -/
theorem flushed_eq (c : Dev nD) (t : Fin cfg1.N) :
    (dat1 V c).flushed 4 t = ((cfg1.win 4).blk t).view.read (Elt F)
      (outArr (V c main_v43) (V c main_v32) (V c main_v27) (V c main_v44)) := by
  show (cfg1.win 4).cut (grid1.coords t) ((dat1 V c).after 4 t) = _
  rw [after1_4]
  unfold out1_4
  rw [View.canon_unit_zero zero2]
  simp only [View.ld_unit_zero (S := S1000x16) zero2, View.ld_unit_zero (S := S1000x1) zero2, View.ld_unit_zero (S := S1x16) zero2]
  obtain ⟨e0, e1, e2, e3, e4, e5, e6, e7, e8, e9⟩ := idx_facts t
  funext j
  refine (pay_apply _ _ _ _ j).trans ?_
  show FloatOps.maximumf (FloatOps.addf (FloatOps.addf (V c main_v43 (((cfg1.win 0).blk t).view.emb j))
        (FloatOps.divf (V c main_v32 (((cfg1.win 1).blk t).view.emb j)) (V c main_v27 (((cfg1.win 2).blk t).view.emb (rowCol j)))))
        (V c main_v44 (((cfg1.win 3).blk t).view.emb (colRow j)))) (Scalar.ofBits .f32 0x00000000#32)
    = FloatOps.maximumf (FloatOps.addf (FloatOps.addf (V c main_v43 (((cfg1.win 4).blk t).view.emb j))
        (FloatOps.divf (V c main_v32 (((cfg1.win 4).blk t).view.emb j)) (V c main_v27 (rowCol (((cfg1.win 4).blk t).view.emb j)))))
        (V c main_v44 (colRow (((cfg1.win 4).blk t).view.emb j)))) (Scalar.ofBits .f32 0x00000000#32)
  have h0 : ((cfg1.win 0).blk t).view.emb j = ((cfg1.win 4).blk t).view.emb j := by
    funext a; apply Fin.ext
    match a with
    | ⟨0, _⟩ => show win1_0.index t (0 : Fin 2) * 1000 + 1 * (j 0).val = win1_4.index t (0 : Fin 2) * 1000 + 1 * (j 0).val; omega
    | ⟨1, _⟩ => show win1_0.index t (1 : Fin 2) * 16 + 1 * (j 1).val = win1_4.index t (1 : Fin 2) * 16 + 1 * (j 1).val; omega
  have h1 : ((cfg1.win 1).blk t).view.emb j = ((cfg1.win 4).blk t).view.emb j := by
    funext a; apply Fin.ext
    match a with
    | ⟨0, _⟩ => show win1_1.index t (0 : Fin 2) * 1000 + 1 * (j 0).val = win1_4.index t (0 : Fin 2) * 1000 + 1 * (j 0).val; omega
    | ⟨1, _⟩ => show win1_1.index t (1 : Fin 2) * 16 + 1 * (j 1).val = win1_4.index t (1 : Fin 2) * 16 + 1 * (j 1).val; omega
  have h2 : ((cfg1.win 2).blk t).view.emb (rowCol j) = rowCol (((cfg1.win 4).blk t).view.emb j) := by
    funext a; apply Fin.ext
    match a with
    | ⟨0, _⟩ => show win1_2.index t (0 : Fin 2) * 1000 + 1 * (j 0).val = win1_4.index t (0 : Fin 2) * 1000 + 1 * (j 0).val; omega
    | ⟨1, _⟩ => show win1_2.index t (1 : Fin 2) * 1 + 1 * 0 = 0; omega
  have h3 : ((cfg1.win 3).blk t).view.emb (colRow j) = colRow (((cfg1.win 4).blk t).view.emb j) := by
    funext a; apply Fin.ext
    match a with
    | ⟨0, _⟩ => show win1_3.index t (0 : Fin 2) * 1 + 1 * 0 = 0; omega
    | ⟨1, _⟩ => show win1_3.index t (1 : Fin 2) * 16 + 1 * (j 1).val = win1_4.index t (1 : Fin 2) * 16 + 1 * (j 1).val; omega
  rw [h0, h1, h2, h3]

/-- An index of the output array is in point `t`'s block iff each coordinate is in the block's range. -/
theorem mem_blk (t : Fin cfg1.N) (i : S100000x16.Idx) :
    i ∈ ((cfg1.win 4).blk t).view.set ↔ ∀ a : Fin 2, win1_4.index t a * S1000x16.size a ≤ (i a).val ∧ (i a).val < win1_4.index t a * S1000x16.size a + S1000x16.size a := by
  show i ∈ ((View.whole main_v45).slice (win1_4.rect t)).set ↔ _
  rw [View.set_slice_whole, Rect.mem_set_unit]
  exact Iff.rfl

/-- Row `r` lies in the block of point `r / 1000`: the blocks cover the array. -/
theorem cover (i : S100000x16.Idx) : ∃ t : Fin cfg1.N, (cfg1.win 4).flush t = true ∧ i ∈ ((cfg1.win 4).blk t).view.set := by
  have hi0 : (i 0).val < 100000 := (i 0).isLt
  have hi1 : (i 1).val < 16 := (i 1).isLt
  have hN : grid1.N = 100 := N_1
  have ht : (i 0).val / 1000 < cfg1.N := by show _ < grid1.N; omega
  obtain ⟨-, -, -, -, -, -, -, -, e8, e9⟩ := idx_facts ⟨(i 0).val / 1000, ht⟩
  have e8' : win1_4.index ⟨(i 0).val / 1000, ht⟩ (0 : Fin 2) = (i 0).val / 1000 := e8
  refine ⟨⟨(i 0).val / 1000, ht⟩, flush1_4 _, ?_⟩
  rw [mem_blk]
  intro a
  match a with
  | ⟨0, _⟩ =>
    show win1_4.index ⟨(i 0).val / 1000, ht⟩ (0 : Fin 2) * 1000 ≤ (i 0).val ∧ (i 0).val < win1_4.index ⟨(i 0).val / 1000, ht⟩ (0 : Fin 2) * 1000 + 1000
    omega
  | ⟨1, _⟩ =>
    show win1_4.index ⟨(i 0).val / 1000, ht⟩ (1 : Fin 2) * 16 ≤ (i 1).val ∧ (i 1).val < win1_4.index ⟨(i 0).val / 1000, ht⟩ (1 : Fin 2) * 16 + 16
    omega

/-- After the region the output array is `outArr` of the four operand arrays as the region found them. -/
theorem final (c : Dev nD) : (dat1 V c).arrAt 4 cfg1.N = outArr (V c main_v43) (V c main_v32) (V c main_v27) (V c main_v44) :=
  (dat1 V c).arrAt_eq_of_cover 4 _ (fun t _ => flushed_eq V c t) cover

end Cert.KernelIdeal.Fin1

end
-- ==== Proof.Fin2.lean ====
/-
  The second finalize region, at the extended reals. Its grid has 100 points; point `t` stages rows 1000·t … 1000·t + 999
  of the aggregate [N, 2], of the transformed features [N, 2] and of the degree column [N, 1], and the one bias row
  [1, 2]; it writes back the same rows of the result: the log-softmax along each row of (aggregate + feature / degree of
  the row) + bias of the column. A row's maximum and the sum of its exponentials are reductions over the block's two
  lanes, and a block holds whole rows, so a block's rows of the result depend on the same rows of the operands only.
  The blocks tile the array, so after the region the whole result array is that one function of the four operand arrays
  as the region found them, for any contents `V` at the region's entry.
-/
import proofs.«112933_j85907935854681_2_alg».proof.Proof.Gen.KernelIdeal.Frame
import proofs.«112933_j85907935854681_2_alg».proof.Proof.GcnIdx
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Fin2

open Cert.KernelIdeal Cert.KernelIdeal.Gen Cert.GcnIdx Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The pre-activation: (aggregate + feature / degree of the row) + bias of the column. -/
def preAct {n k : Nat} (AGG XW : (⟨2, ![n, k]⟩ : Shape).Idx → EReal) (DEG : (⟨2, ![n, 1]⟩ : Shape).Idx → EReal)
    (Bv : (⟨2, ![1, k]⟩ : Shape).Idx → EReal) : (⟨2, ![n, k]⟩ : Shape).Idx → EReal :=
  fun i => (AGG i + Ideal.div (XW i) (DEG (rowCol i))) + Bv (colRow i)

/-- The result as one function of the aggregate, the features, the degree column and the bias row. -/
def outArr (AGG XW : S100000x2.Idx → EReal) (DEG : S100000x1.Idx → EReal) (Bv : S1x2.Idx → EReal) : S100000x2.Idx → EReal :=
  logSoftmax (preAct AGG XW DEG Bv)

/-- A column of the block broadcast along the two lanes reads the row's entry. -/
theorem bc_col (x : FVec Ideal S1000x1 .f32) (y : S1000x2.Idx) :
    broadcastTo S1000x2 x broadcasts_S1000x1_S1000x2 y = x (rowCol y) :=
  broadcastTo_apply x broadcasts_S1000x1_S1000x2 y (rowCol y) (fun a => match a with
    | ⟨0, _⟩ => by show (y 0).val = if (1000 : Nat) = 1 then 0 else (y 0).val; rw [if_neg (by decide)]
    | ⟨1, _⟩ => by show 0 = if (1 : Nat) = 1 then 0 else (y 1).val; rw [if_pos rfl])

/-- The bias row broadcast down the block's rows reads the column's entry. -/
theorem bc_row (x : FVec Ideal S1x2 .f32) (y : S1000x2.Idx) :
    broadcastTo S1000x2 x broadcasts_S1x2_S1000x2 y = x (colRow y) :=
  broadcastTo_apply x broadcasts_S1x2_S1000x2 y (colRow y) (fun a => match a with
    | ⟨0, _⟩ => by show 0 = if (1 : Nat) = 1 then 0 else (y 0).val; rw [if_pos rfl]
    | ⟨1, _⟩ => by show (y 1).val = if (2 : Nat) = 1 then 0 else (y 1).val; rw [if_neg (by decide)])

/-- The lane index put back into a reduced row index is the row's entry in that lane. -/
theorem lift_row (y : S1000x2.Idx) (q : Fin (S1000x2.size 1)) :
    reduces_S1000x2_S1000.lift (rowFlat (rowCol y)) q = sameRow y (⟨q.val, q.isLt⟩ : Fin 2) := by
  funext a; apply Fin.ext
  match a with
  | ⟨0, _⟩ => rfl
  | ⟨1, _⟩ => rfl

/-- The row maximum as the body takes it — a lane reduction from −∞, kept as a column, broadcast back — is the
    row's maximum. -/
theorem max_bcast (Y : FVec Ideal S1000x2 .f32) (y : S1000x2.Idx) :
    broadcastTo S1000x2 (shapeCast S1000x1 (multiReduction .maximumf [1] S1000 Y 0xFF800000#32 reduces_S1000x2_S1000 (.inl rfl) rfl)
      shapeCasts_S1000_S1000x1) broadcasts_S1000x1_S1000x2 y = rowMax Y y := by
  rw [bc_col, reshape_col_apply]
  refine (Ideal.multiReduction_maximumf_single Y 0xFF800000#32 reduces_S1000x2_S1000 (.inl rfl) rfl (rowFlat (rowCol y))).trans ?_
  unfold rowMax
  refine congrArg (fun f => Finset.fold max (Ideal.ofBits .f32 0xFF800000#32) f (Finset.univ : Finset (Fin 2))) (funext fun q => ?_)
  show Y (reduces_S1000x2_S1000.lift (rowFlat (rowCol y)) q) = Y (sameRow y q)
  rw [lift_row]

/-- The logarithm of the row sum as the body takes it — a lane reduction from 0, kept as a column, its logarithm
    broadcast back — is the logarithm of the sum over the row. -/
theorem logsum_bcast (Z : FVec Ideal S1000x2 .f32) (y : S1000x2.Idx) :
    broadcastTo S1000x2 (log (shapeCast S1000x1 (multiReduction .add [1] S1000 Z 0x00000000#32 reduces_S1000x2_S1000 (.inl rfl) rfl)
      shapeCasts_S1000_S1000x1)) broadcasts_S1000x1_S1000x2 y = Ideal.log (∑ q : Fin 2, Z (sameRow y q)) := by
  rw [bc_col]
  show Ideal.log (shapeCast S1000x1 (multiReduction .add [1] S1000 Z 0x00000000#32 reduces_S1000x2_S1000 (.inl rfl) rfl)
      shapeCasts_S1000_S1000x1 (rowCol y)) = _
  rw [reshape_col_apply]
  refine congrArg Ideal.log ?_
  refine (Ideal.multiReduction_add_single Z 0x00000000#32 reduces_S1000x2_S1000 (.inl rfl) rfl (rowFlat (rowCol y))).trans ?_
  refine Finset.sum_congr rfl fun q _ => ?_
  rw [lift_row]

/-- A row's maximum is the same read from any entry of the row. -/
theorem rowMax_sameRow {n k : Nat} (Y : (⟨2, ![n, k]⟩ : Shape).Idx → EReal) (i : (⟨2, ![n, k]⟩ : Shape).Idx) (q : Fin k) :
    rowMax Y (sameRow i q) = rowMax Y i := by
  unfold rowMax
  refine congrArg (fun f => Finset.fold max (Ideal.ofBits .f32 0xFF800000#32) f (Finset.univ : Finset (Fin k))) (funext fun q' => ?_)
  refine congrArg Y (funext fun a => ?_)
  match a with
  | ⟨0, _⟩ => rfl
  | ⟨1, _⟩ => rfl

/-- The body's stored value at an entry of its block: the log-softmax of the block's pre-activation. -/
theorem pay_apply (v0 v2 : Vec Ideal S1000x2 .f32) (v4 : Vec Ideal S1000x1 .f32) (v9 : Vec Ideal S1x2 .f32) (j : S1000x2.Idx) :
    k3_pay1 (F := Ideal) v0 v2 v4 v9 j = logSoftmax (preAct v0 v2 v4 v9) j := by
  have hY : (addf (addf v0 (divf v2 (broadcastTo S1000x2 v4 broadcasts_S1000x1_S1000x2))) (broadcastTo S1000x2 v9 broadcasts_S1x2_S1000x2)
        : FVec Ideal S1000x2 .f32) = (preAct v0 v2 v4 v9 : FVec Ideal S1000x2 .f32) := by
    funext y
    show (v0 y + Ideal.div (v2 y) (broadcastTo S1000x2 v4 broadcasts_S1000x1_S1000x2 y)) + broadcastTo S1000x2 v9 broadcasts_S1x2_S1000x2 y = _
    rw [bc_col, bc_row]; rfl
  unfold k3_pay1
  simp only [shapeCast_self]
  rw [hY]
  generalize (preAct v0 v2 v4 v9 : FVec Ideal S1000x2 .f32) = Y
  rw [ValueIdx.subf_apply, ValueIdx.subf_apply, logsum_bcast, max_bcast]
  unfold logSoftmax
  refine congrArg (fun s => (Y j - rowMax Y j) - Ideal.log s) (Finset.sum_congr rfl fun q _ => ?_)
  refine congrArg Ideal.exp ?_
  rw [ValueIdx.subf_apply, max_bcast, rowMax_sameRow]

/-- The index maps over the grid: the row-blocked windows' block row is the point's own number, every block column
    0, and the bias row's block is always the first. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- An entry of a block and the entry of its row in lane `q` sit in the same row of the array … -/
theorem emb_sameRow_row (t : Fin cfg3.N) (y : S1000x2.Idx) (q : Fin 2) :
    ((((cfg3.win 4).blk t).view.emb (sameRow y q)) (0 : Fin 2)).val = ((((cfg3.win 4).blk t).view.emb y) (0 : Fin 2)).val := by
  show win3_4.index t (0 : Fin 2) * 1000 + 1 * (y 0).val = win3_4.index t (0 : Fin 2) * 1000 + 1 * (y 0).val
  rfl

/-- … and the latter in the array's lane `q`: the block spans both lanes, its block column is 0. -/
theorem emb_sameRow_lane (t : Fin cfg3.N) (e9 : win3_4.index t (1 : Fin 2) = 0) (y : S1000x2.Idx) (q : Fin 2) :
    ((((cfg3.win 4).blk t).view.emb (sameRow y q)) (1 : Fin 2)).val = q.val := by
  show win3_4.index t (1 : Fin 2) * 2 + 1 * ((sameRow y q) (1 : Fin 2)).val = q.val
  show win3_4.index t (1 : Fin 2) * 2 + 1 * q.val = q.val
  omega

set_option maxHeartbeats 2000000 in
/-- What point `t` writes back is block `t` of the result array. -/
theorem flushed_eq (c : Dev nD) (t : Fin cfg3.N) :
    (dat3 V c).flushed 4 t = ((cfg3.win 4).blk t).view.read (Elt Ideal)
      (outArr (V c main_v57) (V c main_v46) (V c main_v27) (V c main_v58)) := by
  show (cfg3.win 4).cut (grid3.coords t) ((dat3 V c).after 4 t) = _
  rw [after3_4]
  unfold out3_4
  rw [View.canon_unit_zero zero2]
  simp only [View.ld_unit_zero (S := S1000x2) zero2, View.ld_unit_zero (S := S1000x1) zero2, View.ld_unit_zero (S := S1x2) zero2]
  obtain ⟨e0, e1, e2, e3, e4, e5, e6, e7, e8, e9⟩ := idx_facts t
  have h0 : ∀ y : S1000x2.Idx, ((cfg3.win 0).blk t).view.emb y = ((cfg3.win 4).blk t).view.emb y := fun y => by
    funext a; apply Fin.ext
    match a with
    | ⟨0, _⟩ => show win3_0.index t (0 : Fin 2) * 1000 + 1 * (y 0).val = win3_4.index t (0 : Fin 2) * 1000 + 1 * (y 0).val; omega
    | ⟨1, _⟩ => show win3_0.index t (1 : Fin 2) * 2 + 1 * (y 1).val = win3_4.index t (1 : Fin 2) * 2 + 1 * (y 1).val; omega
  have h1 : ∀ y : S1000x2.Idx, ((cfg3.win 1).blk t).view.emb y = ((cfg3.win 4).blk t).view.emb y := fun y => by
    funext a; apply Fin.ext
    match a with
    | ⟨0, _⟩ => show win3_1.index t (0 : Fin 2) * 1000 + 1 * (y 0).val = win3_4.index t (0 : Fin 2) * 1000 + 1 * (y 0).val; omega
    | ⟨1, _⟩ => show win3_1.index t (1 : Fin 2) * 2 + 1 * (y 1).val = win3_4.index t (1 : Fin 2) * 2 + 1 * (y 1).val; omega
  have h2 : ∀ y : S1000x2.Idx, ((cfg3.win 2).blk t).view.emb (rowCol y) = rowCol (((cfg3.win 4).blk t).view.emb y) := fun y => by
    funext a; apply Fin.ext
    match a with
    | ⟨0, _⟩ => show win3_2.index t (0 : Fin 2) * 1000 + 1 * (y 0).val = win3_4.index t (0 : Fin 2) * 1000 + 1 * (y 0).val; omega
    | ⟨1, _⟩ => show win3_2.index t (1 : Fin 2) * 1 + 1 * 0 = 0; omega
  have h3 : ∀ y : S1000x2.Idx, ((cfg3.win 3).blk t).view.emb (colRow y) = colRow (((cfg3.win 4).blk t).view.emb y) := fun y => by
    funext a; apply Fin.ext
    match a with
    | ⟨0, _⟩ => show win3_3.index t (0 : Fin 2) * 1 + 1 * 0 = 0; omega
    | ⟨1, _⟩ => show win3_3.index t (1 : Fin 2) * 2 + 1 * (y 1).val = win3_4.index t (1 : Fin 2) * 2 + 1 * (y 1).val; omega
  have hs : ∀ (y : S1000x2.Idx) (q : Fin 2), ((cfg3.win 4).blk t).view.emb (sameRow y q) = sameRow (((cfg3.win 4).blk t).view.emb y) q := fun y q => by
    funext a; apply Fin.ext
    match a with
    | ⟨0, _⟩ => exact emb_sameRow_row t y q
    | ⟨1, _⟩ => exact emb_sameRow_lane t e9 y q
  -- each input window's block, read at an entry, is its array read through the output's block
  have r0 : ∀ y : S1000x2.Idx, iblk3 V c 0 t y = V c main_v57 (((cfg3.win 4).blk t).view.emb y) := fun y =>
    (show iblk3 V c 0 t y = V c main_v57 (((cfg3.win 0).blk t).view.emb y) from rfl).trans (congrArg (V c main_v57) (h0 y))
  have r1 : ∀ y : S1000x2.Idx, iblk3 V c 1 t y = V c main_v46 (((cfg3.win 4).blk t).view.emb y) := fun y =>
    (show iblk3 V c 1 t y = V c main_v46 (((cfg3.win 1).blk t).view.emb y) from rfl).trans (congrArg (V c main_v46) (h1 y))
  have r2 : ∀ y : S1000x2.Idx, iblk3 V c 2 t (rowCol y) = V c main_v27 (rowCol (((cfg3.win 4).blk t).view.emb y)) := fun y =>
    (show iblk3 V c 2 t (rowCol y) = V c main_v27 (((cfg3.win 2).blk t).view.emb (rowCol y)) from rfl).trans (congrArg (V c main_v27) (h2 y))
  have r3 : ∀ y : S1000x2.Idx, iblk3 V c 3 t (colRow y) = V c main_v58 (colRow (((cfg3.win 4).blk t).view.emb y)) := fun y =>
    (show iblk3 V c 3 t (colRow y) = V c main_v58 (((cfg3.win 3).blk t).view.emb (colRow y)) from rfl).trans (congrArg (V c main_v58) (h3 y))
  -- so the block's pre-activation is the arrays' pre-activation read through the output's block
  have hP : ∀ y : S1000x2.Idx, preAct (iblk3 V c 0 t) (iblk3 V c 1 t) (iblk3 V c 2 t) (iblk3 V c 3 t) y
      = preAct (V c main_v57) (V c main_v46) (V c main_v27) (V c main_v58) (((cfg3.win 4).blk t).view.emb y) := fun y => by
    unfold preAct
    rw [r0, r1, r2, r3]
  have hmax : ∀ y : S1000x2.Idx, rowMax (preAct (iblk3 V c 0 t) (iblk3 V c 1 t) (iblk3 V c 2 t) (iblk3 V c 3 t)) y
      = rowMax (preAct (V c main_v57) (V c main_v46) (V c main_v27) (V c main_v58)) (((cfg3.win 4).blk t).view.emb y) := fun y => by
    unfold rowMax
    refine congrArg (fun f => Finset.fold max (Ideal.ofBits .f32 0xFF800000#32) f (Finset.univ : Finset (Fin 2))) (funext fun q => ?_)
    rw [hP, hs]
  funext j
  refine (pay_apply _ _ _ _ j).trans ?_
  show logSoftmax (preAct (iblk3 V c 0 t) (iblk3 V c 1 t) (iblk3 V c 2 t) (iblk3 V c 3 t)) j
    = logSoftmax (preAct (V c main_v57) (V c main_v46) (V c main_v27) (V c main_v58)) (((cfg3.win 4).blk t).view.emb j)
  unfold logSoftmax
  rw [hmax, hP]
  refine congrArg (fun s => _ - Ideal.log s) (Finset.sum_congr rfl fun q _ => ?_)
  rw [hP, hs]

/-- An index of the result array is in point `t`'s block iff each coordinate is in the block's range. -/
theorem mem_blk (t : Fin cfg3.N) (i : S100000x2.Idx) :
    i ∈ ((cfg3.win 4).blk t).view.set ↔ ∀ a : Fin 2, win3_4.index t a * S1000x2.size a ≤ (i a).val ∧ (i a).val < win3_4.index t a * S1000x2.size a + S1000x2.size a := by
  show i ∈ ((View.whole main_v59).slice (win3_4.rect t)).set ↔ _
  rw [View.set_slice_whole, Rect.mem_set_unit]
  exact Iff.rfl

/-- Row `r` lies in the block of point `r / 1000`: the blocks cover the array. -/
theorem cover (i : S100000x2.Idx) : ∃ t : Fin cfg3.N, (cfg3.win 4).flush t = true ∧ i ∈ ((cfg3.win 4).blk t).view.set := by
  have hi0 : (i 0).val < 100000 := (i 0).isLt
  have hi1 : (i 1).val < 2 := (i 1).isLt
  have hN : grid3.N = 100 := N_3
  have ht : (i 0).val / 1000 < cfg3.N := by show _ < grid3.N; omega
  obtain ⟨-, -, -, -, -, -, -, -, e8, e9⟩ := idx_facts ⟨(i 0).val / 1000, ht⟩
  have e8' : win3_4.index ⟨(i 0).val / 1000, ht⟩ (0 : Fin 2) = (i 0).val / 1000 := e8
  refine ⟨⟨(i 0).val / 1000, ht⟩, flush3_4 _, ?_⟩
  rw [mem_blk]
  intro a
  match a with
  | ⟨0, _⟩ =>
    show win3_4.index ⟨(i 0).val / 1000, ht⟩ (0 : Fin 2) * 1000 ≤ (i 0).val ∧ (i 0).val < win3_4.index ⟨(i 0).val / 1000, ht⟩ (0 : Fin 2) * 1000 + 1000
    omega
  | ⟨1, _⟩ =>
    show win3_4.index ⟨(i 0).val / 1000, ht⟩ (1 : Fin 2) * 2 ≤ (i 1).val ∧ (i 1).val < win3_4.index ⟨(i 0).val / 1000, ht⟩ (1 : Fin 2) * 2 + 2
    omega

/-- After the region the result array is `outArr` of the four operand arrays as the region found them. -/
theorem final (c : Dev nD) : (dat3 V c).arrAt 4 cfg3.N = outArr (V c main_v57) (V c main_v46) (V c main_v27) (V c main_v58) :=
  (dat3 V c).arrAt_eq_of_cover 4 _ (fun t _ => flushed_eq V c t) cover

end Cert.KernelIdeal.Fin2

end
-- ==== Proof.Bridge1.lean ====
/-
  The kernel's regions against the reference's stages, layer by layer. Each region's result is one whole-array
  function of its operand arrays (the four region modules); applied to the reference's stage values it is the
  reference's next stage. A message region: the gathered features times the product of the two gathered
  normalisations, the kernel reading that product from two columns [E, 1] it multiplies in the block, the reference
  multiplying the flat arrays [E] and broadcasting the product to a column and along the features. The first finalize
  region: (aggregate + features / degree) + bias, then the maximum with zero, the kernel dividing on the vector unit
  and the reference on the host — one division of extended reals —, the degree and the bias reaching the kernel as a
  reshaped column and row and the reference by two broadcasts.
-/
import proofs.«112933_j85907935854681_2_alg».proof.Proof.Msg1
import proofs.«112933_j85907935854681_2_alg».proof.Proof.Msg2
import proofs.«112933_j85907935854681_2_alg».proof.Proof.Fin1
import proofs.«112933_j85907935854681_2_alg».proof.Proof.RefRead
import proofs.«112933_j85907935854681_2_alg».proof.Proof.GcnIdx

set_option maxRecDepth 16384

noncomputable section

namespace Cert.GcnBridge

open Cert.GcnIdx Idealize.ShloMosaic Idealize.ShloMosaic.TcCoe Idealize.SL.Sem
open Cert.ReferenceIdeal Cert.ReferenceIdeal.ReadP

variable (x0 : (⟨S100000x1, .f32⟩ : BufTy).Contents (Elt Ideal)) (x1 : (⟨S2x6400000, .i32⟩ : BufTy).Contents (Elt Ideal))
  (x2 : (⟨S1x16, .f32⟩ : BufTy).Contents (Elt Ideal)) (x3 : (⟨S16, .f32⟩ : BufTy).Contents (Elt Ideal))
  (x4 : (⟨S16x2, .f32⟩ : BufTy).Contents (Elt Ideal)) (x5 : (⟨S2, .f32⟩ : BufTy).Contents (Elt Ideal))

/-- The first layer's messages. -/
theorem msg1 : @Eq (S6400000x16.Idx → EReal)
    (Cert.KernelIdeal.Msg1.msgArr (F := Ideal) (val_main_v33 (F := Ideal) x0 x1 x2)
      (shapeCast Cert.KernelIdeal.S6400000x1 (val_main_v18 (F := Ideal) x1) Cert.KernelIdeal.Gen.shapeCasts_S6400000_S6400000x1)
      (shapeCast Cert.KernelIdeal.S6400000x1 (val_main_v25 (F := Ideal) x1) Cert.KernelIdeal.Gen.shapeCasts_S6400000_S6400000x1))
    (val_main_v36 (F := Ideal) x0 x1 x2) := by
  funext i
  rw [val_main_v36_apply, val_main_v35_apply, val_main_v34_apply, val_main_v26_apply]
  unfold Cert.KernelIdeal.Msg1.msgArr
  have e : (rowFlat (rowCol i) : S6400000.Idx) = idx_main_v34 (idx_main_v35 i) := funext fun a => match a with | ⟨0, _⟩ => rfl
  try beta_reduce
  rw [reshape_col_apply (n := 6400000), reshape_col_apply (n := 6400000), e]

/-- The first layer's output. -/
theorem fin1 : @Eq (S100000x16.Idx → EReal)
    (Cert.KernelIdeal.Fin1.outArr (F := Ideal) (val_main_v39 (F := Ideal) x0 x1 x2) (val_main_v4 (F := Ideal) x0 x2)
      (shapeCast Cert.KernelIdeal.S100000x1 (val_main_v10 (F := Ideal) x1) Cert.KernelIdeal.Gen.shapeCasts_S100000_S100000x1)
      (shapeCast Cert.KernelIdeal.S1x16 x3 Cert.KernelIdeal.Gen.shapeCasts_S16_S1x16))
    (val_main_v47 (F := Ideal) x0 x1 x2 x3) := by
  funext i
  rw [val_main_v47_apply, val_main_v46_apply, val_main_v43_apply, val_main_v42_apply, val_main_v41_apply, val_main_v40_apply,
    val_main_v45_apply, val_main_v44_apply, val_main_call0_v0_apply, val_main_call0_cst_apply]
  unfold Cert.KernelIdeal.Fin1.outArr
  have e1 : (rowFlat (rowCol i) : S100000.Idx) = idx_main_v40 (idx_main_v41 i) := funext fun a => match a with | ⟨0, _⟩ => rfl
  have e2 : (colFlat (colRow i) : S16.Idx) = idx_main_v44 (idx_main_v45 i) := funext fun a => match a with | ⟨0, _⟩ => rfl
  try beta_reduce
  rw [reshape_col_apply (n := 100000), reshape_row_apply (k := 16), e1, e2]
  rfl

/-- The second layer recomputes the normalisation under other names: the same operations of the same edge list. -/
theorem norm_src : val_main_v62 (F := Ideal) x1 = val_main_v18 (F := Ideal) x1 := rfl
theorem norm_dst : val_main_v69 (F := Ideal) x1 = val_main_v25 (F := Ideal) x1 := rfl
theorem deg2 : val_main_v54 (F := Ideal) x1 = val_main_v10 (F := Ideal) x1 := rfl

/-- The second message function read at an entry. -/
theorem msgArr2_apply (X : Cert.KernelIdeal.S6400000x2.Idx → Elt Ideal .f32) (A B : Cert.KernelIdeal.S6400000x1.Idx → Elt Ideal .f32)
    (i : Cert.KernelIdeal.S6400000x2.Idx) :
    Cert.KernelIdeal.Msg2.msgArr (F := Ideal) X A B i
      = FloatOps.mulf (F := Ideal) (φ := .f32) (X i) (FloatOps.mulf (F := Ideal) (φ := .f32) (A (rowCol i)) (B (rowCol i))) := rfl

/-- The second layer's messages, over the second layer's own (recomputed) normalisation. -/
theorem msg2 : @Eq (S6400000x2.Idx → EReal)
    (Cert.KernelIdeal.Msg2.msgArr (F := Ideal) (val_main_v77 (F := Ideal) x0 x1 x2 x3 x4)
      (shapeCast Cert.KernelIdeal.S6400000x1 (val_main_v62 (F := Ideal) x1) Cert.KernelIdeal.Gen.shapeCasts_S6400000_S6400000x1)
      (shapeCast Cert.KernelIdeal.S6400000x1 (val_main_v69 (F := Ideal) x1) Cert.KernelIdeal.Gen.shapeCasts_S6400000_S6400000x1))
    (val_main_v80 (F := Ideal) x0 x1 x2 x3 x4) := by
  funext i
  rw [val_main_v80_apply, val_main_v79_apply, val_main_v78_apply, val_main_v70_apply]
  have e : (rowFlat (rowCol i) : S6400000.Idx) = idx_main_v78 (idx_main_v79 i) := funext fun a => match a with | ⟨0, _⟩ => rfl
  refine (msgArr2_apply _ _ _ i).trans ?_
  rw [reshape_col_apply (n := 6400000), reshape_col_apply (n := 6400000), e]

end Cert.GcnBridge

end
-- ==== Proof.Bridge2.lean ====
/-
  The kernel's last region against the reference's last stages. The region's result is the row-wise log-softmax of
  (aggregate + features / degree) + bias. The reference computes the same pre-activation by two broadcasts of the
  degree and of the bias, and then its own log-softmax: the row maximum by a reduce from −∞ over the two columns
  (then once more the maximum with −∞, which changes nothing), the shifted row, its exponentials summed by a reduce
  from zero, the logarithm, the difference. Both row maxima are the fold of the maximum from −∞ over the row's two
  entries, both sums the sum over the row's two entries; so the two results agree entry by entry.
-/
import proofs.«112933_j85907935854681_2_alg».proof.Proof.Fin2
import proofs.«112933_j85907935854681_2_alg».proof.Proof.RefRead
import proofs.«112933_j85907935854681_2_alg».proof.Proof.GcnIdx
import Idealize.ShloMosaic.PureOps.Ideal.Laws

set_option maxRecDepth 16384

noncomputable section

open scoped BigOperators

namespace Cert.GcnBridge

open Cert.GcnIdx Idealize.ShloMosaic Idealize.ShloMosaic.TcCoe Idealize.SL.Sem
open Cert.ReferenceIdeal Cert.ReferenceIdeal.Gen Cert.ReferenceIdeal.ReadP

/-- −∞ is neutral for the maximum of extended reals. -/
theorem max_neg_inf (z : EReal) : max (Ideal.ofBits .f32 0xFF800000#32) z = z := by
  simp [Ideal.ofBits, Ideal.ieee]

/-- The host's row maximum (the reduce from −∞ over the columns, then the maximum with −∞) at a row index is the
    row's maximum read from any entry of that row. -/
theorem host_rowMax (Y : (⟨S100000x2, .f32⟩ : BufTy).Contents (Elt Ideal)) (r : S100000.Idx) (y : S100000x2.Idx)
    (hr : (r 0).val = (y 0).val) :
    FloatOps.maximumf (FloatOps.ofBits (F := Ideal) .f32 0xFF800000#32)
      (Host.reduce FloatOps.maximumf Y (val_main_call1_cst (F := Ideal)) reducesTo_S100000x2_S100000_d1 h_S_ r)
      = rowMax (n := 100000) (k := 2) Y y := by
  have hfold := Host.reduce_eq_fold_single (FloatOps.maximumf (F := Ideal) (φ := .f32)) Y (val_main_call1_cst (F := Ideal))
    reducesTo_S100000x2_S100000_d1 (by decide) h_S_ r
  rw [hfold]
  show max (Ideal.ofBits .f32 0xFF800000#32) (Finset.fold max (Ideal.ofBits .f32 0xFF800000#32) _ Finset.univ) = _
  rw [max_neg_inf]
  unfold rowMax
  refine congrArg (fun f => Finset.fold max (Ideal.ofBits .f32 0xFF800000#32) f (Finset.univ : Finset (Fin 2))) (funext fun q => ?_)
  show Y _ = Y (sameRow y q)
  refine congrArg Y (funext fun a => Fin.ext ?_)
  match a with
  | ⟨0, _⟩ => exact hr
  | ⟨1, _⟩ => rfl

variable (x0 : (⟨S100000x1, .f32⟩ : BufTy).Contents (Elt Ideal)) (x1 : (⟨S2x6400000, .i32⟩ : BufTy).Contents (Elt Ideal))
  (x2 : (⟨S1x16, .f32⟩ : BufTy).Contents (Elt Ideal)) (x3 : (⟨S16, .f32⟩ : BufTy).Contents (Elt Ideal))
  (x4 : (⟨S16x2, .f32⟩ : BufTy).Contents (Elt Ideal)) (x5 : (⟨S2, .f32⟩ : BufTy).Contents (Elt Ideal))

/-- The reference's shifted row: the pre-activation less its row's maximum. -/
theorem shifted_eq (y : S100000x2.Idx) :
    val_main_call1_v5 (F := Ideal) x0 x1 x2 x3 x4 x5 y = ((val_main_v90 (F := Ideal) x0 x1 x2 x3 x4 x5) y : EReal) - rowMax (n := 100000) (k := 2) (val_main_v90 (F := Ideal) x0 x1 x2 x3 x4 x5) y := by
  rw [val_main_call1_v5_apply, val_main_call1_v4_apply, val_main_call1_v3_apply, val_main_call1_v2_apply,
    val_main_call1_v1_apply, val_main_call1_cst_0_apply]
  unfold val_main_call1_v0
  rw [host_rowMax (val_main_v90 (F := Ideal) x0 x1 x2 x3 x4 x5) _ y rfl]
  rfl

/-- The second layer recomputes the degree under another name: the same operations of the same edge list. -/
theorem deg_again : val_main_v54 (F := Ideal) x1 = val_main_v10 (F := Ideal) x1 := rfl

/-- The pre-activation of the last region, on the reference's stage values, is the reference's pre-activation. -/
theorem pre2 : @Eq (S100000x2.Idx → EReal)
    (Cert.KernelIdeal.Fin2.preAct (n := 100000) (k := 2) (val_main_v83 (F := Ideal) x0 x1 x2 x3 x4) (val_main_v48 (F := Ideal) x0 x1 x2 x3 x4)
      (shapeCast Cert.KernelIdeal.S100000x1 (val_main_v10 (F := Ideal) x1) Cert.KernelIdeal.Gen.shapeCasts_S100000_S100000x1)
      (shapeCast Cert.KernelIdeal.S1x2 x5 Cert.KernelIdeal.Gen.shapeCasts_S2_S1x2))
    (val_main_v90 (F := Ideal) x0 x1 x2 x3 x4 x5) := by
  funext y
  rw [val_main_v90_apply, val_main_v87_apply, val_main_v86_apply, val_main_v85_apply, val_main_v84_apply, val_main_v89_apply,
    val_main_v88_apply, deg_again]
  unfold Cert.KernelIdeal.Fin2.preAct
  have e1 : (rowFlat (rowCol y) : S100000.Idx) = idx_main_v84 (idx_main_v85 y) := funext fun a => match a with | ⟨0, _⟩ => rfl
  have e2 : (colFlat (colRow y) : S2.Idx) = idx_main_v88 (idx_main_v89 y) := funext fun a => match a with | ⟨0, _⟩ => rfl
  try beta_reduce
  rw [reshape_col_apply (n := 100000), reshape_row_apply (k := 2), e1, e2]
  rfl

/-- The last region's result, on the reference's stage values, is the reference's result. -/
theorem fin2 : @Eq (S100000x2.Idx → EReal)
    (Cert.KernelIdeal.Fin2.outArr (val_main_v83 (F := Ideal) x0 x1 x2 x3 x4) (val_main_v48 (F := Ideal) x0 x1 x2 x3 x4)
      (shapeCast Cert.KernelIdeal.S100000x1 (val_main_v10 (F := Ideal) x1) Cert.KernelIdeal.Gen.shapeCasts_S100000_S100000x1)
      (shapeCast Cert.KernelIdeal.S1x2 x5 Cert.KernelIdeal.Gen.shapeCasts_S2_S1x2))
    (val_main_v91 (F := Ideal) x0 x1 x2 x3 x4 x5) := by
  unfold Cert.KernelIdeal.Fin2.outArr
  rw [pre2]
  funext i
  unfold logSoftmax
  rw [val_main_v91_apply, val_main_call1_v10_apply, val_main_call1_v9_apply, val_main_call1_v8_apply, val_main_call1_v7_apply, shifted_eq]
  have hs : (val_main_call1_cst_1 (F := Ideal)) (Shape.Idx.first h_S_)
        + ∑ k : Fin 2, val_main_call1_v6 (F := Ideal) x0 x1 x2 x3 x4 x5 (idx_main_call1_v7 (idx_main_call1_v8 (idx_main_call1_v10 i)) k)
      = ∑ q : Fin 2, Ideal.exp (((val_main_v90 (F := Ideal) x0 x1 x2 x3 x4 x5) (sameRow i q) : EReal) - rowMax (n := 100000) (k := 2) (val_main_v90 (F := Ideal) x0 x1 x2 x3 x4 x5) i) := by
    rw [val_main_call1_cst_1_apply, Ideal.ofBits_def, Ideal.ofBits_zero_f32, zero_add]
    refine Finset.sum_congr rfl fun q _ => ?_
    have ei : idx_main_call1_v7 (idx_main_call1_v8 (idx_main_call1_v10 i)) q = sameRow i q :=
      funext fun a => match a with | ⟨0, _⟩ => rfl | ⟨1, _⟩ => rfl
    rw [val_main_call1_v6_apply, shifted_eq, ei, Cert.KernelIdeal.Fin2.rowMax_sameRow, Ideal.hostUnary_exp_def]
  rw [hs, Ideal.hostUnary_log_def, Ideal.subf_def]

end Cert.GcnBridge

end
-- ==== Proof.KernelValue.lean ====
/-
  The idealized kernel's result as a function of its arguments. The buffer contents at the eight segment boundaries are
  the fold `W0 … W8`; read backwards from the result: the last region leaves the row-wise log-softmax of the second
  layer's pre-activation; its operands are the second aggregate (a scatter-add of the second messages), the second
  layer's features, the degree column and the bias row; the second messages are the second message region's result on
  the gathered features and the two normalisation columns; the features are the first layer's output times the second
  weights; the first layer's output is the first finalize region's result; and so on down to the launch memory. At
  every step the kernel's value is the reference's stage of the same name, so the result buffer ends at the
  reference's last stage of the kernel's own arguments.
-/
import proofs.«112933_j85907935854681_2_alg».proof.Proof.KHost0
import proofs.«112933_j85907935854681_2_alg».proof.Proof.KHost123
import proofs.«112933_j85907935854681_2_alg».proof.Proof.Msg1
import proofs.«112933_j85907935854681_2_alg».proof.Proof.Msg2
import proofs.«112933_j85907935854681_2_alg».proof.Proof.Fin1
import proofs.«112933_j85907935854681_2_alg».proof.Proof.Fin2
import proofs.«112933_j85907935854681_2_alg».proof.Proof.Bridge1
import proofs.«112933_j85907935854681_2_alg».proof.Proof.Bridge2

set_option maxRecDepth 16384

noncomputable section

namespace Cert.KernelIdeal.GcnValue

open Cert.KernelIdeal Cert.KernelIdeal.Gen Cert.GcnIdx Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the first message region -/

/-- The first layer's messages. -/
theorem k36 : W2 m ρ c (Proc.devRef .tc main_v40) = Cert.ReferenceIdeal.ReadP.val_main_v36 (F := Ideal) (m ((c.tc : Thread nD τ).loc main_arg0)) (m ((c.tc : Thread nD τ).loc main_arg1)) (m ((c.tc : Thread nD τ).loc main_arg2)) := by
  refine (W2_arr m ρ c 3).trans ((Msg1.final (V1 m ρ) c).trans ?_)
  show Msg1.msgArr (W1 m ρ c (Proc.devRef .tc main_v39)) (W1 m ρ c (Proc.devRef .tc main_v18)) (W1 m ρ c (Proc.devRef .tc main_v26)) = _
  rw [Host0.v39, Host0.v18, Host0.v26]
  exact Cert.GcnBridge.msg1 _ _ _

theorem w2_v3 : W2 m ρ c (Proc.devRef .tc main_v3) = Cert.ReferenceIdeal.ReadP.val_main_v3 (F := Ideal) (m ((c.tc : Thread nD τ).loc main_arg1)) :=
  (W2_of_ne m ρ c main_v3 (by decide)).trans (Host0.v3 m ρ c)
theorem w2_v1 : W2 m ρ c (Proc.devRef .tc main_v1) = Cert.ReferenceIdeal.ReadP.val_main_v1 (F := Ideal) (m ((c.tc : Thread nD τ).loc main_arg1)) :=
  (W2_of_ne m ρ c main_v1 (by decide)).trans (Host0.v1 m ρ c)
theorem w2_v32 : W2 m ρ c (Proc.devRef .tc main_v32) = Cert.ReferenceIdeal.ReadP.val_main_v4 (F := Ideal) (m ((c.tc : Thread nD τ).loc main_arg0)) (m ((c.tc : Thread nD τ).loc main_arg2)) :=
  (W2_of_ne m ρ c main_v32 (by decide)).trans (Host0.v32 m ρ c)
theorem w2_v27 : W2 m ρ c (Proc.devRef .tc main_v27) = shapeCast S100000x1 (Cert.ReferenceIdeal.ReadP.val_main_v10 (F := Ideal) (m ((c.tc : Thread nD τ).loc main_arg1))) shapeCasts_S100000_S100000x1 :=
  (W2_of_ne m ρ c main_v27 (by decide)).trans (Host0.v27 m ρ c)
theorem w2_v18 : W2 m ρ c (Proc.devRef .tc main_v18) = shapeCast S6400000x1 (Cert.ReferenceIdeal.ReadP.val_main_v18 (F := Ideal) (m ((c.tc : Thread nD τ).loc main_arg1))) shapeCasts_S6400000_S6400000x1 :=
  (W2_arr m ρ c 1).trans ((((dat0 (V1 m ρ) c).arrAt_in 1 rfl _).trans (A_eq0 (V1 m ρ) c 1)).trans (Host0.v18 m ρ c))
theorem w2_v26 : W2 m ρ c (Proc.devRef .tc main_v26) = shapeCast S6400000x1 (Cert.ReferenceIdeal.ReadP.val_main_v25 (F := Ideal) (m ((c.tc : Thread nD τ).loc main_arg1))) shapeCasts_S6400000_S6400000x1 :=
  (W2_arr m ρ c 2).trans ((((dat0 (V1 m ρ) c).arrAt_in 2 rfl _).trans (A_eq0 (V1 m ρ) c 2)).trans (Host0.v26 m ρ c))
theorem w2_arg3 : W2 m ρ c (Proc.devRef .tc main_arg3) = (m ((c.tc : Thread nD τ).loc main_arg3)) := (W2_of_ne m ρ c main_arg3 (by decide)).trans (Host0.arg3 m ρ c)
theorem w2_arg4 : W2 m ρ c (Proc.devRef .tc main_arg4) = (m ((c.tc : Thread nD τ).loc main_arg4)) := (W2_of_ne m ρ c main_arg4 (by decide)).trans (Host0.arg4 m ρ c)
theorem w2_arg5 : W2 m ρ c (Proc.devRef .tc main_arg5) = (m ((c.tc : Thread nD τ).loc main_arg5)) := (W2_of_ne m ρ c main_arg5 (by decide)).trans (Host0.arg5 m ρ c)

/-! ## After the second stretch -/

/-- The first layer's aggregate. -/
theorem k39 : W3 m ρ c (Proc.devRef .tc main_v43) = Cert.ReferenceIdeal.ReadP.val_main_v39 (F := Ideal) (m ((c.tc : Thread nD τ).loc main_arg0)) (m ((c.tc : Thread nD τ).loc main_arg1)) (m ((c.tc : Thread nD τ).loc main_arg2)) := by
  refine (Host123.s1_v43 (W2 m ρ c)).trans ?_
  rw [k36, w2_v3]
  rfl

theorem w3_v44 : W3 m ρ c (Proc.devRef .tc main_v44) = shapeCast S1x16 (m ((c.tc : Thread nD τ).loc main_arg3)) shapeCasts_S16_S1x16 := by
  refine (Host123.s1_v44 (W2 m ρ c)).trans ?_
  rw [w2_arg3]
theorem w3_v32 : W3 m ρ c (Proc.devRef .tc main_v32) = Cert.ReferenceIdeal.ReadP.val_main_v4 (F := Ideal) (m ((c.tc : Thread nD τ).loc main_arg0)) (m ((c.tc : Thread nD τ).loc main_arg2)) := (Host123.s1_v32 (W2 m ρ c)).trans (w2_v32 m ρ c)
theorem w3_v27 : W3 m ρ c (Proc.devRef .tc main_v27) = shapeCast S100000x1 (Cert.ReferenceIdeal.ReadP.val_main_v10 (F := Ideal) (m ((c.tc : Thread nD τ).loc main_arg1))) shapeCasts_S100000_S100000x1 := (Host123.s1_v27 (W2 m ρ c)).trans (w2_v27 m ρ c)
theorem w3_v1 : W3 m ρ c (Proc.devRef .tc main_v1) = Cert.ReferenceIdeal.ReadP.val_main_v1 (F := Ideal) (m ((c.tc : Thread nD τ).loc main_arg1)) := (Host123.s1_v1 (W2 m ρ c)).trans (w2_v1 m ρ c)
theorem w3_v3 : W3 m ρ c (Proc.devRef .tc main_v3) = Cert.ReferenceIdeal.ReadP.val_main_v3 (F := Ideal) (m ((c.tc : Thread nD τ).loc main_arg1)) := (Host123.s1_v3 (W2 m ρ c)).trans (w2_v3 m ρ c)
theorem w3_v18 : W3 m ρ c (Proc.devRef .tc main_v18) = shapeCast S6400000x1 (Cert.ReferenceIdeal.ReadP.val_main_v18 (F := Ideal) (m ((c.tc : Thread nD τ).loc main_arg1))) shapeCasts_S6400000_S6400000x1 := (Host123.s1_v18 (W2 m ρ c)).trans (w2_v18 m ρ c)
theorem w3_v26 : W3 m ρ c (Proc.devRef .tc main_v26) = shapeCast S6400000x1 (Cert.ReferenceIdeal.ReadP.val_main_v25 (F := Ideal) (m ((c.tc : Thread nD τ).loc main_arg1))) shapeCasts_S6400000_S6400000x1 := (Host123.s1_v26 (W2 m ρ c)).trans (w2_v26 m ρ c)
theorem w3_arg4 : W3 m ρ c (Proc.devRef .tc main_arg4) = (m ((c.tc : Thread nD τ).loc main_arg4)) := (Host123.s1_arg4 (W2 m ρ c)).trans (w2_arg4 m ρ c)
theorem w3_arg5 : W3 m ρ c (Proc.devRef .tc main_arg5) = (m ((c.tc : Thread nD τ).loc main_arg5)) := (Host123.s1_arg5 (W2 m ρ c)).trans (w2_arg5 m ρ c)

/-! ## After the first finalize region -/

/-- The first layer's output. -/
theorem k47 : W4 m ρ c (Proc.devRef .tc main_v45) = Cert.ReferenceIdeal.ReadP.val_main_v47 (F := Ideal) (m ((c.tc : Thread nD τ).loc main_arg0)) (m ((c.tc : Thread nD τ).loc main_arg1)) (m ((c.tc : Thread nD τ).loc main_arg2)) (m ((c.tc : Thread nD τ).loc main_arg3)) := by
  refine (W4_arr m ρ c 4).trans ((Fin1.final (V3 m ρ) c).trans ?_)
  show Fin1.outArr (W3 m ρ c (Proc.devRef .tc main_v43)) (W3 m ρ c (Proc.devRef .tc main_v32)) (W3 m ρ c (Proc.devRef .tc main_v27)) (W3 m ρ c (Proc.devRef .tc main_v44)) = _
  rw [k39, w3_v32, w3_v27, w3_v44]
  exact Cert.GcnBridge.fin1 _ _ _ _

theorem w4_v1 : W4 m ρ c (Proc.devRef .tc main_v1) = Cert.ReferenceIdeal.ReadP.val_main_v1 (F := Ideal) (m ((c.tc : Thread nD τ).loc main_arg1)) := (W4_of_ne m ρ c main_v1 (by decide)).trans (w3_v1 m ρ c)
theorem w4_v3 : W4 m ρ c (Proc.devRef .tc main_v3) = Cert.ReferenceIdeal.ReadP.val_main_v3 (F := Ideal) (m ((c.tc : Thread nD τ).loc main_arg1)) := (W4_of_ne m ρ c main_v3 (by decide)).trans (w3_v3 m ρ c)
theorem w4_v27 : W4 m ρ c (Proc.devRef .tc main_v27) = shapeCast S100000x1 (Cert.ReferenceIdeal.ReadP.val_main_v10 (F := Ideal) (m ((c.tc : Thread nD τ).loc main_arg1))) shapeCasts_S100000_S100000x1 := (W4_arr m ρ c 2).trans ((((dat1 (V3 m ρ) c).arrAt_in 2 rfl _).trans (A_eq1 (V3 m ρ) c 2)).trans (w3_v27 m ρ c))
theorem w4_v18 : W4 m ρ c (Proc.devRef .tc main_v18) = shapeCast S6400000x1 (Cert.ReferenceIdeal.ReadP.val_main_v18 (F := Ideal) (m ((c.tc : Thread nD τ).loc main_arg1))) shapeCasts_S6400000_S6400000x1 := (W4_of_ne m ρ c main_v18 (by decide)).trans (w3_v18 m ρ c)
theorem w4_v26 : W4 m ρ c (Proc.devRef .tc main_v26) = shapeCast S6400000x1 (Cert.ReferenceIdeal.ReadP.val_main_v25 (F := Ideal) (m ((c.tc : Thread nD τ).loc main_arg1))) shapeCasts_S6400000_S6400000x1 := (W4_of_ne m ρ c main_v26 (by decide)).trans (w3_v26 m ρ c)
theorem w4_arg4 : W4 m ρ c (Proc.devRef .tc main_arg4) = (m ((c.tc : Thread nD τ).loc main_arg4)) := (W4_of_ne m ρ c main_arg4 (by decide)).trans (w3_arg4 m ρ c)
theorem w4_arg5 : W4 m ρ c (Proc.devRef .tc main_arg5) = (m ((c.tc : Thread nD τ).loc main_arg5)) := (W4_of_ne m ρ c main_arg5 (by decide)).trans (w3_arg5 m ρ c)

/-! ## After the third stretch -/

/-- The second layer's transformed features. -/
theorem k48 : W5 m ρ c (Proc.devRef .tc main_v46) = Cert.ReferenceIdeal.ReadP.val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (Host123.s2_v46 (W4 m ρ c)).trans ?_
  rw [k47, w4_arg4]
  rfl

/-- Those features gathered at the sources. -/
theorem k77 : W5 m ρ c (Proc.devRef .tc main_v53) = Cert.ReferenceIdeal.ReadP.val_main_v77 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (Host123.s2_v53 (W4 m ρ c)).trans ?_
  rw [k47, w4_arg4, w4_v1]
  rfl

theorem w5_v18 : W5 m ρ c (Proc.devRef .tc main_v18) = shapeCast S6400000x1 (Cert.ReferenceIdeal.ReadP.val_main_v18 (F := Ideal) (m ((c.tc : Thread nD τ).loc main_arg1))) shapeCasts_S6400000_S6400000x1 := (Host123.s2_v18 (W4 m ρ c)).trans (w4_v18 m ρ c)
theorem w5_v26 : W5 m ρ c (Proc.devRef .tc main_v26) = shapeCast S6400000x1 (Cert.ReferenceIdeal.ReadP.val_main_v25 (F := Ideal) (m ((c.tc : Thread nD τ).loc main_arg1))) shapeCasts_S6400000_S6400000x1 := (Host123.s2_v26 (W4 m ρ c)).trans (w4_v26 m ρ c)
theorem w5_v3 : W5 m ρ c (Proc.devRef .tc main_v3) = Cert.ReferenceIdeal.ReadP.val_main_v3 (F := Ideal) (m ((c.tc : Thread nD τ).loc main_arg1)) := (Host123.s2_v3 (W4 m ρ c)).trans (w4_v3 m ρ c)
theorem w5_v27 : W5 m ρ c (Proc.devRef .tc main_v27) = shapeCast S100000x1 (Cert.ReferenceIdeal.ReadP.val_main_v10 (F := Ideal) (m ((c.tc : Thread nD τ).loc main_arg1))) shapeCasts_S100000_S100000x1 := (Host123.s2_v27 (W4 m ρ c)).trans (w4_v27 m ρ c)
theorem w5_arg5 : W5 m ρ c (Proc.devRef .tc main_arg5) = (m ((c.tc : Thread nD τ).loc main_arg5)) := (Host123.s2_arg5 (W4 m ρ c)).trans (w4_arg5 m ρ c)

/-- The same two columns under the names of the reference's second layer, which recomputes the normalisation by the
    same operations of the same edge list. -/
theorem w5_v18' : W5 m ρ c (Proc.devRef .tc main_v18) = shapeCast S6400000x1 (Cert.ReferenceIdeal.ReadP.val_main_v62 (F := Ideal) (m ((c.tc : Thread nD τ).loc main_arg1))) shapeCasts_S6400000_S6400000x1 :=
  (w5_v18 m ρ c).trans (congrArg (fun z => shapeCast S6400000x1 z shapeCasts_S6400000_S6400000x1) (Cert.GcnBridge.norm_src (m ((c.tc : Thread nD τ).loc main_arg1))).symm)
theorem w5_v26' : W5 m ρ c (Proc.devRef .tc main_v26) = shapeCast S6400000x1 (Cert.ReferenceIdeal.ReadP.val_main_v69 (F := Ideal) (m ((c.tc : Thread nD τ).loc main_arg1))) shapeCasts_S6400000_S6400000x1 :=
  (w5_v26 m ρ c).trans (congrArg (fun z => shapeCast S6400000x1 z shapeCasts_S6400000_S6400000x1) (Cert.GcnBridge.norm_dst (m ((c.tc : Thread nD τ).loc main_arg1))).symm)

/-! ## After the second message region -/

/-- The second layer's messages. -/
theorem k80 : W6 m ρ c (Proc.devRef .tc main_v54) = Cert.ReferenceIdeal.ReadP.val_main_v80 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W6_arr m ρ c 3).trans ((Msg2.final (V5 m ρ) c).trans ?_)
  show Msg2.msgArr (W5 m ρ c (Proc.devRef .tc main_v53)) (W5 m ρ c (Proc.devRef .tc main_v18)) (W5 m ρ c (Proc.devRef .tc main_v26)) = _
  rw [k77, w5_v18', w5_v26']
  exact Cert.GcnBridge.msg2 _ _ _ _ _

theorem w6_v3 : W6 m ρ c (Proc.devRef .tc main_v3) = Cert.ReferenceIdeal.ReadP.val_main_v3 (F := Ideal) (m ((c.tc : Thread nD τ).loc main_arg1)) := (W6_of_ne m ρ c main_v3 (by decide)).trans (w5_v3 m ρ c)
theorem w6_v46 : W6 m ρ c (Proc.devRef .tc main_v46) = Cert.ReferenceIdeal.ReadP.val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := (W6_of_ne m ρ c main_v46 (by decide)).trans (k48 m ρ c)
theorem w6_v27 : W6 m ρ c (Proc.devRef .tc main_v27) = shapeCast S100000x1 (Cert.ReferenceIdeal.ReadP.val_main_v10 (F := Ideal) (m ((c.tc : Thread nD τ).loc main_arg1))) shapeCasts_S100000_S100000x1 := (W6_of_ne m ρ c main_v27 (by decide)).trans (w5_v27 m ρ c)
theorem w6_arg5 : W6 m ρ c (Proc.devRef .tc main_arg5) = (m ((c.tc : Thread nD τ).loc main_arg5)) := (W6_of_ne m ρ c main_arg5 (by decide)).trans (w5_arg5 m ρ c)

/-! ## After the fourth stretch -/

/-- The second layer's aggregate. -/
theorem k83 : W7 m ρ c (Proc.devRef .tc main_v57) = Cert.ReferenceIdeal.ReadP.val_main_v83 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (Host123.s3_v57 (W6 m ρ c)).trans ?_
  rw [k80, w6_v3]
  rfl

theorem w7_v58 : W7 m ρ c (Proc.devRef .tc main_v58) = shapeCast S1x2 (m ((c.tc : Thread nD τ).loc main_arg5)) shapeCasts_S2_S1x2 := by
  refine (Host123.s3_v58 (W6 m ρ c)).trans ?_
  rw [w6_arg5]
theorem w7_v46 : W7 m ρ c (Proc.devRef .tc main_v46) = Cert.ReferenceIdeal.ReadP.val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := (Host123.s3_v46 (W6 m ρ c)).trans (w6_v46 m ρ c)
theorem w7_v27 : W7 m ρ c (Proc.devRef .tc main_v27) = shapeCast S100000x1 (Cert.ReferenceIdeal.ReadP.val_main_v10 (F := Ideal) (m ((c.tc : Thread nD τ).loc main_arg1))) shapeCasts_S100000_S100000x1 := (Host123.s3_v27 (W6 m ρ c)).trans (w6_v27 m ρ c)

/-! ## After the last region -/

/-- The kernel's result buffer ends at the reference's last stage of the kernel's arguments. -/
theorem result_eq : W8 m ρ c (Proc.devRef .tc main_v59) = Cert.ReferenceIdeal.ReadP.val_main_v91 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W8_arr m ρ c 4).trans ((Fin2.final (V7 m ρ) c).trans ?_)
  show Fin2.outArr (W7 m ρ c (Proc.devRef .tc main_v57)) (W7 m ρ c (Proc.devRef .tc main_v46)) (W7 m ρ c (Proc.devRef .tc main_v27)) (W7 m ρ c (Proc.devRef .tc main_v58)) = _
  rw [k83, w7_v46, w7_v27, w7_v58]
  exact Cert.GcnBridge.fin2 _ _ _ _ _ _

end Cert.KernelIdeal.GcnValue

end
-- ==== Proof.RefOps.lean ====
/-
  The reference program's @main as FOUR consecutive lists of host operations, and its run stated over their fold.

  @main is a straight line of 128 StableHLO operations (a two-layer graph convolution followed by a row-wise
  log-softmax; the two called functions' operations stand in their calls' places). Split into consecutive lists
  `opsA ++ opsB ++ opsC ++ opsD`, the line is still @main by computation, and since running two lines one after the
  other is running their concatenation (`after_append`), every TensorCore buffer ends at
  `after opsD (after opsC (after opsB (after opsA W)))` of the launch contents `W` (`run_fold`). Each of the four
  folds can then be evaluated on its own, from an arbitrary valuation.
-/
import proofs.«112933_j85907935854681_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The contents after two lines of operations run one after the other: the second line's fold over the first's. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A property of every element of two lists holds of every element of their concatenation. -/
theorem forall_append {α : Type} {p : α → Prop} {l₁ l₂ : List α} (h₁ : l₁.Forall p) (h₂ : l₂.Forall p) :
    (l₁ ++ l₂).Forall p :=
  List.forall_iff_forall_mem.2 fun x hx =>
    (List.mem_append.1 hx).elim (List.forall_iff_forall_mem.1 h₁ x) (List.forall_iff_forall_mem.1 h₂ x)

variable {F : FTy → Type} [FloatOps F]

/-- Operations 1–46: the two index rows of the edge list (`main_v1` the sources, `main_v3` the targets), the first layer's product `x·W₁` (`main_v4`), the degree (`main_v10`: ones scattered at the targets, plus one), the edge weights (`main_v26`: the product of the inverse square roots of the degree at the two ends) and the first layer's messages (`main_v36`: the product's rows gathered at the sources, times the edge weights). -/
abbrev opsA : List (HloOp τ sig (Elt F)) :=
  [
    unary main_arg1 main_v0 ((extractStridedSlice S1x6400000 ![0, 0] · slices_S2x6400000_S1x6400000_0_0) : (⟨S2x6400000, .i32⟩ : BufTy).Contents (Elt F) → (⟨S1x6400000, .i32⟩ : BufTy).Contents (Elt F)),
    reshape main_v0 main_v1 rfl shapeCasts_S1x6400000_S6400000,
    unary main_arg1 main_v2 ((extractStridedSlice S1x6400000 ![1, 0] · slices_S2x6400000_S1x6400000_1_0) : (⟨S2x6400000, .i32⟩ : BufTy).Contents (Elt F) → (⟨S1x6400000, .i32⟩ : BufTy).Contents (Elt F)),
    reshape main_v2 main_v3 rfl shapeCasts_S1x6400000_S6400000,
    binary main_arg0 main_arg2 main_v4 ((fun l r => Host.dotGeneral dot_S100000x1_S1x16_S100000x16_1_0_0_1_n_n none l r) : (⟨S100000x1, .f32⟩ : BufTy).Contents (Elt F) → (⟨S1x16, .f32⟩ : BufTy).Contents (Elt F) → (⟨S100000x16, .f32⟩ : BufTy).Contents (Elt F)),
    nullary main_cst (constant S_ .f32 0x3F800000#32),
    unary main_cst main_v5 (broadcastInDim S6400000 ![] bcast_S_S6400000 : (⟨S_, .f32⟩ : BufTy).Contents (Elt F) → (⟨S6400000, .f32⟩ : BufTy).Contents (Elt F)),
    nullary main_cst_0 (constant S_ .f32 0x00000000#32),
    unary main_cst_0 main_v6 (broadcastInDim S100000 ![] bcast_S_S100000 : (⟨S_, .f32⟩ : BufTy).Contents (Elt F) → (⟨S100000, .f32⟩ : BufTy).Contents (Elt F)),
    unary main_v3 main_v7 (broadcastInDim S6400000x1 ![0] bcast_S6400000_S6400000x1_0 : (⟨S6400000, .i32⟩ : BufTy).Contents (Elt F) → (⟨S6400000x1, .i32⟩ : BufTy).Contents (Elt F)),
    ternary main_v6 main_v7 main_v5 main_v8 ((fun x i u => Host.scatterAdd scatter_S100000_S6400000x1_S6400000_n_0_0_1 x i u) : (⟨S100000, .f32⟩ : BufTy).Contents (Elt F) → (⟨S6400000x1, .i32⟩ : BufTy).Contents (Elt F) → (⟨S6400000, .f32⟩ : BufTy).Contents (Elt F) → (⟨S100000, .f32⟩ : BufTy).Contents (Elt F)),
    nullary main_cst_1 (constant S_ .f32 0x3F800000#32),
    unary main_cst_1 main_v9 (broadcastInDim S100000 ![] bcast_S_S100000 : (⟨S_, .f32⟩ : BufTy).Contents (Elt F) → (⟨S100000, .f32⟩ : BufTy).Contents (Elt F)),
    binary main_v8 main_v9 main_v10 (addf : (⟨S100000, .f32⟩ : BufTy).Contents (Elt F) → (⟨S100000, .f32⟩ : BufTy).Contents (Elt F) → (⟨S100000, .f32⟩ : BufTy).Contents (Elt F)),
    unary main_v10 main_v11 (Host.rsqrt : (⟨S100000, .f32⟩ : BufTy).Contents (Elt F) → (⟨S100000, .f32⟩ : BufTy).Contents (Elt F)),
    nullary main_c (constantI S_ 32 0#32),
    unary main_c main_v12 (broadcastInDim S6400000 ![] bcast_S_S6400000 : (⟨S_, .i32⟩ : BufTy).Contents (Elt F) → (⟨S6400000, .i32⟩ : BufTy).Contents (Elt F)),
    binary main_v1 main_v12 main_v13 (cmpi .slt : (⟨S6400000, .i32⟩ : BufTy).Contents (Elt F) → (⟨S6400000, .i32⟩ : BufTy).Contents (Elt F) → (⟨S6400000, .i1⟩ : BufTy).Contents (Elt F)),
    nullary main_c_2 (constantI S_ 32 100000#32),
    unary main_c_2 main_v14 (broadcastInDim S6400000 ![] bcast_S_S6400000 : (⟨S_, .i32⟩ : BufTy).Contents (Elt F) → (⟨S6400000, .i32⟩ : BufTy).Contents (Elt F)),
    binary main_v1 main_v14 main_v15 (addi : (⟨S6400000, .i32⟩ : BufTy).Contents (Elt F) → (⟨S6400000, .i32⟩ : BufTy).Contents (Elt F) → (⟨S6400000, .i32⟩ : BufTy).Contents (Elt F)),
    ternary main_v13 main_v15 main_v1 main_v16 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v16 main_v17 (broadcastInDim S6400000x1 ![0] bcast_S6400000_S6400000x1_0 : (⟨S6400000, .i32⟩ : BufTy).Contents (Elt F) → (⟨S6400000x1, .i32⟩ : BufTy).Contents (Elt F)),
    binary main_v11 main_v17 main_v18 ((fun x i => Host.gather gather_S100000_S6400000x1_S6400000_n_0_n_n_0_1_1 x i) : (⟨S100000, .f32⟩ : BufTy).Contents (Elt F) → (⟨S6400000x1, .i32⟩ : BufTy).Contents (Elt F) → (⟨S6400000, .f32⟩ : BufTy).Contents (Elt F)),
    nullary main_c_3 (constantI S_ 32 0#32),
    unary main_c_3 main_v19 (broadcastInDim S6400000 ![] bcast_S_S6400000 : (⟨S_, .i32⟩ : BufTy).Contents (Elt F) → (⟨S6400000, .i32⟩ : BufTy).Contents (Elt F)),
    binary main_v3 main_v19 main_v20 (cmpi .slt : (⟨S6400000, .i32⟩ : BufTy).Contents (Elt F) → (⟨S6400000, .i32⟩ : BufTy).Contents (Elt F) → (⟨S6400000, .i1⟩ : BufTy).Contents (Elt F)),
    nullary main_c_4 (constantI S_ 32 100000#32),
    unary main_c_4 main_v21 (broadcastInDim S6400000 ![] bcast_S_S6400000 : (⟨S_, .i32⟩ : BufTy).Contents (Elt F) → (⟨S6400000, .i32⟩ : BufTy).Contents (Elt F)),
    binary main_v3 main_v21 main_v22 (addi : (⟨S6400000, .i32⟩ : BufTy).Contents (Elt F) → (⟨S6400000, .i32⟩ : BufTy).Contents (Elt F) → (⟨S6400000, .i32⟩ : BufTy).Contents (Elt F)),
    ternary main_v20 main_v22 main_v3 main_v23 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v23 main_v24 (broadcastInDim S6400000x1 ![0] bcast_S6400000_S6400000x1_0 : (⟨S6400000, .i32⟩ : BufTy).Contents (Elt F) → (⟨S6400000x1, .i32⟩ : BufTy).Contents (Elt F)),
    binary main_v11 main_v24 main_v25 ((fun x i => Host.gather gather_S100000_S6400000x1_S6400000_n_0_n_n_0_1_1 x i) : (⟨S100000, .f32⟩ : BufTy).Contents (Elt F) → (⟨S6400000x1, .i32⟩ : BufTy).Contents (Elt F) → (⟨S6400000, .f32⟩ : BufTy).Contents (Elt F)),
    binary main_v18 main_v25 main_v26 (mulf : (⟨S6400000, .f32⟩ : BufTy).Contents (Elt F) → (⟨S6400000, .f32⟩ : BufTy).Contents (Elt F) → (⟨S6400000, .f32⟩ : BufTy).Contents (Elt F)),
    nullary main_c_5 (constantI S_ 32 0#32),
    unary main_c_5 main_v27 (broadcastInDim S6400000 ![] bcast_S_S6400000 : (⟨S_, .i32⟩ : BufTy).Contents (Elt F) → (⟨S6400000, .i32⟩ : BufTy).Contents (Elt F)),
    binary main_v1 main_v27 main_v28 (cmpi .slt : (⟨S6400000, .i32⟩ : BufTy).Contents (Elt F) → (⟨S6400000, .i32⟩ : BufTy).Contents (Elt F) → (⟨S6400000, .i1⟩ : BufTy).Contents (Elt F)),
    nullary main_c_6 (constantI S_ 32 100000#32),
    unary main_c_6 main_v29 (broadcastInDim S6400000 ![] bcast_S_S6400000 : (⟨S_, .i32⟩ : BufTy).Contents (Elt F) → (⟨S6400000, .i32⟩ : BufTy).Contents (Elt F)),
    binary main_v1 main_v29 main_v30 (addi : (⟨S6400000, .i32⟩ : BufTy).Contents (Elt F) → (⟨S6400000, .i32⟩ : BufTy).Contents (Elt F) → (⟨S6400000, .i32⟩ : BufTy).Contents (Elt F)),
    ternary main_v28 main_v30 main_v1 main_v31 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v31 main_v32 (broadcastInDim S6400000x1 ![0] bcast_S6400000_S6400000x1_0 : (⟨S6400000, .i32⟩ : BufTy).Contents (Elt F) → (⟨S6400000x1, .i32⟩ : BufTy).Contents (Elt F)),
    binary main_v4 main_v32 main_v33 ((fun x i => Host.gather gather_S100000x16_S6400000x1_S6400000x16_1_0_n_n_0_1_116 x i) : (⟨S100000x16, .f32⟩ : BufTy).Contents (Elt F) → (⟨S6400000x1, .i32⟩ : BufTy).Contents (Elt F) → (⟨S6400000x16, .f32⟩ : BufTy).Contents (Elt F)),
    unary main_v26 main_v34 (broadcastInDim S6400000x1 ![0] bcast_S6400000_S6400000x1_0 : (⟨S6400000, .f32⟩ : BufTy).Contents (Elt F) → (⟨S6400000x1, .f32⟩ : BufTy).Contents (Elt F)),
    unary main_v34 main_v35 (broadcastInDim S6400000x16 ![0, 1] bcast_S6400000x1_S6400000x16_0_1 : (⟨S6400000x1, .f32⟩ : BufTy).Contents (Elt F) → (⟨S6400000x16, .f32⟩ : BufTy).Contents (Elt F)),
    binary main_v33 main_v35 main_v36 (mulf : (⟨S6400000x16, .f32⟩ : BufTy).Contents (Elt F) → (⟨S6400000x16, .f32⟩ : BufTy).Contents (Elt F) → (⟨S6400000x16, .f32⟩ : BufTy).Contents (Elt F)) ]

/-- Operations 47–60: the first layer's aggregation — the messages scatter-added at the targets (`main_v39`), plus the self term `x·W₁ / degree` (`main_v42`), plus the bias (`main_arg3`) — and the rectifier (`main_v47`). -/
abbrev opsB : List (HloOp τ sig (Elt F)) :=
  [
    nullary main_cst_7 (constant S_ .f32 0x00000000#32),
    unary main_cst_7 main_v37 (broadcastInDim S100000x16 ![] bcast_S_S100000x16 : (⟨S_, .f32⟩ : BufTy).Contents (Elt F) → (⟨S100000x16, .f32⟩ : BufTy).Contents (Elt F)),
    unary main_v3 main_v38 (broadcastInDim S6400000x1 ![0] bcast_S6400000_S6400000x1_0 : (⟨S6400000, .i32⟩ : BufTy).Contents (Elt F) → (⟨S6400000x1, .i32⟩ : BufTy).Contents (Elt F)),
    ternary main_v37 main_v38 main_v36 main_v39 ((fun x i u => Host.scatterAdd scatter_S100000x16_S6400000x1_S6400000x16_1_0_0_1 x i u) : (⟨S100000x16, .f32⟩ : BufTy).Contents (Elt F) → (⟨S6400000x1, .i32⟩ : BufTy).Contents (Elt F) → (⟨S6400000x16, .f32⟩ : BufTy).Contents (Elt F) → (⟨S100000x16, .f32⟩ : BufTy).Contents (Elt F)),
    unary main_v10 main_v40 (broadcastInDim S100000x1 ![0] bcast_S100000_S100000x1_0 : (⟨S100000, .f32⟩ : BufTy).Contents (Elt F) → (⟨S100000x1, .f32⟩ : BufTy).Contents (Elt F)),
    unary main_v40 main_v41 (broadcastInDim S100000x16 ![0, 1] bcast_S100000x1_S100000x16_0_1 : (⟨S100000x1, .f32⟩ : BufTy).Contents (Elt F) → (⟨S100000x16, .f32⟩ : BufTy).Contents (Elt F)),
    binary main_v4 main_v41 main_v42 (Host.divf : (⟨S100000x16, .f32⟩ : BufTy).Contents (Elt F) → (⟨S100000x16, .f32⟩ : BufTy).Contents (Elt F) → (⟨S100000x16, .f32⟩ : BufTy).Contents (Elt F)),
    binary main_v39 main_v42 main_v43 (addf : (⟨S100000x16, .f32⟩ : BufTy).Contents (Elt F) → (⟨S100000x16, .f32⟩ : BufTy).Contents (Elt F) → (⟨S100000x16, .f32⟩ : BufTy).Contents (Elt F)),
    unary main_arg3 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x16, .f32⟩) main_call0_v0) (broadcastInDim S100000x16 ![] bcast_S_S100000x16),
    TRef.binary (TRef.of (T := ⟨S100000x16, .f32⟩) main_v46) (TRef.of (T := ⟨S100000x16, .f32⟩) main_call0_v0) (TRef.of (T := ⟨S100000x16, .f32⟩) main_v47) maximumf ]

/-- Operations 61–102: the second layer's product `h·W₂` (`main_v48`), the degree and the edge weights computed again (`main_v54`, `main_v70`) and the second layer's messages (`main_v80`). -/
abbrev opsC : List (HloOp τ sig (Elt F)) :=
  [
    binary main_v47 main_arg4 main_v48 ((fun l r => Host.dotGeneral dot_S100000x16_S16x2_S100000x2_1_0_0_1_n_n none l r) : (⟨S100000x16, .f32⟩ : BufTy).Contents (Elt F) → (⟨S16x2, .f32⟩ : BufTy).Contents (Elt F) → (⟨S100000x2, .f32⟩ : BufTy).Contents (Elt F)),
    nullary main_cst_8 (constant S_ .f32 0x3F800000#32),
    unary main_cst_8 main_v49 (broadcastInDim S6400000 ![] bcast_S_S6400000 : (⟨S_, .f32⟩ : BufTy).Contents (Elt F) → (⟨S6400000, .f32⟩ : BufTy).Contents (Elt F)),
    nullary main_cst_9 (constant S_ .f32 0x00000000#32),
    unary main_cst_9 main_v50 (broadcastInDim S100000 ![] bcast_S_S100000 : (⟨S_, .f32⟩ : BufTy).Contents (Elt F) → (⟨S100000, .f32⟩ : BufTy).Contents (Elt F)),
    unary main_v3 main_v51 (broadcastInDim S6400000x1 ![0] bcast_S6400000_S6400000x1_0 : (⟨S6400000, .i32⟩ : BufTy).Contents (Elt F) → (⟨S6400000x1, .i32⟩ : BufTy).Contents (Elt F)),
    ternary main_v50 main_v51 main_v49 main_v52 ((fun x i u => Host.scatterAdd scatter_S100000_S6400000x1_S6400000_n_0_0_1 x i u) : (⟨S100000, .f32⟩ : BufTy).Contents (Elt F) → (⟨S6400000x1, .i32⟩ : BufTy).Contents (Elt F) → (⟨S6400000, .f32⟩ : BufTy).Contents (Elt F) → (⟨S100000, .f32⟩ : BufTy).Contents (Elt F)),
    nullary main_cst_10 (constant S_ .f32 0x3F800000#32),
    unary main_cst_10 main_v53 (broadcastInDim S100000 ![] bcast_S_S100000 : (⟨S_, .f32⟩ : BufTy).Contents (Elt F) → (⟨S100000, .f32⟩ : BufTy).Contents (Elt F)),
    binary main_v52 main_v53 main_v54 (addf : (⟨S100000, .f32⟩ : BufTy).Contents (Elt F) → (⟨S100000, .f32⟩ : BufTy).Contents (Elt F) → (⟨S100000, .f32⟩ : BufTy).Contents (Elt F)),
    unary main_v54 main_v55 (Host.rsqrt : (⟨S100000, .f32⟩ : BufTy).Contents (Elt F) → (⟨S100000, .f32⟩ : BufTy).Contents (Elt F)),
    nullary main_c_11 (constantI S_ 32 0#32),
    unary main_c_11 main_v56 (broadcastInDim S6400000 ![] bcast_S_S6400000 : (⟨S_, .i32⟩ : BufTy).Contents (Elt F) → (⟨S6400000, .i32⟩ : BufTy).Contents (Elt F)),
    binary main_v1 main_v56 main_v57 (cmpi .slt : (⟨S6400000, .i32⟩ : BufTy).Contents (Elt F) → (⟨S6400000, .i32⟩ : BufTy).Contents (Elt F) → (⟨S6400000, .i1⟩ : BufTy).Contents (Elt F)),
    nullary main_c_12 (constantI S_ 32 100000#32),
    unary main_c_12 main_v58 (broadcastInDim S6400000 ![] bcast_S_S6400000 : (⟨S_, .i32⟩ : BufTy).Contents (Elt F) → (⟨S6400000, .i32⟩ : BufTy).Contents (Elt F)),
    binary main_v1 main_v58 main_v59 (addi : (⟨S6400000, .i32⟩ : BufTy).Contents (Elt F) → (⟨S6400000, .i32⟩ : BufTy).Contents (Elt F) → (⟨S6400000, .i32⟩ : BufTy).Contents (Elt F)),
    ternary main_v57 main_v59 main_v1 main_v60 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v60 main_v61 (broadcastInDim S6400000x1 ![0] bcast_S6400000_S6400000x1_0 : (⟨S6400000, .i32⟩ : BufTy).Contents (Elt F) → (⟨S6400000x1, .i32⟩ : BufTy).Contents (Elt F)),
    binary main_v55 main_v61 main_v62 ((fun x i => Host.gather gather_S100000_S6400000x1_S6400000_n_0_n_n_0_1_1 x i) : (⟨S100000, .f32⟩ : BufTy).Contents (Elt F) → (⟨S6400000x1, .i32⟩ : BufTy).Contents (Elt F) → (⟨S6400000, .f32⟩ : BufTy).Contents (Elt F)),
    nullary main_c_13 (constantI S_ 32 0#32),
    unary main_c_13 main_v63 (broadcastInDim S6400000 ![] bcast_S_S6400000 : (⟨S_, .i32⟩ : BufTy).Contents (Elt F) → (⟨S6400000, .i32⟩ : BufTy).Contents (Elt F)),
    binary main_v3 main_v63 main_v64 (cmpi .slt : (⟨S6400000, .i32⟩ : BufTy).Contents (Elt F) → (⟨S6400000, .i32⟩ : BufTy).Contents (Elt F) → (⟨S6400000, .i1⟩ : BufTy).Contents (Elt F)),
    nullary main_c_14 (constantI S_ 32 100000#32),
    unary main_c_14 main_v65 (broadcastInDim S6400000 ![] bcast_S_S6400000 : (⟨S_, .i32⟩ : BufTy).Contents (Elt F) → (⟨S6400000, .i32⟩ : BufTy).Contents (Elt F)),
    binary main_v3 main_v65 main_v66 (addi : (⟨S6400000, .i32⟩ : BufTy).Contents (Elt F) → (⟨S6400000, .i32⟩ : BufTy).Contents (Elt F) → (⟨S6400000, .i32⟩ : BufTy).Contents (Elt F)),
    ternary main_v64 main_v66 main_v3 main_v67 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v67 main_v68 (broadcastInDim S6400000x1 ![0] bcast_S6400000_S6400000x1_0 : (⟨S6400000, .i32⟩ : BufTy).Contents (Elt F) → (⟨S6400000x1, .i32⟩ : BufTy).Contents (Elt F)),
    binary main_v55 main_v68 main_v69 ((fun x i => Host.gather gather_S100000_S6400000x1_S6400000_n_0_n_n_0_1_1 x i) : (⟨S100000, .f32⟩ : BufTy).Contents (Elt F) → (⟨S6400000x1, .i32⟩ : BufTy).Contents (Elt F) → (⟨S6400000, .f32⟩ : BufTy).Contents (Elt F)),
    binary main_v62 main_v69 main_v70 (mulf : (⟨S6400000, .f32⟩ : BufTy).Contents (Elt F) → (⟨S6400000, .f32⟩ : BufTy).Contents (Elt F) → (⟨S6400000, .f32⟩ : BufTy).Contents (Elt F)),
    nullary main_c_15 (constantI S_ 32 0#32),
    unary main_c_15 main_v71 (broadcastInDim S6400000 ![] bcast_S_S6400000 : (⟨S_, .i32⟩ : BufTy).Contents (Elt F) → (⟨S6400000, .i32⟩ : BufTy).Contents (Elt F)),
    binary main_v1 main_v71 main_v72 (cmpi .slt : (⟨S6400000, .i32⟩ : BufTy).Contents (Elt F) → (⟨S6400000, .i32⟩ : BufTy).Contents (Elt F) → (⟨S6400000, .i1⟩ : BufTy).Contents (Elt F)),
    nullary main_c_16 (constantI S_ 32 100000#32),
    unary main_c_16 main_v73 (broadcastInDim S6400000 ![] bcast_S_S6400000 : (⟨S_, .i32⟩ : BufTy).Contents (Elt F) → (⟨S6400000, .i32⟩ : BufTy).Contents (Elt F)),
    binary main_v1 main_v73 main_v74 (addi : (⟨S6400000, .i32⟩ : BufTy).Contents (Elt F) → (⟨S6400000, .i32⟩ : BufTy).Contents (Elt F) → (⟨S6400000, .i32⟩ : BufTy).Contents (Elt F)),
    ternary main_v72 main_v74 main_v1 main_v75 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v75 main_v76 (broadcastInDim S6400000x1 ![0] bcast_S6400000_S6400000x1_0 : (⟨S6400000, .i32⟩ : BufTy).Contents (Elt F) → (⟨S6400000x1, .i32⟩ : BufTy).Contents (Elt F)),
    binary main_v48 main_v76 main_v77 ((fun x i => Host.gather gather_S100000x2_S6400000x1_S6400000x2_1_0_n_n_0_1_12 x i) : (⟨S100000x2, .f32⟩ : BufTy).Contents (Elt F) → (⟨S6400000x1, .i32⟩ : BufTy).Contents (Elt F) → (⟨S6400000x2, .f32⟩ : BufTy).Contents (Elt F)),
    unary main_v70 main_v78 (broadcastInDim S6400000x1 ![0] bcast_S6400000_S6400000x1_0 : (⟨S6400000, .f32⟩ : BufTy).Contents (Elt F) → (⟨S6400000x1, .f32⟩ : BufTy).Contents (Elt F)),
    unary main_v78 main_v79 (broadcastInDim S6400000x2 ![0, 1] bcast_S6400000x1_S6400000x2_0_1 : (⟨S6400000x1, .f32⟩ : BufTy).Contents (Elt F) → (⟨S6400000x2, .f32⟩ : BufTy).Contents (Elt F)),
    binary main_v77 main_v79 main_v80 (mulf : (⟨S6400000x2, .f32⟩ : BufTy).Contents (Elt F) → (⟨S6400000x2, .f32⟩ : BufTy).Contents (Elt F) → (⟨S6400000x2, .f32⟩ : BufTy).Contents (Elt F)) ]

/-- Operations 103–128: the second layer's aggregation (`main_v90`: scatter-add at the targets, self term, bias `main_arg5`) and the logarithm of the softmax along each row (`main_v91`). -/
abbrev opsD : List (HloOp τ sig (Elt F)) :=
  [
    nullary main_cst_17 (constant S_ .f32 0x00000000#32),
    unary main_cst_17 main_v81 (broadcastInDim S100000x2 ![] bcast_S_S100000x2 : (⟨S_, .f32⟩ : BufTy).Contents (Elt F) → (⟨S100000x2, .f32⟩ : BufTy).Contents (Elt F)),
    unary main_v3 main_v82 (broadcastInDim S6400000x1 ![0] bcast_S6400000_S6400000x1_0 : (⟨S6400000, .i32⟩ : BufTy).Contents (Elt F) → (⟨S6400000x1, .i32⟩ : BufTy).Contents (Elt F)),
    ternary main_v81 main_v82 main_v80 main_v83 ((fun x i u => Host.scatterAdd scatter_S100000x2_S6400000x1_S6400000x2_1_0_0_1 x i u) : (⟨S100000x2, .f32⟩ : BufTy).Contents (Elt F) → (⟨S6400000x1, .i32⟩ : BufTy).Contents (Elt F) → (⟨S6400000x2, .f32⟩ : BufTy).Contents (Elt F) → (⟨S100000x2, .f32⟩ : BufTy).Contents (Elt F)),
    unary main_v54 main_v84 (broadcastInDim S100000x1 ![0] bcast_S100000_S100000x1_0 : (⟨S100000, .f32⟩ : BufTy).Contents (Elt F) → (⟨S100000x1, .f32⟩ : BufTy).Contents (Elt F)),
    unary main_v84 main_v85 (broadcastInDim S100000x2 ![0, 1] bcast_S100000x1_S100000x2_0_1 : (⟨S100000x1, .f32⟩ : BufTy).Contents (Elt F) → (⟨S100000x2, .f32⟩ : BufTy).Contents (Elt F)),
    binary main_v48 main_v85 main_v86 (Host.divf : (⟨S100000x2, .f32⟩ : BufTy).Contents (Elt F) → (⟨S100000x2, .f32⟩ : BufTy).Contents (Elt F) → (⟨S100000x2, .f32⟩ : BufTy).Contents (Elt F)),
    binary main_v83 main_v86 main_v87 (addf : (⟨S100000x2, .f32⟩ : BufTy).Contents (Elt F) → (⟨S100000x2, .f32⟩ : BufTy).Contents (Elt F) → (⟨S100000x2, .f32⟩ : BufTy).Contents (Elt F)),
    unary main_arg5 main_v88 (broadcastInDim S1x2 ![1] bcast_S2_S1x2_1 : (⟨S2, .f32⟩ : BufTy).Contents (Elt F) → (⟨S1x2, .f32⟩ : BufTy).Contents (Elt F)),
    unary main_v88 main_v89 (broadcastInDim S100000x2 ![0, 1] bcast_S1x2_S100000x2_0_1 : (⟨S1x2, .f32⟩ : BufTy).Contents (Elt F) → (⟨S100000x2, .f32⟩ : BufTy).Contents (Elt F)),
    binary main_v87 main_v89 main_v90 (addf : (⟨S100000x2, .f32⟩ : BufTy).Contents (Elt F) → (⟨S100000x2, .f32⟩ : BufTy).Contents (Elt F) → (⟨S100000x2, .f32⟩ : BufTy).Contents (Elt F)),
    TRef.nullary (TRef.of (T := ⟨S_, .f32⟩) main_call1_cst) (constant S_ .f32 0xFF800000#32),
    TRef.binary (TRef.of (T := ⟨S100000x2, .f32⟩) main_v90) (TRef.of (T := ⟨S_, .f32⟩) main_call1_cst) (TRef.of (T := ⟨S100000, .f32⟩) main_call1_v0) (fun x v => Host.reduce FloatOps.maximumf x v reducesTo_S100000x2_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x2, .f32⟩) main_call1_v4) (broadcastInDim S100000x2 ![0, 1] bcast_S100000x1_S100000x2_0_1),
    TRef.binary (TRef.of (T := ⟨S100000x2, .f32⟩) main_v90) (TRef.of (T := ⟨S100000x2, .f32⟩) main_call1_v4) (TRef.of (T := ⟨S100000x2, .f32⟩) main_call1_v5) subf,
    TRef.unary (TRef.of (T := ⟨S100000x2, .f32⟩) main_call1_v5) (TRef.of (T := ⟨S100000x2, .f32⟩) main_call1_v6) Host.exp,
    TRef.nullary (TRef.of (T := ⟨S_, .f32⟩) main_call1_cst_1) (constant S_ .f32 0x00000000#32),
    TRef.binary (TRef.of (T := ⟨S100000x2, .f32⟩) main_call1_v6) (TRef.of (T := ⟨S_, .f32⟩) main_call1_cst_1) (TRef.of (T := ⟨S100000, .f32⟩) main_call1_v7) (fun x v => Host.reduceAdd x v reducesTo_S100000x2_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x2, .f32⟩) main_call1_v10) (broadcastInDim S100000x2 ![0, 1] bcast_S100000x1_S100000x2_0_1),
    TRef.binary (TRef.of (T := ⟨S100000x2, .f32⟩) main_call1_v5) (TRef.of (T := ⟨S100000x2, .f32⟩) main_call1_v10) (TRef.of (T := ⟨S100000x2, .f32⟩) main_v91) subf ]

/-- @main's 128 operations, in order: the four lists one after the other. -/
abbrev ops : List (HloOp τ sig (Elt F)) := opsA ++ opsB ++ opsC ++ opsD

set_option maxRecDepth 8192 in
set_option maxHeartbeats 4000000 in
/-- @main is the straight line of the four lists' operations. -/
theorem main_eq (c : Dev nD) : main (F := F) c = seq (ops (F := F)) := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsA_sub : (opsA : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub ..⟩

set_option maxRecDepth 8192 in
theorem opsB_sub : (opsB : List (HloOp τ sig (Elt F))).Forall fun op => op.bufs ⊆ tcRefs τ sig :=
  ⟨nullary_bufs_sub .., unary_bufs_sub .., unary_bufs_sub .., ternary_bufs_sub .., unary_bufs_sub .., unary_bufs_sub .., binary_bufs_sub .., binary_bufs_sub .., unary_bufs_sub .., unary_bufs_sub .., binary_bufs_sub .., nullary_bufs_sub .., unary_bufs_sub .., binary_bufs_sub ..⟩

set_option maxRecDepth 8192 in
theorem opsC_sub : (opsC : List (HloOp τ sig (Elt F))).Forall fun op => op.bufs ⊆ tcRefs τ sig :=
  ⟨binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub ..⟩

set_option maxRecDepth 8192 in
theorem opsD_sub : (opsD : List (HloOp τ sig (Elt F))).Forall fun op => op.bufs ⊆ tcRefs τ sig :=
  ⟨nullary_bufs_sub .., unary_bufs_sub .., unary_bufs_sub .., ternary_bufs_sub .., unary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- Every operation of the line touches TensorCore references only. -/
theorem ops_sub : (ops : List (HloOp τ sig (Elt F))).Forall fun op => op.bufs ⊆ tcRefs τ sig :=
  forall_append (forall_append (forall_append opsA_sub opsB_sub) opsC_sub) opsD_sub

theorem opsA_fresh : ∀ op ∈ (opsA : List (HloOp τ sig (Elt F))), op.fresh = ∅ := by
  intro _ h; (repeat (cases h with | head => rfl | tail _ h => ?_)); exact nomatch h

theorem opsB_fresh : ∀ op ∈ (opsB : List (HloOp τ sig (Elt F))), op.fresh = ∅ := by
  intro _ h; (repeat (cases h with | head => rfl | tail _ h => ?_)); exact nomatch h

theorem opsC_fresh : ∀ op ∈ (opsC : List (HloOp τ sig (Elt F))), op.fresh = ∅ := by
  intro _ h; (repeat (cases h with | head => rfl | tail _ h => ?_)); exact nomatch h

theorem opsD_fresh : ∀ op ∈ (opsD : List (HloOp τ sig (Elt F))), op.fresh = ∅ := by
  intro _ h; (repeat (cases h with | head => rfl | tail _ h => ?_)); exact nomatch h

/-- Every operation of the line determines its results. -/
theorem ops_fresh : ∀ op ∈ (ops : List (HloOp τ sig (Elt F))), op.fresh = ∅ := fun op h =>
  (List.mem_append.1 h).elim (fun h => (List.mem_append.1 h).elim (fun h => (List.mem_append.1 h).elim
    (opsA_fresh op) (opsB_fresh op)) (opsC_fresh op)) (opsD_fresh op)

/-- On every device, for any float values, from any memory with zero counters: every weakly fair execution of
    @main terminates with each TensorCore buffer at the four lists' folds, one over the other, of the launch contents. -/
theorem run_fold (m : (ℓ : Loc nD τ sig) → Buf (Elt F) ℓ) (ρ : Dev nD → PrngReg) :
    θ_run (defs (F := F)) (onTc (τ := τ) (main (F := F))) ⟨m, fun _ => 0, ρ⟩ fun r => ∀ (c : Dev nD) (b : Ref sig .tc),
      r.2.mem ((c.tc : Thread nD τ).loc b)
        = after opsD (after opsC (after opsB (after opsA (launchContents m c)))) (Proc.devRef .tc b) :=
  (θ_run defs _ _).mono (fun _ h c b => (h c b).trans (by
      show after (opsA ++ opsB ++ opsC ++ opsD) (launchContents m c) (Proc.devRef .tc b) = _
      rw [after_append, after_append, after_append]))
    (run_seq scopedRefs_eq scopedSems_eq defs main (fun _ => ops) main_eq (fun _ => ops_sub) m ρ (fun _ => ops_fresh))

end Cert.ReferenceIdeal.RefValue

end
-- ==== Proof.RefValue.lean ====
/-
  The value the reference program's @main leaves in its result buffer, read off the four lists of its operations.

  Each list's fold is evaluated from an ARBITRARY valuation `V`, knowing only what `V` holds at the few buffers the
  list reads from before it: the first list (the edge rows, `x·W₁`, the degree, the first layer's messages) reads the
  arguments only; the second (the first layer's aggregation and rectifier) reads the targets' row, `x·W₁`, the degree,
  the messages and the first bias; the third (the second layer's product, degree and messages) reads both edge rows,
  the rectifier's result and the second weights; the fourth (the second layer's aggregation and the row-wise
  log-softmax) reads the targets' row, the product, the degree, the messages and the second bias. At each such buffer
  the fold is the operation's function of the values before it, which is how `ReadP.val_<buffer>` is defined, so each
  list's result is the next `val_` by computation on that list alone. No operation writes an argument or, after the
  first list, an edge row, so these pass through every fold unchanged. Chaining the four gives the result buffer as
  `ReadP.val_main_v91` of the six arguments' launch contents, with the arguments unchanged (`run`).
-/
import proofs.«112933_j85907935854681_2_alg».proof.Proof.RefOps
import proofs.«112933_j85907935854681_2_alg».proof.Proof.RefRead

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## What each list leaves untouched -/

theorem keepA_arg0 (V : Valuation τ sig (Elt F)) :
    after (opsA (F := F)) V (Proc.devRef .tc main_arg0) = V (Proc.devRef .tc main_arg0) := by
  after_results_simp <;> rfl
theorem keepA_arg1 (V : Valuation τ sig (Elt F)) :
    after (opsA (F := F)) V (Proc.devRef .tc main_arg1) = V (Proc.devRef .tc main_arg1) := by
  after_results_simp <;> rfl
theorem keepA_arg2 (V : Valuation τ sig (Elt F)) :
    after (opsA (F := F)) V (Proc.devRef .tc main_arg2) = V (Proc.devRef .tc main_arg2) := by
  after_results_simp <;> rfl
theorem keepA_arg3 (V : Valuation τ sig (Elt F)) :
    after (opsA (F := F)) V (Proc.devRef .tc main_arg3) = V (Proc.devRef .tc main_arg3) := by
  after_results_simp <;> rfl
theorem keepA_arg4 (V : Valuation τ sig (Elt F)) :
    after (opsA (F := F)) V (Proc.devRef .tc main_arg4) = V (Proc.devRef .tc main_arg4) := by
  after_results_simp <;> rfl
theorem keepA_arg5 (V : Valuation τ sig (Elt F)) :
    after (opsA (F := F)) V (Proc.devRef .tc main_arg5) = V (Proc.devRef .tc main_arg5) := by
  after_results_simp <;> rfl
theorem keepB_v1 (V : Valuation τ sig (Elt F)) :
    after (opsB (F := F)) V (Proc.devRef .tc main_v1) = V (Proc.devRef .tc main_v1) := by
  after_results_simp <;> rfl
theorem keepB_v3 (V : Valuation τ sig (Elt F)) :
    after (opsB (F := F)) V (Proc.devRef .tc main_v3) = V (Proc.devRef .tc main_v3) := by
  after_results_simp <;> rfl
theorem keepB_arg0 (V : Valuation τ sig (Elt F)) :
    after (opsB (F := F)) V (Proc.devRef .tc main_arg0) = V (Proc.devRef .tc main_arg0) := by
  after_results_simp <;> rfl
theorem keepB_arg1 (V : Valuation τ sig (Elt F)) :
    after (opsB (F := F)) V (Proc.devRef .tc main_arg1) = V (Proc.devRef .tc main_arg1) := by
  after_results_simp <;> rfl
theorem keepB_arg2 (V : Valuation τ sig (Elt F)) :
    after (opsB (F := F)) V (Proc.devRef .tc main_arg2) = V (Proc.devRef .tc main_arg2) := by
  after_results_simp <;> rfl
theorem keepB_arg3 (V : Valuation τ sig (Elt F)) :
    after (opsB (F := F)) V (Proc.devRef .tc main_arg3) = V (Proc.devRef .tc main_arg3) := by
  after_results_simp <;> rfl
theorem keepB_arg4 (V : Valuation τ sig (Elt F)) :
    after (opsB (F := F)) V (Proc.devRef .tc main_arg4) = V (Proc.devRef .tc main_arg4) := by
  after_results_simp <;> rfl
theorem keepB_arg5 (V : Valuation τ sig (Elt F)) :
    after (opsB (F := F)) V (Proc.devRef .tc main_arg5) = V (Proc.devRef .tc main_arg5) := by
  after_results_simp <;> rfl
theorem keepC_v3 (V : Valuation τ sig (Elt F)) :
    after (opsC (F := F)) V (Proc.devRef .tc main_v3) = V (Proc.devRef .tc main_v3) := by
  after_results_simp <;> rfl
theorem keepC_arg0 (V : Valuation τ sig (Elt F)) :
    after (opsC (F := F)) V (Proc.devRef .tc main_arg0) = V (Proc.devRef .tc main_arg0) := by
  after_results_simp <;> rfl
theorem keepC_arg1 (V : Valuation τ sig (Elt F)) :
    after (opsC (F := F)) V (Proc.devRef .tc main_arg1) = V (Proc.devRef .tc main_arg1) := by
  after_results_simp <;> rfl
theorem keepC_arg2 (V : Valuation τ sig (Elt F)) :
    after (opsC (F := F)) V (Proc.devRef .tc main_arg2) = V (Proc.devRef .tc main_arg2) := by
  after_results_simp <;> rfl
theorem keepC_arg3 (V : Valuation τ sig (Elt F)) :
    after (opsC (F := F)) V (Proc.devRef .tc main_arg3) = V (Proc.devRef .tc main_arg3) := by
  after_results_simp <;> rfl
theorem keepC_arg4 (V : Valuation τ sig (Elt F)) :
    after (opsC (F := F)) V (Proc.devRef .tc main_arg4) = V (Proc.devRef .tc main_arg4) := by
  after_results_simp <;> rfl
theorem keepC_arg5 (V : Valuation τ sig (Elt F)) :
    after (opsC (F := F)) V (Proc.devRef .tc main_arg5) = V (Proc.devRef .tc main_arg5) := by
  after_results_simp <;> rfl
theorem keepD_arg0 (V : Valuation τ sig (Elt F)) :
    after (opsD (F := F)) V (Proc.devRef .tc main_arg0) = V (Proc.devRef .tc main_arg0) := by
  after_results_simp <;> rfl
theorem keepD_arg1 (V : Valuation τ sig (Elt F)) :
    after (opsD (F := F)) V (Proc.devRef .tc main_arg1) = V (Proc.devRef .tc main_arg1) := by
  after_results_simp <;> rfl
theorem keepD_arg2 (V : Valuation τ sig (Elt F)) :
    after (opsD (F := F)) V (Proc.devRef .tc main_arg2) = V (Proc.devRef .tc main_arg2) := by
  after_results_simp <;> rfl
theorem keepD_arg3 (V : Valuation τ sig (Elt F)) :
    after (opsD (F := F)) V (Proc.devRef .tc main_arg3) = V (Proc.devRef .tc main_arg3) := by
  after_results_simp <;> rfl
theorem keepD_arg4 (V : Valuation τ sig (Elt F)) :
    after (opsD (F := F)) V (Proc.devRef .tc main_arg4) = V (Proc.devRef .tc main_arg4) := by
  after_results_simp <;> rfl
theorem keepD_arg5 (V : Valuation τ sig (Elt F)) :
    after (opsD (F := F)) V (Proc.devRef .tc main_arg5) = V (Proc.devRef .tc main_arg5) := by
  after_results_simp <;> rfl

/-! ## The first list: the edge rows, `x·W₁`, the degree, the first layer's messages -/

theorem valA_v1 (V : Valuation τ sig (Elt F)) :
    after (opsA (F := F)) V (Proc.devRef .tc main_v1)
      = ReadP.val_main_v1 (F := F) (V (Proc.devRef .tc main_arg1)) := by
  after_results_simp <;> rfl
theorem valA_v3 (V : Valuation τ sig (Elt F)) :
    after (opsA (F := F)) V (Proc.devRef .tc main_v3)
      = ReadP.val_main_v3 (F := F) (V (Proc.devRef .tc main_arg1)) := by
  after_results_simp <;> rfl
theorem valA_v4 (V : Valuation τ sig (Elt F)) :
    after (opsA (F := F)) V (Proc.devRef .tc main_v4)
      = ReadP.val_main_v4 (F := F) (V (Proc.devRef .tc main_arg0)) (V (Proc.devRef .tc main_arg2)) := by
  after_results_simp <;> rfl
theorem valA_v10 (V : Valuation τ sig (Elt F)) :
    after (opsA (F := F)) V (Proc.devRef .tc main_v10)
      = ReadP.val_main_v10 (F := F) (V (Proc.devRef .tc main_arg1)) := by
  after_results_simp <;> rfl
theorem valA_v36 (V : Valuation τ sig (Elt F)) :
    after (opsA (F := F)) V (Proc.devRef .tc main_v36)
      = ReadP.val_main_v36 (F := F) (V (Proc.devRef .tc main_arg0)) (V (Proc.devRef .tc main_arg1)) (V (Proc.devRef .tc main_arg2)) := by
  after_results_simp <;> rfl

/-! ## The second list: the first layer's aggregation and rectifier -/

/-- The rectifier's result after the second list, from a valuation that holds the first list's values. -/
theorem valB_v47 (V : Valuation τ sig (Elt F)) (x0 : (⟨S100000x1, .f32⟩ : BufTy).Contents (Elt F)) (x1 : (⟨S2x6400000, .i32⟩ : BufTy).Contents (Elt F)) (x2 : (⟨S1x16, .f32⟩ : BufTy).Contents (Elt F)) (x3 : (⟨S16, .f32⟩ : BufTy).Contents (Elt F))
    (h3 : V (Proc.devRef .tc main_v3) = ReadP.val_main_v3 (F := F) x1) (h4 : V (Proc.devRef .tc main_v4) = ReadP.val_main_v4 (F := F) x0 x2)
    (h10 : V (Proc.devRef .tc main_v10) = ReadP.val_main_v10 (F := F) x1) (h36 : V (Proc.devRef .tc main_v36) = ReadP.val_main_v36 (F := F) x0 x1 x2)
    (ha3 : V (Proc.devRef .tc main_arg3) = x3) :
    after (opsB (F := F)) V (Proc.devRef .tc main_v47) = ReadP.val_main_v47 (F := F) x0 x1 x2 x3 := by
  after_results_simp
  rw [h3, h4, h10, h36, ha3]
  rfl

/-! ## The third list: the second layer's product, degree and messages -/

/-- The second layer's product after the third list. -/
theorem valC_v48 (V : Valuation τ sig (Elt F)) (x0 : (⟨S100000x1, .f32⟩ : BufTy).Contents (Elt F)) (x1 : (⟨S2x6400000, .i32⟩ : BufTy).Contents (Elt F)) (x2 : (⟨S1x16, .f32⟩ : BufTy).Contents (Elt F)) (x3 : (⟨S16, .f32⟩ : BufTy).Contents (Elt F)) (x4 : (⟨S16x2, .f32⟩ : BufTy).Contents (Elt F))
    (h47 : V (Proc.devRef .tc main_v47) = ReadP.val_main_v47 (F := F) x0 x1 x2 x3) (ha4 : V (Proc.devRef .tc main_arg4) = x4) :
    after (opsC (F := F)) V (Proc.devRef .tc main_v48) = ReadP.val_main_v48 (F := F) x0 x1 x2 x3 x4 := by
  after_results_simp
  rw [h47, ha4]
  rfl

/-- The degree, computed again by the third list. -/
theorem valC_v54 (V : Valuation τ sig (Elt F)) (x1 : (⟨S2x6400000, .i32⟩ : BufTy).Contents (Elt F))
    (h3 : V (Proc.devRef .tc main_v3) = ReadP.val_main_v3 (F := F) x1) :
    after (opsC (F := F)) V (Proc.devRef .tc main_v54) = ReadP.val_main_v54 (F := F) x1 := by
  after_results_simp
  rw [h3]
  rfl

/-- The second layer's messages after the third list. -/
theorem valC_v80 (V : Valuation τ sig (Elt F)) (x0 : (⟨S100000x1, .f32⟩ : BufTy).Contents (Elt F)) (x1 : (⟨S2x6400000, .i32⟩ : BufTy).Contents (Elt F)) (x2 : (⟨S1x16, .f32⟩ : BufTy).Contents (Elt F)) (x3 : (⟨S16, .f32⟩ : BufTy).Contents (Elt F)) (x4 : (⟨S16x2, .f32⟩ : BufTy).Contents (Elt F))
    (h1 : V (Proc.devRef .tc main_v1) = ReadP.val_main_v1 (F := F) x1) (h3 : V (Proc.devRef .tc main_v3) = ReadP.val_main_v3 (F := F) x1)
    (h47 : V (Proc.devRef .tc main_v47) = ReadP.val_main_v47 (F := F) x0 x1 x2 x3) (ha4 : V (Proc.devRef .tc main_arg4) = x4) :
    after (opsC (F := F)) V (Proc.devRef .tc main_v80) = ReadP.val_main_v80 (F := F) x0 x1 x2 x3 x4 := by
  after_results_simp
  rw [h1, h3, h47, ha4]
  rfl

/-! ## The fourth list: the second layer's aggregation and the row-wise log-softmax -/

/-- The result after the fourth list. The log-softmax is a called function: its operations move each value along the
    identity between its buffer's type and its tensor type (`TRef.toBuf`, `TRef.ofBuf`: casts along an equation that
    holds by computation), and `cast_eq` removes these before the two sides are compared. -/
theorem valD_v91 (V : Valuation τ sig (Elt F)) (x0 : (⟨S100000x1, .f32⟩ : BufTy).Contents (Elt F)) (x1 : (⟨S2x6400000, .i32⟩ : BufTy).Contents (Elt F)) (x2 : (⟨S1x16, .f32⟩ : BufTy).Contents (Elt F)) (x3 : (⟨S16, .f32⟩ : BufTy).Contents (Elt F)) (x4 : (⟨S16x2, .f32⟩ : BufTy).Contents (Elt F)) (x5 : (⟨S2, .f32⟩ : BufTy).Contents (Elt F))
    (h3 : V (Proc.devRef .tc main_v3) = ReadP.val_main_v3 (F := F) x1) (h48 : V (Proc.devRef .tc main_v48) = ReadP.val_main_v48 (F := F) x0 x1 x2 x3 x4)
    (h54 : V (Proc.devRef .tc main_v54) = ReadP.val_main_v54 (F := F) x1) (h80 : V (Proc.devRef .tc main_v80) = ReadP.val_main_v80 (F := F) x0 x1 x2 x3 x4)
    (ha5 : V (Proc.devRef .tc main_arg5) = x5) :
    after (opsD (F := F)) V (Proc.devRef .tc main_v91) = ReadP.val_main_v91 (F := F) x0 x1 x2 x3 x4 x5 := by
  after_results_simp
  rw [h3, h48, h54, h80, ha5]
  simp only [TRef.toBuf, TRef.ofBuf, cast_eq]
  rfl

/-! ## The four folds, one over the other -/

/-- The result buffer after the whole line, from any valuation `W`: `val_main_v91` of `W` at the six arguments. -/
theorem fold_v91 (W : Valuation τ sig (Elt F)) :
    after (opsD (F := F)) (after (opsC (F := F)) (after (opsB (F := F)) (after (opsA (F := F)) W))) (Proc.devRef .tc main_v91)
      = ReadP.val_main_v91 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) := by
  have hB47 : (after (opsB (F := F)) (after (opsA (F := F)) W)) (Proc.devRef .tc main_v47) = ReadP.val_main_v47 (F := F) (W (Proc.devRef .tc main_arg0)) (W (Proc.devRef .tc main_arg1)) (W (Proc.devRef .tc main_arg2)) (W (Proc.devRef .tc main_arg3)) :=
    valB_v47 (after (opsA (F := F)) W) (W (Proc.devRef .tc main_arg0)) (W (Proc.devRef .tc main_arg1)) (W (Proc.devRef .tc main_arg2)) (W (Proc.devRef .tc main_arg3)) (valA_v3 W) (valA_v4 W) (valA_v10 W) (valA_v36 W) (keepA_arg3 W)
  have hB1 : (after (opsB (F := F)) (after (opsA (F := F)) W)) (Proc.devRef .tc main_v1) = ReadP.val_main_v1 (F := F) (W (Proc.devRef .tc main_arg1)) := (keepB_v1 (after (opsA (F := F)) W)).trans (valA_v1 W)
  have hB3 : (after (opsB (F := F)) (after (opsA (F := F)) W)) (Proc.devRef .tc main_v3) = ReadP.val_main_v3 (F := F) (W (Proc.devRef .tc main_arg1)) := (keepB_v3 (after (opsA (F := F)) W)).trans (valA_v3 W)
  have hBa4 : (after (opsB (F := F)) (after (opsA (F := F)) W)) (Proc.devRef .tc main_arg4) = W (Proc.devRef .tc main_arg4) := (keepB_arg4 (after (opsA (F := F)) W)).trans (keepA_arg4 W)
  have hBa5 : (after (opsB (F := F)) (after (opsA (F := F)) W)) (Proc.devRef .tc main_arg5) = W (Proc.devRef .tc main_arg5) := (keepB_arg5 (after (opsA (F := F)) W)).trans (keepA_arg5 W)
  have hC48 : (after (opsC (F := F)) (after (opsB (F := F)) (after (opsA (F := F)) W))) (Proc.devRef .tc main_v48) = ReadP.val_main_v48 (F := F) (W (Proc.devRef .tc main_arg0)) (W (Proc.devRef .tc main_arg1)) (W (Proc.devRef .tc main_arg2)) (W (Proc.devRef .tc main_arg3)) (W (Proc.devRef .tc main_arg4)) :=
    valC_v48 (after (opsB (F := F)) (after (opsA (F := F)) W)) (W (Proc.devRef .tc main_arg0)) (W (Proc.devRef .tc main_arg1)) (W (Proc.devRef .tc main_arg2)) (W (Proc.devRef .tc main_arg3)) (W (Proc.devRef .tc main_arg4)) hB47 hBa4
  have hC54 : (after (opsC (F := F)) (after (opsB (F := F)) (after (opsA (F := F)) W))) (Proc.devRef .tc main_v54) = ReadP.val_main_v54 (F := F) (W (Proc.devRef .tc main_arg1)) :=
    valC_v54 (after (opsB (F := F)) (after (opsA (F := F)) W)) (W (Proc.devRef .tc main_arg1)) hB3
  have hC80 : (after (opsC (F := F)) (after (opsB (F := F)) (after (opsA (F := F)) W))) (Proc.devRef .tc main_v80) = ReadP.val_main_v80 (F := F) (W (Proc.devRef .tc main_arg0)) (W (Proc.devRef .tc main_arg1)) (W (Proc.devRef .tc main_arg2)) (W (Proc.devRef .tc main_arg3)) (W (Proc.devRef .tc main_arg4)) :=
    valC_v80 (after (opsB (F := F)) (after (opsA (F := F)) W)) (W (Proc.devRef .tc main_arg0)) (W (Proc.devRef .tc main_arg1)) (W (Proc.devRef .tc main_arg2)) (W (Proc.devRef .tc main_arg3)) (W (Proc.devRef .tc main_arg4)) hB1 hB3 hB47 hBa4
  have hC3 : (after (opsC (F := F)) (after (opsB (F := F)) (after (opsA (F := F)) W))) (Proc.devRef .tc main_v3) = ReadP.val_main_v3 (F := F) (W (Proc.devRef .tc main_arg1)) := (keepC_v3 (after (opsB (F := F)) (after (opsA (F := F)) W))).trans hB3
  have hCa5 : (after (opsC (F := F)) (after (opsB (F := F)) (after (opsA (F := F)) W))) (Proc.devRef .tc main_arg5) = W (Proc.devRef .tc main_arg5) := (keepC_arg5 (after (opsB (F := F)) (after (opsA (F := F)) W))).trans hBa5
  exact valD_v91 (after (opsC (F := F)) (after (opsB (F := F)) (after (opsA (F := F)) W))) (W (Proc.devRef .tc main_arg0)) (W (Proc.devRef .tc main_arg1)) (W (Proc.devRef .tc main_arg2)) (W (Proc.devRef .tc main_arg3)) (W (Proc.devRef .tc main_arg4)) (W (Proc.devRef .tc main_arg5)) hC3 hC48 hC54 hC80 hCa5

theorem fold_arg0 (W : Valuation τ sig (Elt F)) :
    after (opsD (F := F)) (after (opsC (F := F)) (after (opsB (F := F)) (after (opsA (F := F)) W))) (Proc.devRef .tc main_arg0) = W (Proc.devRef .tc main_arg0) :=
  (keepD_arg0 _).trans ((keepC_arg0 _).trans ((keepB_arg0 _).trans (keepA_arg0 W)))
theorem fold_arg1 (W : Valuation τ sig (Elt F)) :
    after (opsD (F := F)) (after (opsC (F := F)) (after (opsB (F := F)) (after (opsA (F := F)) W))) (Proc.devRef .tc main_arg1) = W (Proc.devRef .tc main_arg1) :=
  (keepD_arg1 _).trans ((keepC_arg1 _).trans ((keepB_arg1 _).trans (keepA_arg1 W)))
theorem fold_arg2 (W : Valuation τ sig (Elt F)) :
    after (opsD (F := F)) (after (opsC (F := F)) (after (opsB (F := F)) (after (opsA (F := F)) W))) (Proc.devRef .tc main_arg2) = W (Proc.devRef .tc main_arg2) :=
  (keepD_arg2 _).trans ((keepC_arg2 _).trans ((keepB_arg2 _).trans (keepA_arg2 W)))
theorem fold_arg3 (W : Valuation τ sig (Elt F)) :
    after (opsD (F := F)) (after (opsC (F := F)) (after (opsB (F := F)) (after (opsA (F := F)) W))) (Proc.devRef .tc main_arg3) = W (Proc.devRef .tc main_arg3) :=
  (keepD_arg3 _).trans ((keepC_arg3 _).trans ((keepB_arg3 _).trans (keepA_arg3 W)))
theorem fold_arg4 (W : Valuation τ sig (Elt F)) :
    after (opsD (F := F)) (after (opsC (F := F)) (after (opsB (F := F)) (after (opsA (F := F)) W))) (Proc.devRef .tc main_arg4) = W (Proc.devRef .tc main_arg4) :=
  (keepD_arg4 _).trans ((keepC_arg4 _).trans ((keepB_arg4 _).trans (keepA_arg4 W)))
theorem fold_arg5 (W : Valuation τ sig (Elt F)) :
    after (opsD (F := F)) (after (opsC (F := F)) (after (opsB (F := F)) (after (opsA (F := F)) W))) (Proc.devRef .tc main_arg5) = W (Proc.devRef .tc main_arg5) :=
  (keepD_arg5 _).trans ((keepC_arg5 _).trans ((keepB_arg5 _).trans (keepA_arg5 W)))

/-! ## The run -/

/-- On every device, for any float values, from any memory with zero counters: every weakly fair execution of @main
    terminates with the result buffer at `val_main_v91` of the arguments' launch contents and the arguments unchanged. -/
theorem run_gen (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v91) = Cert.ReferenceIdeal.ReadP.val_main_v91 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v91).trans (fold_v91 (launchContents m c)),
      (h c main_arg0).trans (fold_arg0 (launchContents m c)),
      (h c main_arg1).trans (fold_arg1 (launchContents m c)),
      (h c main_arg2).trans (fold_arg2 (launchContents m c)),
      (h c main_arg3).trans (fold_arg3 (launchContents m c)),
      (h c main_arg4).trans (fold_arg4 (launchContents m c)),
      (h c main_arg5).trans (fold_arg5 (launchContents m c))⟩)
    (run_fold m ρ)

/-- The run at the ideal values (real arithmetic in place of the floats'). -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v91) = Cert.ReferenceIdeal.ReadP.val_main_v91 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  run_gen m ρ

end Cert.ReferenceIdeal.RefValue

end
-- ==== Proof.lean ====
/-
  A two-layer graph convolution on 100000 nodes and 6400000 edges, followed by a row-wise log-softmax, computed two ways.
  Both programs take the node features x [N, 1], the edge list [2, E], and two layers' weights and biases. Each layer
  is: transform the features (x·W), scale every edge's source row by the product of the two endpoints' reciprocal
  square-root degrees, scatter-add the scaled rows at the destinations, add the node's own row divided by its degree,
  add the bias; the first layer ends with the maximum with zero, the second with the log-softmax along each row.

  The kernel runs four regions on the TensorCore — the per-edge scaling of each layer on blocks of 6400 edges, the
  per-node combination and activation of each layer on blocks of 1000 nodes — among stretches of host operations (the
  degree, the gathers, the scatter-adds, the second layer's matrix product); the reference is host operations only.
  At the extended reals the two agree operation by operation: a block computes on its rows what the reference computes
  on the whole array, the blocks tile the arrays; the kernel's broadcast product x·W₁ is the reference's contraction
  over the one input feature; a division on the vector unit and one on the host are the same division; a lane reduction
  and a host reduce over the two columns are the same fold. No law of arithmetic is used beyond 0 + a = a and
  max(−∞, a) = a, so the precondition is never opened.

  The three frames are the generated frame proofs (the reference's is its run with the result dropped); the
  idealization rewrote nothing, so `preserves` is trivial; `algebraic` sets the kernel's run, its result buffer named
  and read back to the reference's last stage of the kernel's arguments, beside the reference's run.
-/
import proofs.«112933_j85907935854681_2_alg».proof.Defs
import proofs.«112933_j85907935854681_2_alg».proof.Proof.Gen.Kernel
import proofs.«112933_j85907935854681_2_alg».proof.Proof.Gen.Kernel.Skeleton
import proofs.«112933_j85907935854681_2_alg».proof.Proof.Gen.Kernel.Launch
import proofs.«112933_j85907935854681_2_alg».proof.Proof.Gen.Kernel.Points
import proofs.«112933_j85907935854681_2_alg».proof.Proof.Gen.Kernel.Frame
import proofs.«112933_j85907935854681_2_alg».proof.Proof.Gen.KernelIdeal
import proofs.«112933_j85907935854681_2_alg».proof.Proof.Gen.KernelIdeal.Skeleton
import proofs.«112933_j85907935854681_2_alg».proof.Proof.Gen.KernelIdeal.Launch
import proofs.«112933_j85907935854681_2_alg».proof.Proof.Gen.KernelIdeal.Points
import proofs.«112933_j85907935854681_2_alg».proof.Proof.Gen.KernelIdeal.Frame
import proofs.«112933_j85907935854681_2_alg».proof.Proof.Gen.ReferenceIdeal
import proofs.«112933_j85907935854681_2_alg».proof.Proof.Gen.Pre_finite_inputs
import proofs.«112933_j85907935854681_2_alg».proof.Proof.KernelRun
import proofs.«112933_j85907935854681_2_alg».proof.Proof.KernelValue
import proofs.«112933_j85907935854681_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The idealized reference runs and leaves its arguments unchanged: its run with the result dropped. -/
theorem frame_ri : Cert.frame_ReferenceIdeal := fun m ρ _ =>
  (θ_run Cert.ReferenceIdeal.defs _ _).mono (fun _ h c => (h c).2) (Cert.ReferenceIdeal.RefValue.run m ρ)

/-- At the extended reals the kernel's result array and the reference's, from memories that agree on the six
    arguments, are the same function of those arguments, entry by entry. -/
theorem algebraic : Cert.algebraic_KernelIdeal_ReferenceIdeal := by
  intro m ρ m' ρ' _ hagree
  refine ⟨fun c => Cert.ReferenceIdeal.ReadP.val_main_v91 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.GcnValue.result_eq m ρ c), (h c).2⟩)
      (Cert.KernelIdeal.GcnRun.run_named (F := Ideal) m ρ)
  · refine (θ_run Cert.ReferenceIdeal.defs _ _).mono (fun r h c => ⟨(h c).1.trans ?_, (h c).2⟩)
      (Cert.ReferenceIdeal.RefValue.run m' ρ')
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
